-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S26x32x1 : Shape := ⟨3, ![26, 32, 1]⟩
abbrev S1 : Shape := ⟨1, ![1]⟩
abbrev S_ : Shape := ⟨0, ![]⟩

class Facts : Prop where
  bcast_S_S26x32x1 : S_.BroadcastsInDim S26x32x1 (![] : Fin 0 → Fin S26x32x1.rank)
  reducesTo_S26x32x1_S_d0_1_2 : S26x32x1.ReducesTo [0, 1, 2] S_
  h_S_ : 0 < S_.numel
  bcast_S_S1 : S_.BroadcastsInDim S1 (![] : Fin 0 → Fin S1.rank)
  reducesTo_S1_S_d0 : S1.ReducesTo [0] S_
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S26x32x1 .f32) (main_arg2 : FVec F S1 .f32) : IVec S_ 1 :=
  let main_v0 : FVec F S26x32x1 .f32 := Host.absf main_arg1
  let main_cst : FVec F S_ .f32 := constant S_ .f32 0x7F800000#32
  let main_v1 : FVec F S26x32x1 .f32 := broadcastInDim S26x32x1 ![] bcast_S_S26x32x1 main_cst
  let main_v2 : IVec S26x32x1 1 := cmpf .olt main_v0 main_v1
  let main_c : IVec S_ 1 := constantI S_ 1 1#1
  let main_v3 : IVec S_ 1 := (fun x v => Host.reduce IntOp.andi x v reducesTo_S26x32x1_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S16384x26 32 := broadcastInDim S16384x26 ![] bcast_S_S16384x26 main_c_2
  let main_v10 : IVec S16384x26 1 := cmpi .sge main_arg0 main_v9
  let main_c_3 : IVec S_ 32 := constantI S_ 32 31#32
  let main_v11 : IVec S16384x26 32 := broadcastInDim S16384x26 ![] bcast_S_S16384x26 main_c_3
  let main_v12 : IVec S16384x26 1 := cmpi .sle main_arg0 main_v11
  let main_v13 : IVec S16384x26 1 := andi main_v10 main_v12
  let main_c_4 : IVec S_ 1 := constantI S_ 1 1#1
  let main_v14 : IVec S_ 1 := (fun x v => Host.reduce IntOp.andi x v reducesTo_S16384x26_S_d0_1 h_S_) main_v13 main_c_4
  let main_v15 : IVec S_ 1 := andi main_v8 main_v14
  main_v15
-- ==== Kernel.lean ====
abbrev S16384x26 : Shape := ⟨2, ![16384, 26]⟩
abbrev S26x32x1 : Shape := ⟨3, ![26, 32, 1]⟩
abbrev S1 : Shape := ⟨1, ![1]⟩
abbrev S32x512x26 : Shape := ⟨3, ![32, 512, 26]⟩
abbrev S32x26x512 : Shape := ⟨3, ![32, 26, 512]⟩
abbrev S832 : Shape := ⟨1, ![832]⟩
abbrev S16 : Shape := ⟨1, ![16]⟩
abbrev S16384 : Shape := ⟨1, ![16384]⟩
abbrev S26x512 : Shape := ⟨2, ![26, 512]⟩
abbrev S512 : Shape := ⟨1, ![512]⟩
abbrev S_ : Shape := ⟨0, ![]⟩
abbrev S1x26x512 : Shape := ⟨3, ![1, 26, 512]⟩
abbrev S1x16 : Shape := ⟨2, ![1, 16]⟩

abbrev nBuf : Table → Nat
  | .hbm => 8
  | .local .scVector .vmem => 4
  | _ => 0

abbrev bufTy : (tb : Table) → Fin (nBuf tb) → BufTy
  | .hbm, ⟨0, _⟩ => ⟨S16384x26, .i32⟩
  | .hbm, ⟨1, _⟩ => ⟨S26x32x1, .f32⟩
  | .hbm, ⟨2, _⟩ => ⟨S1, .f32⟩
  | .hbm, ⟨3, _⟩ => ⟨S32x512x26, .i32⟩
  | .hbm, ⟨4, _⟩ => ⟨S32x26x512, .i32⟩
  | .hbm, ⟨5, _⟩ => ⟨S832, .f32⟩
  | .hbm, ⟨6, _⟩ => ⟨S16, .f32⟩
  | .hbm, ⟨7, _⟩ => ⟨S16384, .f32⟩
  | .local .scVector .vmem, ⟨0, _⟩ => ⟨S832, .f32⟩
  | .local .scVector .vmem, ⟨1, _⟩ => ⟨S26x512, .i32⟩
  | .local .scVector .vmem, ⟨2, _⟩ => ⟨S512, .f32⟩
  | .local .scVector .vmem, ⟨3, _⟩ => ⟨S16, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r2 : BitVec 32 := 0#32
  let c0_i32_2_r2 : BitVec 32 := 0#32
  ![v1.toNat, 0, 0]
@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_off2 (k0_t1 : Fin k0_t1_loop.trips) : Fin 2 → Nat :=
  let c0_i32_1 : BitVec 32 := 0#32
  let v6 : Index := Scalar.indexCast c0_i32_1
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v7 : Index := Scalar.indexCast v5
  ![0, v7.toNat]

def k0_chk1 (v10 : IVec S16 32) : Prop :=
  (∀ a x, ((![v10] : Fin 1 → IVec S16 32) a x).toNat < S832.size a)
instance k0_chk1.dec : ∀ (v10 : IVec S16 32), Decidable (k0_chk1 v10) := fun v10 => decidable_of_iff' _ (Iff.of_eq (k0_chk1.eq_1 v10))
theorem k0_idx1_inb : ∀ (v10 : IVec S16 32) (k0_hw1 : k0_chk1 v10), ∀ a x, ((![v10] : Fin 1 → IVec S16 32) a x).toNat < S832.size a := fun v10 k0_hw1 => k0_hw1
def k0_off3 (k0_t1 : Fin k0_t1_loop.trips) : Fin 2 → Nat :=
  let c1_i32_3 : BitVec 32 := 1#32
  let v13 : Index := Scalar.indexCast c1_i32_3
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v14 : Index := Scalar.indexCast v5
  ![1, v14.toNat]

def k0_chk2 (v17 : IVec S16 32) : Prop :=
  (∀ a x, ((![v17] : Fin 1 → IVec S16 32) a x).toNat < S832.size a)
instance k0_chk2.dec : ∀ (v17 : IVec S16 32), Decidable (k0_chk2 v17) := fun v17 => decidable_of_iff' _ (Iff.of_eq (k0_chk2.eq_1 v17))
theorem k0_idx2_inb : ∀ (v17 : IVec S16 32) (k0_hw2 : k0_chk2 v17), ∀ a x, ((![v17] : Fin 1 → IVec S16 32) a x).toNat < S832.size a := fun v17 k0_hw2 => k0_hw2
def k0_off4 (k0_t1 : Fin k0_t1_loop.trips) : Fin 2 → Nat :=
  let c2_i32_5 : BitVec 32 := 2#32
  let v20 : Index := Scalar.indexCast c2_i32_5
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v21 : Index := Scalar.indexCast v5
  ![2, v21.toNat]

def k0_chk3 (v24 : IVec S16 32) : Prop :=
  (∀ a x, ((![v24] : Fin 1 → IVec S16 32) a x).toNat < S832.size a)
instance k0_chk3.dec : ∀ (v24 : IVec S16 32), Decidable (k0_chk3 v24) := fun v24 => decidable_of_iff' _ (Iff.of_eq (k0_chk3.eq_1 v24))
theorem k0_idx3_inb : ∀ (v24 : IVec S16 32) (k0_hw3 : k0_chk3 v24), ∀ a x, ((![v24] : Fin 1 → IVec S16 32) a x).toNat < S832.size a := fun v24 k0_hw3 => k0_hw3
def k0_off5 (k0_t1 : Fin k0_t1_loop.trips) : Fin 2 → Nat :=
  let c3_i32 : BitVec 32 := 3#32
  let v27 : Index := Scalar.indexCast c3_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v28 : Index := Scalar.indexCast v5
  ![3, v28.toNat]

def k0_chk4 (v31 : IVec S16 32) : Prop :=
  (∀ a x, ((![v31] : Fin 1 → IVec S16 32) a x).toNat < S832.size a)
instance k0_chk4.dec : ∀ (v31 : IVec S16 32), Decidable (k0_chk4 v31) := fun v31 => decidable_of_iff' _ (Iff.of_eq (k0_chk4.eq_1 v31))
theorem k0_idx4_inb : ∀ (v31 : IVec S16 32) (k0_hw4 : k0_chk4 v31), ∀ a x, ((![v31] : Fin 1 → IVec S16 32) a x).toNat < S832.size a := fun v31 k0_hw4 => k0_hw4
def k0_off6 (k0_t1 : Fin k0_t1_loop.trips) : Fin 2 → Nat :=
  let c4_i32 : BitVec 32 := 4#32
  let v34 : Index := Scalar.indexCast c4_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v35 : Index := Scalar.indexCast v5
  ![4, v35.toNat]

def k0_chk5 (v38 : IVec S16 32) : Prop :=
  (∀ a x, ((![v38] : Fin 1 → IVec S16 32) a x).toNat < S832.size a)
instance k0_chk5.dec : ∀ (v38 : IVec S16 32), Decidable (k0_chk5 v38) := fun v38 => decidable_of_iff' _ (Iff.of_eq (k0_chk5.eq_1 v38))
theorem k0_idx5_inb : ∀ (v38 : IVec S16 32) (k0_hw5 : k0_chk5 v38), ∀ a x, ((![v38] : Fin 1 → IVec S16 32) a x).toNat < S832.size a := fun v38 k0_hw5 => k0_hw5
def k0_off7 (k0_t1 : Fin k0_t1_loop.trips) : Fin 2 → Nat :=
  let c5_i32 : BitVec 32 := 5#32
  let v41 : Index := Scalar.indexCast c5_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v42 : Index := Scalar.indexCast v5
  ![5, v42.toNat]

def k0_chk6 (v45 : IVec S16 32) : Prop :=
  (∀ a x, ((![v45] : Fin 1 → IVec S16 32) a x).toNat < S832.size a)
instance k0_chk6.dec : ∀ (v45 : IVec S16 32), Decidable (k0_chk6 v45) := fun v45 => decidable_of_iff' _ (Iff.of_eq (k0_chk6.eq_1 v45))
theorem k0_idx6_inb : ∀ (v45 : IVec S16 32) (k0_hw6 : k0_chk6 v45), ∀ a x, ((![v45] : Fin 1 → IVec S16 32) a x).toNat < S832.size a := fun v45 k0_hw6 => k0_hw6
def k0_off8 (k0_t1 : Fin k0_t1_loop.trips) : Fin 2 → Nat :=
  let c6_i32 : BitVec 32 := 6#32
  let v48 : Index := Scalar.indexCast c6_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v49 : Index := Scalar.indexCast v5
  ![6, v49.toNat]

def k0_chk7 (v52 : IVec S16 32) : Prop :=
  (∀ a x, ((![v52] : Fin 1 → IVec S16 32) a x).toNat < S832.size a)
instance k0_chk7.dec : ∀ (v52 : IVec S16 32), Decidable (k0_chk7 v52) := fun v52 => decidable_of_iff' _ (Iff.of_eq (k0_chk7.eq_1 v52))
theorem k0_idx7_inb : ∀ (v52 : IVec S16 32) (k0_hw7 : k0_chk7 v52), ∀ a x, ((![v52] : Fin 1 → IVec S16 32) a x).toNat < S832.size a := fun v52 k0_hw7 => k0_hw7
def k0_off9 (k0_t1 : Fin k0_t1_loop.trips) : Fin 2 → Nat :=
  let c7_i32 : BitVec 32 := 7#32
  let v55 : Index := Scalar.indexCast c7_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v56 : Index := Scalar.indexCast v5
  ![7, v56.toNat]

def k0_chk8 (v59 : IVec S16 32) : Prop :=
  (∀ a x, ((![v59] : Fin 1 → IVec S16 32) a x).toNat < S832.size a)
instance k0_chk8.dec : ∀ (v59 : IVec S16 32), Decidable (k0_chk8 v59) := fun v59 => decidable_of_iff' _ (Iff.of_eq (k0_chk8.eq_1 v59))
theorem k0_idx8_inb : ∀ (v59 : IVec S16 32) (k0_hw8 : k0_chk8 v59), ∀ a x, ((![v59] : Fin 1 → IVec S16 32) a x).toNat < S832.size a := fun v59 k0_hw8 => k0_hw8
def k0_off10 (k0_t1 : Fin k0_t1_loop.trips) : Fin 2 → Nat :=
  let c8_i32 : BitVec 32 := 8#32
  let v62 : Index := Scalar.indexCast c8_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v63 : Index := Scalar.indexCast v5
  ![8, v63.toNat]

def k0_chk9 (v66 : IVec S16 32) : Prop :=
  (∀ a x, ((![v66] : Fin 1 → IVec S16 32) a x).toNat < S832.size a)
instance k0_chk9.dec : ∀ (v66 : IVec S16 32), Decidable (k0_chk9 v66) := fun v66 => decidable_of_iff' _ (Iff.of_eq (k0_chk9.eq_1 v66))
theorem k0_idx9_inb : ∀ (v66 : IVec S16 32) (k0_hw9 : k0_chk9 v66), ∀ a x, ((![v66] : Fin 1 → IVec S16 32) a x).toNat < S832.size a := fun v66 k0_hw9 => k0_hw9
def k0_off11 (k0_t1 : Fin k0_t1_loop.trips) : Fin 2 → Nat :=
  let c9_i32 : BitVec 32 := 9#32
  let v69 : Index := Scalar.indexCast c9_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v70 : Index := Scalar.indexCast v5
  ![9, v70.toNat]

def k0_chk10 (v73 : IVec S16 32) : Prop :=
  (∀ a x, ((![v73] : Fin 1 → IVec S16 32) a x).toNat < S832.size a)
instance k0_chk10.dec : ∀ (v73 : IVec S16 32), Decidable (k0_chk10 v73) := fun v73 => decidable_of_iff' _ (Iff.of_eq (k0_chk10.eq_1 v73))
theorem k0_idx10_inb : ∀ (v73 : IVec S16 32) (k0_hw10 : k0_chk10 v73), ∀ a x, ((![v73] : Fin 1 → IVec S16 32) a x).toNat < S832.size a := fun v73 k0_hw10 => k0_hw10
def k0_off12 (k0_t1 : Fin k0_t1_loop.trips) : Fin 2 → Nat :=
  let c10_i32 : BitVec 32 := 10#32
  let v76 : Index := Scalar.indexCast c10_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v77 : Index := Scalar.indexCast v5
  ![10, v77.toNat]

def k0_chk11 (v80 : IVec S16 32) : Prop :=
  (∀ a x, ((![v80] : Fin 1 → IVec S16 32) a x).toNat < S832.size a)
instance k0_chk11.dec : ∀ (v80 : IVec S16 32), Decidable (k0_chk11 v80) := fun v80 => decidable_of_iff' _ (Iff.of_eq (k0_chk11.eq_1 v80))
theorem k0_idx11_inb : ∀ (v80 : IVec S16 32) (k0_hw11 : k0_chk11 v80), ∀ a x, ((![v80] : Fin 1 → IVec S16 32) a x).toNat < S832.size a := fun v80 k0_hw11 => k0_hw11
def k0_off13 (k0_t1 : Fin k0_t1_loop.trips) : Fin 2 → Nat :=
  let c11_i32 : BitVec 32 := 11#32
  let v83 : Index := Scalar.indexCast c11_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v84 : Index := Scalar.indexCast v5
  ![11, v84.toNat]

def k0_chk12 (v87 : IVec S16 32) : Prop :=
  (∀ a x, ((![v87] : Fin 1 → IVec S16 32) a x).toNat < S832.size a)
instance k0_chk12.dec : ∀ (v87 : IVec S16 32), Decidable (k0_chk12 v87) := fun v87 => decidable_of_iff' _ (Iff.of_eq (k0_chk12.eq_1 v87))
theorem k0_idx12_inb : ∀ (v87 : IVec S16 32) (k0_hw12 : k0_chk12 v87), ∀ a x, ((![v87] : Fin 1 → IVec S16 32) a x).toNat < S832.size a := fun v87 k0_hw12 => k0_hw12
def k0_off14 (k0_t1 : Fin k0_t1_loop.trips) : Fin 2 → Nat :=
  let c12_i32 : BitVec 32 := 12#32
  let v90 : Index := Scalar.indexCast c12_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v91 : Index := Scalar.indexCast v5
  ![12, v91.toNat]

def k0_chk13 (v94 : IVec S16 32) : Prop :=
  (∀ a x, ((![v94] : Fin 1 → IVec S16 32) a x).toNat < S832.size a)
instance k0_chk13.dec : ∀ (v94 : IVec S16 32), Decidable (k0_chk13 v94) := fun v94 => decidable_of_iff' _ (Iff.of_eq (k0_chk13.eq_1 v94))
theorem k0_idx13_inb : ∀ (v94 : IVec S16 32) (k0_hw13 : k0_chk13 v94), ∀ a x, ((![v94] : Fin 1 → IVec S16 32) a x).toNat < S832.size a := fun v94 k0_hw13 => k0_hw13
def k0_off15 (k0_t1 : Fin k0_t1_loop.trips) : Fin 2 → Nat :=
  let c13_i32 : BitVec 32 := 13#32
  let v97 : Index := Scalar.indexCast c13_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v98 : Index := Scalar.indexCast v5
  ![13, v98.toNat]

def k0_chk14 (v101 : IVec S16 32) : Prop :=
  (∀ a x, ((![v101] : Fin 1 → IVec S16 32) a x).toNat < S832.size a)
instance k0_chk14.dec : ∀ (v101 : IVec S16 32), Decidable (k0_chk14 v101) := fun v101 => decidable_of_iff' _ (Iff.of_eq (k0_chk14.eq_1 v101))
theorem k0_idx14_inb : ∀ (v101 : IVec S16 32) (k0_hw14 : k0_chk14 v101), ∀ a x, ((![v101] : Fin 1 → IVec S16 32) a x).toNat < S832.size a := fun v101 k0_hw14 => k0_hw14
def k0_off16 (k0_t1 : Fin k0_t1_loop.trips) : Fin 2 → Nat :=
  let c14_i32 : BitVec 32 := 14#32
  let v104 : Index := Scalar.indexCast c14_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v105 : Index := Scalar.indexCast v5
  ![14, v105.toNat]

def k0_chk15 (v108 : IVec S16 32) : Prop :=
  (∀ a x, ((![v108] : Fin 1 → IVec S16 32) a x).toNat < S832.size a)
instance k0_chk15.dec : ∀ (v108 : IVec S16 32), Decidable (k0_chk15 v108) := fun v108 => decidable_of_iff' _ (Iff.of_eq (k0_chk15.eq_1 v108))
theorem k0_idx15_inb : ∀ (v108 : IVec S16 32) (k0_hw15 : k0_chk15 v108), ∀ a x, ((![v108] : Fin 1 → IVec S16 32) a x).toNat < S832.size a := fun v108 k0_hw15 => k0_hw15
def k0_off17 (k0_t1 : Fin k0_t1_loop.trips) : Fin 2 → Nat :=
  let c15_i32 : BitVec 32 := 15#32
  let v111 : Index := Scalar.indexCast c15_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v112 : Index := Scalar.indexCast v5
  ![15, v112.toNat]

def k0_chk16 (v115 : IVec S16 32) : Prop :=
  (∀ a x, ((![v115] : Fin 1 → IVec S16 32) a x).toNat < S832.size a)
instance k0_chk16.dec : ∀ (v115 : IVec S16 32), Decidable (k0_chk16 v115) := fun v115 => decidable_of_iff' _ (Iff.of_eq (k0_chk16.eq_1 v115))
theorem k0_idx16_inb : ∀ (v115 : IVec S16 32) (k0_hw16 : k0_chk16 v115), ∀ a x, ((![v115] : Fin 1 → IVec S16 32) a x).toNat < S832.size a := fun v115 k0_hw16 => k0_hw16
def k0_off18 (k0_t1 : Fin k0_t1_loop.trips) : Fin 2 → Nat :=
  let c16_i32_6 : BitVec 32 := 16#32
  let v118 : Index := Scalar.indexCast c16_i32_6
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v119 : Index := Scalar.indexCast v5
  ![16, v119.toNat]

def k0_chk17 (v122 : IVec S16 32) : Prop :=
  (∀ a x, ((![v122] : Fin 1 → IVec S16 32) a x).toNat < S832.size a)
instance k0_chk17.dec : ∀ (v122 : IVec S16 32), Decidable (k0_chk17 v122) := fun v122 => decidable_of_iff' _ (Iff.of_eq (k0_chk17.eq_1 v122))
theorem k0_idx17_inb : ∀ (v122 : IVec S16 32) (k0_hw17 : k0_chk17 v122), ∀ a x, ((![v122] : Fin 1 → IVec S16 32) a x).toNat < S832.size a := fun v122 k0_hw17 => k0_hw17
def k0_off19 (k0_t1 : Fin k0_t1_loop.trips) : Fin 2 → Nat :=
  let c17_i32 : BitVec 32 := 17#32
  let v125 : Index := Scalar.indexCast c17_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v126 : Index := Scalar.indexCast v5
  ![17, v126.toNat]

def k0_chk18 (v129 : IVec S16 32) : Prop :=
  (∀ a x, ((![v129] : Fin 1 → IVec S16 32) a x).toNat < S832.size a)
instance k0_chk18.dec : ∀ (v129 : IVec S16 32), Decidable (k0_chk18 v129) := fun v129 => decidable_of_iff' _ (Iff.of_eq (k0_chk18.eq_1 v129))
theorem k0_idx18_inb : ∀ (v129 : IVec S16 32) (k0_hw18 : k0_chk18 v129), ∀ a x, ((![v129] : Fin 1 → IVec S16 32) a x).toNat < S832.size a := fun v129 k0_hw18 => k0_hw18
def k0_off20 (k0_t1 : Fin k0_t1_loop.trips) : Fin 2 → Nat :=
  let c18_i32 : BitVec 32 := 18#32
  let v132 : Index := Scalar.indexCast c18_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v133 : Index := Scalar.indexCast v5
  ![18, v133.toNat]

def k0_chk19 (v136 : IVec S16 32) : Prop :=
  (∀ a x, ((![v136] : Fin 1 → IVec S16 32) a x).toNat < S832.size a)
instance k0_chk19.dec : ∀ (v136 : IVec S16 32), Decidable (k0_chk19 v136) := fun v136 => decidable_of_iff' _ (Iff.of_eq (k0_chk19.eq_1 v136))
theorem k0_idx19_inb : ∀ (v136 : IVec S16 32) (k0_hw19 : k0_chk19 v136), ∀ a x, ((![v136] : Fin 1 → IVec S16 32) a x).toNat < S832.size a := fun v136 k0_hw19 => k0_hw19
def k0_off21 (k0_t1 : Fin k0_t1_loop.trips) : Fin 2 → Nat :=
  let c19_i32 : BitVec 32 := 19#32
  let v139 : Index := Scalar.indexCast c19_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v140 : Index := Scalar.indexCast v5
  ![19, v140.toNat]

def k0_chk20 (v143 : IVec S16 32) : Prop :=
  (∀ a x, ((![v143] : Fin 1 → IVec S16 32) a x).toNat < S832.size a)
instance k0_chk20.dec : ∀ (v143 : IVec S16 32), Decidable (k0_chk20 v143) := fun v143 => decidable_of_iff' _ (Iff.of_eq (k0_chk20.eq_1 v143))
theorem k0_idx20_inb : ∀ (v143 : IVec S16 32) (k0_hw20 : k0_chk20 v143), ∀ a x, ((![v143] : Fin 1 → IVec S16 32) a x).toNat < S832.size a := fun v143 k0_hw20 => k0_hw20
def k0_off22 (k0_t1 : Fin k0_t1_loop.trips) : Fin 2 → Nat :=
  let c20_i32 : BitVec 32 := 20#32
  let v146 : Index := Scalar.indexCast c20_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v147 : Index := Scalar.indexCast v5
  ![20, v147.toNat]

def k0_chk21 (v150 : IVec S16 32) : Prop :=
  (∀ a x, ((![v150] : Fin 1 → IVec S16 32) a x).toNat < S832.size a)
instance k0_chk21.dec : ∀ (v150 : IVec S16 32), Decidable (k0_chk21 v150) := fun v150 => decidable_of_iff' _ (Iff.of_eq (k0_chk21.eq_1 v150))
theorem k0_idx21_inb : ∀ (v150 : IVec S16 32) (k0_hw21 : k0_chk21 v150), ∀ a x, ((![v150] : Fin 1 → IVec S16 32) a x).toNat < S832.size a := fun v150 k0_hw21 => k0_hw21
def k0_off23 (k0_t1 : Fin k0_t1_loop.trips) : Fin 2 → Nat :=
  let c21_i32 : BitVec 32 := 21#32
  let v153 : Index := Scalar.indexCast c21_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v154 : Index := Scalar.indexCast v5
  ![21, v154.toNat]

def k0_chk22 (v157 : IVec S16 32) : Prop :=
  (∀ a x, ((![v157] : Fin 1 → IVec S16 32) a x).toNat < S832.size a)
instance k0_chk22.dec : ∀ (v157 : IVec S16 32), Decidable (k0_chk22 v157) := fun v157 => decidable_of_iff' _ (Iff.of_eq (k0_chk22.eq_1 v157))
theorem k0_idx22_inb : ∀ (v157 : IVec S16 32) (k0_hw22 : k0_chk22 v157), ∀ a x, ((![v157] : Fin 1 → IVec S16 32) a x).toNat < S832.size a := fun v157 k0_hw22 => k0_hw22
def k0_off24 (k0_t1 : Fin k0_t1_loop.trips) : Fin 2 → Nat :=
  let c22_i32 : BitVec 32 := 22#32
  let v160 : Index := Scalar.indexCast c22_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v161 : Index := Scalar.indexCast v5
  ![22, v161.toNat]

def k0_chk23 (v164 : IVec S16 32) : Prop :=
  (∀ a x, ((![v164] : Fin 1 → IVec S16 32) a x).toNat < S832.size a)
instance k0_chk23.dec : ∀ (v164 : IVec S16 32), Decidable (k0_chk23 v164) := fun v164 => decidable_of_iff' _ (Iff.of_eq (k0_chk23.eq_1 v164))
theorem k0_idx23_inb : ∀ (v164 : IVec S16 32) (k0_hw23 : k0_chk23 v164), ∀ a x, ((![v164] : Fin 1 → IVec S16 32) a x).toNat < S832.size a := fun v164 k0_hw23 => k0_hw23
def k0_off25 (k0_t1 : Fin k0_t1_loop.trips) : Fin 2 → Nat :=
  let c23_i32 : BitVec 32 := 23#32
  let v167 : Index := Scalar.indexCast c23_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v168 : Index := Scalar.indexCast v5
  ![23, v168.toNat]

def k0_chk24 (v171 : IVec S16 32) : Prop :=
  (∀ a x, ((![v171] : Fin 1 → IVec S16 32) a x).toNat < S832.size a)
instance k0_chk24.dec : ∀ (v171 : IVec S16 32), Decidable (k0_chk24 v171) := fun v171 => decidable_of_iff' _ (Iff.of_eq (k0_chk24.eq_1 v171))
theorem k0_idx24_inb : ∀ (v171 : IVec S16 32) (k0_hw24 : k0_chk24 v171), ∀ a x, ((![v171] : Fin 1 → IVec S16 32) a x).toNat < S832.size a := fun v171 k0_hw24 => k0_hw24
def k0_off26 (k0_t1 : Fin k0_t1_loop.trips) : Fin 2 → Nat :=
  let c24_i32 : BitVec 32 := 24#32
  let v174 : Index := Scalar.indexCast c24_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v175 : Index := Scalar.indexCast v5
  ![24, v175.toNat]

def k0_chk25 (v178 : IVec S16 32) : Prop :=
  (∀ a x, ((![v178] : Fin 1 → IVec S16 32) a x).toNat < S832.size a)
instance k0_chk25.dec : ∀ (v178 : IVec S16 32), Decidable (k0_chk25 v178) := fun v178 => decidable_of_iff' _ (Iff.of_eq (k0_chk25.eq_1 v178))
theorem k0_idx25_inb : ∀ (v178 : IVec S16 32) (k0_hw25 : k0_chk25 v178), ∀ a x, ((![v178] : Fin 1 → IVec S16 32) a x).toNat < S832.size a := fun v178 k0_hw25 => k0_hw25
def k0_off27 (k0_t1 : Fin k0_t1_loop.trips) : Fin 2 → Nat :=
  let c25_i32 : BitVec 32 := 25#32
  let v181 : Index := Scalar.indexCast c25_i32
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v182 : Index := Scalar.indexCast v5
  ![25, v182.toNat]

def k0_chk26 (v185 : IVec S16 32) : Prop :=
  (∀ a x, ((![v185] : Fin 1 → IVec S16 32) a x).toNat < S832.size a)
instance k0_chk26.dec : ∀ (v185 : IVec S16 32), Decidable (k0_chk26 v185) := fun v185 => decidable_of_iff' _ (Iff.of_eq (k0_chk26.eq_1 v185))
theorem k0_idx26_inb : ∀ (v185 : IVec S16 32) (k0_hw26 : k0_chk26 v185), ∀ a x, ((![v185] : Fin 1 → IVec S16 32) a x).toNat < S832.size a := fun v185 k0_hw26 => k0_hw26
def k0_off28 (k0_t1 : Fin k0_t1_loop.trips) : Fin 1 → Nat :=
  let c0_i32 : BitVec 32 := 0#32
  let c1_i32 : BitVec 32 := 1#32
  let arg10 : BitVec 32 := Scf.iv c0_i32 c1_i32 k0_t1
  let c16_i32 : BitVec 32 := 16#32
  let v5 : BitVec 32 := Scalar.muli arg10 c16_i32
  let v188 : Index := Scalar.indexCast v5
  ![v188.toNat]
def k0_off29 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x26_S32x512x26 : S16384x26.ShapeCasts S32x512x26
  transposes_S32x512x26_S32x26x512_0_2_1 : S32x512x26.Transposes [0, 2, 1] S32x26x512
  shapeCasts_S26x32x1_S832 : S26x32x1.ShapeCasts S832
  bcast_S1_S16_0 : S1.BroadcastsInDim S16 (![0] : Fin 1 → Fin S16.rank)
  squeezes_S1x26x512_S26x512 : S1x26x512.Squeezes S26x512
  inb_S16_S16_0 : ∀ a, (![0] : Fin 1 → Nat) a + S16.size a ≤ S16.size a
  h_S16 : 0 < S16.numel
  h_S1x16 : 0 < S1x16.numel
  shapeCasts_S1x16_S16 : S1x16.ShapeCasts S16
  h_S832 : 0 < S832.numel
  hcc0_scoped0 : 0 + S_.numel ≤ 4
  hcc0_scoped1 : 1 + S_.numel ≤ 4
  hcc0_scoped2 : 2 + S_.numel ≤ 4
  hcc0_scoped3 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x26x512.size a ≤ S32x26x512.size a
  k0_t1_ok : k0_t1_loop.OK
  k0_off2_inb : ∀ k0_t1 : Fin k0_t1_loop.trips, ∀ a, (k0_off2 k0_t1) a + S1x16.size a ≤ S26x512.size a
  k0_off3_inb : ∀ k0_t1 : Fin k0_t1_loop.trips, ∀ a, (k0_off3 k0_t1) a + S1x16.size a ≤ S26x512.size a
  k0_off4_inb : ∀ k0_t1 : Fin k0_t1_loop.trips, ∀ a, (k0_off4 k0_t1) a + S1x16.size a ≤ S26x512.size a
  k0_off5_inb : ∀ k0_t1 : Fin k0_t1_loop.trips, ∀ a, (k0_off5 k0_t1) a + S1x16.size a ≤ S26x512.size a
  k0_off6_inb : ∀ k0_t1 : Fin k0_t1_loop.trips, ∀ a, (k0_off6 k0_t1) a + S1x16.size a ≤ S26x512.size a
  k0_off7_inb : ∀ k0_t1 : Fin k0_t1_loop.trips, ∀ a, (k0_off7 k0_t1) a + S1x16.size a ≤ S26x512.size a
  k0_off8_inb : ∀ k0_t1 : Fin k0_t1_loop.trips, ∀ a, (k0_off8 k0_t1) a + S1x16.size a ≤ S26x512.size a
  k0_off9_inb : ∀ k0_t1 : Fin k0_t1_loop.trips, ∀ a, (k0_off9 k0_t1) a + S1x16.size a ≤ S26x512.size a
  k0_off10_inb : ∀ k0_t1 : Fin k0_t1_loop.trips, ∀ a, (k0_off10 k0_t1) a + S1x16.size a ≤ S26x512.size a
  k0_off11_inb : ∀ k0_t1 : Fin k0_t1_loop.trips, ∀ a, (k0_off11 k0_t1) a + S1x16.size a ≤ S26x512.size a
  k0_off12_inb : ∀ k0_t1 : Fin k0_t1_loop.trips, ∀ a, (k0_off12 k0_t1) a + S1x16.size a ≤ S26x512.size a
  k0_off13_inb : ∀ k0_t1 : Fin k0_t1_loop.trips, ∀ a, (k0_off13 k0_t1) a + S1x16.size a ≤ S26x512.size a
  k0_off14_inb : ∀ k0_t1 : Fin k0_t1_loop.trips, ∀ a, (k0_off14 k0_t1) a + S1x16.size a ≤ S26x512.size a
  k0_off15_inb : ∀ k0_t1 : Fin k0_t1_loop.trips, ∀ a, (k0_off15 k0_t1) a + S1x16.size a ≤ S26x512.size a
  k0_off16_inb : ∀ k0_t1 : Fin k0_t1_loop.trips, ∀ a, (k0_off16 k0_t1) a + S1x16.size a ≤ S26x512.size a
  k0_off17_inb : ∀ k0_t1 : Fin k0_t1_loop.trips, ∀ a, (k0_off17 k0_t1) a + S1x16.size a ≤ S26x512.size a
  k0_off18_inb : ∀ k0_t1 : Fin k0_t1_loop.trips, ∀ a, (k0_off18 k0_t1) a + S1x16.size a ≤ S26x512.size a
  k0_off19_inb : ∀ k0_t1 : Fin k0_t1_loop.trips, ∀ a, (k0_off19 k0_t1) a + S1x16.size a ≤ S26x512.size a
  k0_off20_inb : ∀ k0_t1 : Fin k0_t1_loop.trips, ∀ a, (k0_off20 k0_t1) a + S1x16.size a ≤ S26x512.size a
  k0_off21_inb : ∀ k0_t1 : Fin k0_t1_loop.trips, ∀ a, (k0_off21 k0_t1) a + S1x16.size a ≤ S26x512.size a
  k0_off22_inb : ∀ k0_t1 : Fin k0_t1_loop.trips, ∀ a, (k0_off22 k0_t1) a + S1x16.size a ≤ S26x512.size a
  k0_off23_inb : ∀ k0_t1 : Fin k0_t1_loop.trips, ∀ a, (k0_off23 k0_t1) a + S1x16.size a ≤ S26x512.size a
  k0_off24_inb : ∀ k0_t1 : Fin k0_t1_loop.trips, ∀ a, (k0_off24 k0_t1) a + S1x16.size a ≤ S26x512.size a
  k0_off25_inb : ∀ k0_t1 : Fin k0_t1_loop.trips, ∀ a, (k0_off25 k0_t1) a + S1x16.size a ≤ S26x512.size a
  k0_off26_inb : ∀ k0_t1 : Fin k0_t1_loop.trips, ∀ a, (k0_off26 k0_t1) a + S1x16.size a ≤ S26x512.size a
  k0_off27_inb : ∀ k0_t1 : Fin k0_t1_loop.trips, ∀ a, (k0_off27 k0_t1) a + S1x16.size a ≤ S26x512.size a
  k0_off28_inb : ∀ k0_t1 : Fin k0_t1_loop.trips, ∀ a, (k0_off28 k0_t1) a + S16.size a ≤ S512.size a
  k0_off29_inb : ∀ i : grid0.Coords, ∀ a, (k0_off29 i) a + S512.size a ≤ S16384.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3

class Facts : Prop extends Facts₀ where

variable [Facts]
-- ==== ReferenceIdeal.lean ====
abbrev S16384x26 : Shape := ⟨2, ![16384, 26]⟩
abbrev S26x32x1 : Shape := ⟨3, ![26, 32, 1]⟩
abbrev S1 : Shape := ⟨1, ![1]⟩
abbrev S26x32 : Shape := ⟨2, ![26, 32]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384 : Shape := ⟨1, ![16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x32x1, .f32⟩
  | .hbm, ⟨2, _⟩ => ⟨S1, .f32⟩
  | .hbm, ⟨3, _⟩ => ⟨S26x32, .f32⟩
  | .hbm, ⟨4, _⟩ => ⟨S26, .i32⟩
  | .hbm, ⟨5, _⟩ => ⟨S1x26, .i32⟩
  | .hbm, ⟨6, _⟩ => ⟨S_, .i32⟩
  | .hbm, ⟨7, _⟩ => ⟨S1x26, .i32⟩
  | .hbm, ⟨8, _⟩ => ⟨S1x26, .i1⟩
  | .hbm, ⟨9, _⟩ => ⟨S_, .i32⟩
  | .hbm, ⟨10, _⟩ => ⟨S1x26, .i32⟩
  | .hbm, ⟨11, _⟩ => ⟨S1x26, .i32⟩
  | .hbm, ⟨12, _⟩ => ⟨S1x26, .i32⟩
  | .hbm, ⟨13, _⟩ => ⟨S_, .i32⟩
  | .hbm, ⟨14, _⟩ => ⟨S16384x26, .i32⟩
  | .hbm, ⟨15, _⟩ => ⟨S16384x26, .i1⟩
  | .hbm, ⟨16, _⟩ => ⟨S_, .i32⟩
  | .hbm, ⟨17, _⟩ => ⟨S16384x26, .i32⟩
  | .hbm, ⟨18, _⟩ => ⟨S16384x26, .i32⟩
  | .hbm, ⟨19, _⟩ => ⟨S16384x26, .i32⟩
  | .hbm, ⟨20, _⟩ => ⟨S16384x26, .i32⟩
  | .hbm, ⟨21, _⟩ => ⟨S16384x26x1, .i32⟩
  | .hbm, ⟨22, _⟩ => ⟨S16384x26x1, .i32⟩
  | .hbm, ⟨23, _⟩ => ⟨S16384x26x2, .i32⟩
  | .hbm, ⟨24, _⟩ => ⟨S16384x26, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  shapeCasts_S26x32x1_S26x32 : S26x32x1.ShapeCasts S26x32
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bcast_S1_S16384_0 : S1.BroadcastsInDim S16384 (![0] : Fin 1 → Fin S16384.rank)
  reducesTo_S16384x26_S16384_d1 : S16384x26.ReducesTo [1] S16384
  h_S_ : 0 < S_.numel
  gather_S26x32_S16384x26x2_S16384x26_n_01_n_n_01_2_11_wf : GatherDims.WF S26x32 S16384x26x2 S16384x26 [] [0, 1] [] [0, 1] [] 2 ![1, 1]

variable [Facts₀]

def gather_S26x32_S16384x26x2_S16384x26_n_01_n_n_01_2_11 : GatherDims S26x32 S16384x26x2 S16384x26 where
  offsetDims := []
  collapsedSliceDims := [0, 1]
  operandBatchingDims := []
  startIndicesBatchingDims := []
  startIndexMap := [0, 1]
  indexVectorDim := 2
  sliceSizes := ![1, 1]
  wf := gather_S26x32_S16384x26x2_S16384x26_n_01_n_n_01_2_11_wf

class Facts : Prop extends Facts₀ where

variable [Facts]
-- ==== Proof.RefSide.lean ====
/-
  The reference's side: what its run leaves in the result array, read index by index.
-/
import proofs.«206722_g31198642438219_cont_8to1_b_1255_3_alg».proof.Defs
import proofs.«206722_g31198642438219_cont_8to1_b_1255_3_alg».proof.Proof.Gen.ReferenceIdeal
import proofs.«206722_g31198642438219_cont_8to1_b_1255_3_alg».proof.Proof.Gen.Pre_input_domain
import proofs.«206722_g31198642438219_cont_8to1_b_1255_3_alg».proof.Proof.Gen.ReferenceIdeal.Run
import proofs.«206722_g31198642438219_cont_8to1_b_1255_3_alg».proof.Proof.Gen.ReferenceIdeal.Read
import Idealize.ShloMosaic.Lib.ValueIdx
import Idealize.ShloMosaic.Lib.Pipeline.Value
import Idealize.ShloMosaic.PureOps.Ideal.Laws

noncomputable section

namespace Cert.Proof.RefSide

open Idealize.ShloMosaic Idealize.SL.Sem

/-- The reference has no kernel: its frame is its run with the result's value dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.RefValue.lean ====
/-
  The reference's value, index by index. The reference gathers, for each row b and feature f, the entry of the
  26 × 32 table at (f', X'[b, f]), where f' and X' are f and X[b, f] with 26, respectively 32, added when signed-negative,
  and adds the 26 gathered entries to the bias. When every word of X is below 32 neither addition is taken and no
  clamp of the gather moves an index: the result at b is bias + Σ_f table[f, X[b, f]].
-/
import proofs.«206722_g31198642438219_cont_8to1_b_1255_3_alg».proof.Defs
import proofs.«206722_g31198642438219_cont_8to1_b_1255_3_alg».proof.Proof.Gen.ReferenceIdeal
import proofs.«206722_g31198642438219_cont_8to1_b_1255_3_alg».proof.Proof.Gen.ReferenceIdeal.Run
import proofs.«206722_g31198642438219_cont_8to1_b_1255_3_alg».proof.Proof.Gen.ReferenceIdeal.Read
import Idealize.ShloMosaic.Lib.ValueIdx
import Idealize.ShloMosaic.Lib.Pipeline.Value
import Idealize.ShloMosaic.PureOps.Ideal.Laws

noncomputable section

namespace Cert.Proof.RefValue

open Idealize.ShloMosaic Idealize.SL.Sem Idealize.ShloMosaic.ValueIdx
open Cert.ReferenceIdeal Cert.ReferenceIdeal.Gen Cert.ReferenceIdeal.Read

/-! ## Words below 32 -/

/-- A 32-bit word below 32 is its own signed value. -/
theorem toInt_of_small (v : BitVec 32) (h : v.toNat < 32) : v.toInt = (v.toNat : Int) := by
  rw [BitVec.toInt_eq_toNat_cond, if_pos (by omega)]

/-- Such a word is not signed-below zero. -/
theorem slt_zero_of_small (v : BitVec 32) (h : v.toNat < 32) : IntOp.cmpi .slt v 0#32 = 0#1 := by
  have h0 : (0#32 : BitVec 32).toInt = 0 := by decide
  have hs : v.slt 0#32 = false := by
    simp only [BitVec.slt, toInt_of_small v h, h0, decide_eq_false_iff_not]
    omega
  show BitVec.ofBool (v.slt 0#32) = 0#1
  rw [hs]; rfl

/-- The negative-index wrap leaves such a word alone. -/
theorem wrap_of_small (v c : BitVec 32) (h : v.toNat < 32) :
    Scalar.select (IntOp.cmpi .slt v 0#32) (IntOp.addi v c) v = v := by
  rw [slt_zero_of_small v h, select_zero]

/-- Its signed value, as a natural number, clamped at a bound it is below, is the word. -/
theorem clamp_of_small (v : BitVec 32) (h : v.toNat < 32) (n : Nat) (hn : v.toNat ≤ n) : min v.toInt.toNat n = v.toNat := by
  rw [toInt_of_small v h, Int.toNat_natCast]; omega

/-! ## The two-coordinate gather, read at an index -/

local notation "gd" => gather_S26x32_S16384x26x2_S16384x26_n_01_n_n_01_2_11

/-- Result element (r, f) is the operand at (the word at (r, f, 0), the word at (r, f, 1)), each read signed and
    clamped into its axis: both operand axes are collapsed and named by the start index map, none is batching. -/
theorem gather_pair_apply {α : Type} {w : Nat} (x : S26x32.Idx → α) (idx : IVec S16384x26x2 w) (r : Fin 16384) (f : Fin 26) :
    Host.gather gd x idx (ix2 r f)
      = x (ix2 (⟨min (idx (ix3 r f (0 : Fin 2))).toInt.toNat 25, by omega⟩ : Fin 26)
               (⟨min (idx (ix3 r f (1 : Fin 2))).toInt.toNat 31, by omega⟩ : Fin 32)) := by
  unfold Host.gather
  congr 1
  funext a
  refine Fin.ext ?_
  show GatherDims.start gd (ix2 r f) idx a + GatherDims.batchCoord gd (ix2 r f) a + GatherDims.offCoord gd (ix2 r f) a = _
  have hcol : a ∈ GatherDims.collapsedSliceDims gd := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  match a with
  | ⟨0, _⟩ =>
    rw [dif_pos (show (⟨0, by decide⟩ : Fin S26x32.rank) ∈ GatherDims.startIndexMap gd from List.mem_cons_self)]
    refine (congrArg (fun i => min (idx i).toInt.toNat 25) (?_ : _ = ix3 r f (0 : Fin 2)))
    funext b; refine Fin.ext ?_
    match b with
    | ⟨0, _⟩ => rfl
    | ⟨1, _⟩ => rfl
    | ⟨2, _⟩ => rfl
  | ⟨1, _⟩ =>
    rw [dif_pos (show (⟨1, by decide⟩ : Fin S26x32.rank) ∈ GatherDims.startIndexMap gd from List.mem_cons_of_mem _ List.mem_cons_self)]
    refine (congrArg (fun i => min (idx i).toInt.toNat 31) (?_ : _ = ix3 r f (1 : Fin 2)))
    funext b; refine Fin.ext ?_
    match b with
    | ⟨0, _⟩ => rfl
    | ⟨1, _⟩ => rfl
    | ⟨2, _⟩ => rfl

/-! ## The start indices: the concatenation read on its last axis -/

/-- Component 0 of the start index at (r, f) is the first piece at (r, f, 0). -/
theorem starts_fst (x0 : (⟨S16384x26, .i32⟩ : BufTy).Contents (Elt Ideal)) (r : Fin 16384) (f : Fin 26) :
    val_main_v16 (F := Ideal) x0 (ix3 r f (0 : Fin 2)) = val_main_v14 (F := Ideal) (ix3 r f (0 : Fin 1)) := by
  unfold val_main_v16
  exact concatenate_pair_apply_left 2 _ _ concatenates_S16384x26x1_S16384x26x1_S16384x26x2_d2 (ix3 r f (0 : Fin 2)) rfl
    (ix3 r f (0 : Fin 1)) (fun b => match b with | ⟨0, _⟩ => rfl | ⟨1, _⟩ => rfl | ⟨2, _⟩ => rfl)

/-- Component 1 is the second piece at (r, f, 0). -/
theorem starts_snd (x0 : (⟨S16384x26, .i32⟩ : BufTy).Contents (Elt Ideal)) (r : Fin 16384) (f : Fin 26) :
    val_main_v16 (F := Ideal) x0 (ix3 r f (1 : Fin 2)) = val_main_v15 (F := Ideal) x0 (ix3 r f (0 : Fin 1)) := by
  unfold val_main_v16
  exact concatenate_pair_apply_right 2 _ _ concatenates_S16384x26x1_S16384x26x1_S16384x26x2_d2 (ix3 r f (1 : Fin 2)) rfl rfl
    (ix3 r f (0 : Fin 1))
    (fun b hb => match b, hb with
      | ⟨0, _⟩, _ => rfl
      | ⟨1, _⟩, _ => rfl
      | ⟨2, _⟩, hb => (hb (Fin.ext rfl)).elim)
    rfl

/-- The first piece holds the feature's number: the iota along the features, its wrap not taken. -/
theorem feature_word (r : Fin 16384) (f : Fin 26) :
    val_main_v14 (F := Ideal) (ix3 r f (0 : Fin 1)) = BitVec.ofNat 32 f.val := by
  rw [val_main_v14_apply, val_main_v13_apply, val_main_v7_apply, val_main_v4_apply, val_main_v6_apply,
    val_main_v3_apply, val_main_c_apply, val_main_v2_apply, val_main_v1_apply]
  refine wrap_of_small (BitVec.ofNat 32 f.val) _ ?_
  have := f.isLt
  rw [BitVec.toNat_ofNat]; omega

/-- The second piece holds the input's word, its wrap not taken when the word is below 32. -/
theorem input_word (x0 : (⟨S16384x26, .i32⟩ : BufTy).Contents (Elt Ideal)) (hX : ∀ i, (x0 i).toNat < 32)
    (r : Fin 16384) (f : Fin 26) :
    val_main_v15 (F := Ideal) x0 (ix3 r f (0 : Fin 1)) = x0 (ix2 r f) := by
  have e : idx_main_v15 (ix3 r f (0 : Fin 1)) = ix2 r f :=
    funext fun a => Fin.ext (by match a with | ⟨0, _⟩ => rfl | ⟨1, _⟩ => rfl)
  rw [val_main_v15_apply, val_main_v12_apply, val_main_v9_apply, val_main_v11_apply, val_main_v8_apply,
    val_main_c_1_apply, e]
  exact wrap_of_small _ _ (hX _)

/-! ## The gathered table entry -/

/-- Under the hypothesis the gather reads the table at (f, the input's word at (r, f), 0). -/
theorem gathered (x0 : (⟨S16384x26, .i32⟩ : BufTy).Contents (Elt Ideal)) (x1 : (⟨S26x32x1, .f32⟩ : BufTy).Contents (Elt Ideal))
    (hX : ∀ i, (x0 i).toNat < 32) (r : Fin 16384) (f : Fin 26) :
    val_main_v17 (F := Ideal) x0 x1 (ix2 r f)
      = x1 (ix3 f (⟨(x0 (ix2 r f)).toNat % 32, Nat.mod_lt _ (by decide)⟩ : Fin 32) (0 : Fin 1)) := by
  have hf := f.isLt
  have hx := hX (ix2 r f)
  have hA : min (val_main_v16 (F := Ideal) x0 (ix3 r f (0 : Fin 2))).toInt.toNat 25 = f.val := by
    rw [starts_fst, feature_word]
    have h26 : (BitVec.ofNat 32 f.val).toNat = f.val := by rw [BitVec.toNat_ofNat]; omega
    rw [clamp_of_small _ (by omega) 25 (by omega), h26]
  have hB : min (val_main_v16 (F := Ideal) x0 (ix3 r f (1 : Fin 2))).toInt.toNat 31 = (x0 (ix2 r f)).toNat := by
    rw [starts_snd, input_word x0 hX]
    exact clamp_of_small _ hx 31 (by omega)
  unfold val_main_v17
  rw [gather_pair_apply, val_main_v0_apply]
  refine congrArg x1 (funext fun a => Fin.ext ?_)
  match a with
  | ⟨0, _⟩ =>
    show (min (val_main_v16 (F := Ideal) x0 (ix3 r f (0 : Fin 2))).toInt.toNat 25 * 32
      + min (val_main_v16 (F := Ideal) x0 (ix3 r f (1 : Fin 2))).toInt.toNat 31) / 32 = f.val
    rw [hA, hB]; omega
  | ⟨1, _⟩ =>
    show (min (val_main_v16 (F := Ideal) x0 (ix3 r f (0 : Fin 2))).toInt.toNat 25 * 32
      + min (val_main_v16 (F := Ideal) x0 (ix3 r f (1 : Fin 2))).toInt.toNat 31) / 1 % 32 = (x0 (ix2 r f)).toNat % 32
    rw [hA, hB]; omega
  | ⟨2, _⟩ => rfl

/-! ## The reference's result -/

/-- The bias plus, over the 26 features, the table's entry at the input's word. -/
def G (x0 : (⟨S16384x26, .i32⟩ : BufTy).Contents (Elt Ideal)) (x1 : (⟨S26x32x1, .f32⟩ : BufTy).Contents (Elt Ideal))
    (x2 : (⟨S1, .f32⟩ : BufTy).Contents (Elt Ideal)) : (⟨S16384, .f32⟩ : BufTy).Contents (Elt Ideal) :=
  fun b => x2 (ix1 (0 : Fin 1)) + ∑ f : Fin 26,
    x1 (ix3 f (⟨(x0 (ix2 (b 0) f)).toNat % 32, Nat.mod_lt _ (by decide)⟩ : Fin 32) (0 : Fin 1))

/-- When every word of the input is below 32 the reference's result is `G`. -/
theorem ref_eq_G (x0 : (⟨S16384x26, .i32⟩ : BufTy).Contents (Elt Ideal)) (x1 : (⟨S26x32x1, .f32⟩ : BufTy).Contents (Elt Ideal))
    (x2 : (⟨S1, .f32⟩ : BufTy).Contents (Elt Ideal)) (hX : ∀ i, (x0 i).toNat < 32) :
    val_main_v20 (F := Ideal) x0 x1 x2 = G x0 x1 x2 := by
  funext b
  have e18 : idx_main_v18 b = ix1 (0 : Fin 1) := funext fun a => Fin.ext (by match a with | ⟨0, _⟩ => rfl)
  have e19 : ∀ k : Fin 26, idx_main_v19 b k = ix2 (b 0) k :=
    fun k => funext fun a => Fin.ext (by match a with | ⟨0, _⟩ => rfl | ⟨1, _⟩ => rfl)
  rw [val_main_v20_apply, val_main_v18_apply, val_main_v19_apply, val_main_cst_apply, e18]
  simp only [Ideal.addf_def, Ideal.ofBits_def, Ideal.ofBits_zero_f32, zero_add]
  unfold G
  refine congrArg (x2 (ix1 (0 : Fin 1)) + ·) (Finset.sum_congr rfl fun k _ => ?_)
  rw [e19]
  exact gathered x0 x1 hX (b 0) k

end Cert.Proof.RefValue

end
-- ==== Proof.PreDecode.lean ====
/-
  The precondition read back: from "the printed predicate is all ones" to a bound on every index word.
-/
import proofs.«206722_g31198642438219_cont_8to1_b_1255_3_alg».proof.Defs
import proofs.«206722_g31198642438219_cont_8to1_b_1255_3_alg».proof.Proof.Gen.Pre_input_domain
import Idealize.ShloMosaic.Lib.ReduceAll
import Idealize.ShloMosaic.Lib.ValueIdx

noncomputable section

namespace Cert.Proof.PreDecode

open Idealize.ShloMosaic

/-- The rank-0 shape has a single index. -/
instance : Subsingleton Cert.Pre_input_domain.S_.Idx := ⟨fun a b => funext fun d => d.elim0⟩

/-- A 32-bit word that, read signed, lies between 0 and 31 is, read unsigned, below 32. -/
theorem toNat_lt_32 (v : BitVec 32) (e : IntOp.andi (IntOp.cmpi .sge v 0#32) (IntOp.cmpi .sle v 31#32) = 1#1) : v.toNat < 32 := by
  obtain ⟨h0, h1⟩ := IntOp.andi_eq_one.1 e
  rw [IntOp.cmpi_sge] at h0
  rw [IntOp.cmpi_sle] at h1
  simp only [BitVec.toInt_eq_toNat_cond, BitVec.toNat_ofNat, Nat.reducePow, Nat.reduceMod] at h0 h1
  omega

/-- The precondition is a conjunction of three "for all entries" statements; the third says that every word of
    the index array, compared signed, is at least 0 and at most 31, hence read unsigned it is below 32. -/
theorem idx_small {F : FTy → Type} [FloatOps F] (x0 : IVec Cert.Pre_input_domain.S16384x26 32)
    (x1 : FVec F Cert.Pre_input_domain.S26x32x1 .f32) (x2 : FVec F Cert.Pre_input_domain.S1 .f32)
    (h : Cert.Pre_input_domain.fn (F := F) x0 x1 x2 = fun _ => 1#1) : ∀ i, (x0 i).toNat < 32 := by
  intro i
  have e := congrFun h ValueIdx.ix0
  dsimp only [Cert.Pre_input_domain.fn] at e
  obtain ⟨-, e3⟩ := IntOp.andi_eq_one.1 e
  exact toNat_lt_32 (x0 i) (Host.reduce_andi_all _ _ _ _ _ e3 i)

end Cert.Proof.PreDecode

end
-- ==== Proof.KISetup.lean ====
/-
  The idealized kernel as the SparseCore launch theorem sees it: the configuration of its one vector-subcore call, the
  ghost state (the handshakes' rounds beside the local transfers' counters), and the pieces of the arrays a tile works
  on: tile (c, s) is worker 2·s + c; it reads the whole table of 26·32 entries and the whole 16-lane free-term vector,
  block 2·s + c of the transposed index array (26 rows of 512 batch positions), and writes 512 consecutive results.
-/
import proofs.«206722_g31198642438219_cont_8to1_b_1255_3_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206722_g31198642438219_cont_8to1_b_1255_3_alg».proof.Proof.Gen.KernelIdeal
import proofs.«206722_g31198642438219_cont_8to1_b_1255_3_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

abbrev EH : Emb UH (MT nD τ sig (HIx 1) (Elt F) ℕ UU ℕ) := embL

/-! ## The arrays -/

abbrev xtLoc (d : Dev nD) : Loc nD τ sig := (SparseCore.T d).loc main_v1
abbrev tabLoc (d : Dev nD) : Loc nD τ sig := (SparseCore.T d).loc main_v2
abbrev freeLoc (d : Dev nD) : Loc nD τ sig := (SparseCore.T d).loc main_v3
abbrev outLoc (d : Dev nD) : Loc nD τ sig := (SparseCore.T d).loc main_v4

/-- A tile's place: SparseCore `L 0`, vector subcore `L 1`. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

/-- Block `2·(L 1) + L 0` of the transposed indices, as the tile slices and squeezes it: 26 rows of 512. -/
abbrev xBlk (L : grid0.Coords) : Memref sig .scVector .hbm S26x512 .i32 :=
  ((Memref.whole main_v1_scv : Memref sig .scVector .hbm S32x26x512 .i32).slice
    (Rect.unit (s := S32x26x512) (k0_off1 L) S1x26x512.size (k0_off1_inb L)) (fun _ => rfl)).squeeze S26x512 squeezes_S1x26x512_S26x512
/-- The 512 results the tile writes, as it slices them. -/
abbrev oBlk (L : grid0.Coords) : Memref sig .scVector .hbm S512 .f32 :=
  (Memref.whole main_v4_scv : Memref sig .scVector .hbm S16384 .f32).slice
    (Rect.unit (s := S16384) (k0_off29 L) S512.size (k0_off29_inb L)) (fun _ => rfl)

end Cert.Proof.KI

end
-- ==== Proof.KITileOwn.lean ====
/-
  What a tile owns for the length of its task: its four transfer semaphores at zero and its four scratch buffers
  (the staged table, the staged index block, the 512 results, the staged free-term vector), taken out of the
  thread's scoped storage.
-/
import proofs.«206722_g31198642438219_cont_8to1_b_1255_3_alg».proof.Proof.KISetup

noncomputable section

namespace Cert.Proof.KI

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.KernelIdeal.main_v1_scv : Memref Cert.KernelIdeal.sig Kind.scVector Space.hbm Cert.KernelIdeal.S32x26x512 EltTy.i32)
local notation "tabW" => (Memref.whole Cert.KernelIdeal.main_v2_scv : Memref Cert.KernelIdeal.sig Kind.scVector Space.hbm Cert.KernelIdeal.S832 EltTy.f32)
local notation "freeW" => (Memref.whole Cert.KernelIdeal.main_v3_scv : Memref Cert.KernelIdeal.sig Kind.scVector Space.hbm Cert.KernelIdeal.S16 EltTy.f32)
local notation "outW" => (Memref.whole Cert.KernelIdeal.main_v4_scv : Memref Cert.KernelIdeal.sig Kind.scVector Space.hbm Cert.KernelIdeal.S16384 EltTy.f32)
local notation "sT" => (Memref.whole Cert.KernelIdeal.cc0_scratch0 : Memref Cert.KernelIdeal.sig Kind.scVector Space.vmem Cert.KernelIdeal.S832 EltTy.f32)
local notation "sX" => (Memref.whole Cert.KernelIdeal.cc0_scratch1 : Memref Cert.KernelIdeal.sig Kind.scVector Space.vmem Cert.KernelIdeal.S26x512 EltTy.i32)
local notation "sO" => (Memref.whole Cert.KernelIdeal.cc0_scratch2 : Memref Cert.KernelIdeal.sig Kind.scVector Space.vmem Cert.KernelIdeal.S512 EltTy.f32)
local notation "sF" => (Memref.whole Cert.KernelIdeal.cc0_scratch3 : Memref Cert.KernelIdeal.sig Kind.scVector Space.vmem Cert.KernelIdeal.S16 EltTy.f32)

section Tile

variable (d : Dev nD) (L : grid0.Coords)

abbrev cell0 : GSem nD τ sig := (tile d L, .dma cc0_scoped0.sem)
abbrev cell1 : GSem nD τ sig := (tile d L, .dma cc0_scoped1.sem)
abbrev cell2 : GSem nD τ sig := (tile d L, .dma cc0_scoped2.sem)
abbrev cell3 : GSem nD τ sig := (tile d L, .dma cc0_scoped3.sem)

/-- The tile's four transfer semaphores are among its own scoped cells: they, at zero, and the rest. -/
theorem ownSems0_tile :
    (ownSems0 (tile d L) : sProp 𝕄)
      = iprop(semVal (cell0 d L) 0 ∗ semVal (cell1 d L) 0 ∗ semVal (cell2 d L) 0 ∗ semVal (cell3 d L) 0
          ∗ bigSep (((((ownCells (tile d L)).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped3.sem : SemLoc sig).isScoped .scVector = true; decide⟩⟩⟩⟩)]

abbrev pV (L : grid0.Coords) : Proc τ := Proc.scVector (cV L) (jV L)

/-- The four scratch buffers are among the tile's own: they, at some contents, and the rest. -/
theorem ownBufs_tile :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f)
          ∗ bigSep (((((ownRefs (τ := τ) (pV L)).erase ((pV L).devRef cc0_scratch0)).erase
              ((pV L).devRef cc0_scratch1)).erase ((pV L).devRef cc0_scratch2)).erase ((pV L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := pV L)
    (b := (pV L).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := pV L) (b := (pV L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := pV L) (b := (pV L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := pV L) (b := (pV L).devRef cc0_scratch3) rfl⟩⟩⟩)]

end Tile

end Cert.Proof.KI

end
-- ==== Proof.KIVal.lean ====
/-
  What one trip of the tile's loop computes, as pure functions of the staged table `TV` (832 entries), the staged index
  block `XV` (26 rows of 512 words, each below 32) and the free-term vector `V3` (16 lanes): for trip `k` and lane `x`,
  position `j = 16·k + x` of the tile's results is `V3 x` with the 26 entries `TV[XV[f, j] + 32·f]`, `f = 0 … 25`, added
  on in that order.
-/
import proofs.«206722_g31198642438219_cont_8to1_b_1255_3_alg».proof.Proof.KISetup
import Idealize.ShloMosaic.Lib.ValueIdx
import Idealize.ShloMosaic.Lib.Pipeline.Value

noncomputable section

namespace Cert.Proof.KI

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.KernelIdeal.main_v1_scv : Memref Cert.KernelIdeal.sig Kind.scVector Space.hbm Cert.KernelIdeal.S32x26x512 EltTy.i32)
local notation "tabW" => (Memref.whole Cert.KernelIdeal.main_v2_scv : Memref Cert.KernelIdeal.sig Kind.scVector Space.hbm Cert.KernelIdeal.S832 EltTy.f32)
local notation "freeW" => (Memref.whole Cert.KernelIdeal.main_v3_scv : Memref Cert.KernelIdeal.sig Kind.scVector Space.hbm Cert.KernelIdeal.S16 EltTy.f32)
local notation "outW" => (Memref.whole Cert.KernelIdeal.main_v4_scv : Memref Cert.KernelIdeal.sig Kind.scVector Space.hbm Cert.KernelIdeal.S16384 EltTy.f32)
local notation "sT" => (Memref.whole Cert.KernelIdeal.cc0_scratch0 : Memref Cert.KernelIdeal.sig Kind.scVector Space.vmem Cert.KernelIdeal.S832 EltTy.f32)
local notation "sX" => (Memref.whole Cert.KernelIdeal.cc0_scratch1 : Memref Cert.KernelIdeal.sig Kind.scVector Space.vmem Cert.KernelIdeal.S26x512 EltTy.i32)
local notation "sO" => (Memref.whole Cert.KernelIdeal.cc0_scratch2 : Memref Cert.KernelIdeal.sig Kind.scVector Space.vmem Cert.KernelIdeal.S512 EltTy.f32)
local notation "sF" => (Memref.whole Cert.KernelIdeal.cc0_scratch3 : Memref Cert.KernelIdeal.sig Kind.scVector Space.vmem Cert.KernelIdeal.S16 EltTy.f32)

open Idealize.ShloMosaic.ValueIdx

variable [FloatOps F]

/-- An index word below 32 moved up by a row offset of at most 800 names an entry of the 832-entry table. -/
theorem chk_of_small (ld : IVec S1x16 32) (c : BitVec 32) (hld : ∀ y, (ld y).toNat < 32) (hc : c.toNat ≤ 800) :
    ∀ a x, ((![addi (shapeCast S16 ld shapeCasts_S1x16_S16) (broadcast S16 c)] : Fin 1 → IVec S16 32) a x).toNat < S832.size a := by
  intro a x
  obtain rfl : a = 0 := Subsingleton.elim _ _
  have hw : (shapeCast S16 ld shapeCasts_S1x16_S16 x).toNat < 32 := by unfold shapeCast; exact hld _
  show ((shapeCast S16 ld shapeCasts_S1x16_S16 x) + c).toNat < 832
  rw [BitVec.toNat_add]; omega

/-- Entry `n` of the table; some entry when `n` names none. -/
def tabAt (T : FVec F S832 .f32) (n : Nat) : F .f32 :=
  if h : n < 832 then T (ix1 ⟨n, h⟩) else T (ix1 ⟨0, by decide⟩)

/-- The staged table as the gather reads it. -/
abbrev tabRd (TV : (sT).view.ty.Contents (Elt F)) : FVec F S832 .f32 :=
  View.read (Elt F) ((sT).access (Rect.whole cc0_scratch0.ty.shape)) TV

/-- The table gathered at a vector of 16 entry numbers. -/
def gat (TV : (sT).view.ty.Contents (Elt F)) (v : IVec S16 32) (h : ∀ a x, ((![v] : Fin 1 → IVec S16 32) a x).toNat < S832.size a) : Vec F S16 .f32 :=
  loadIdx (View.read (Elt F) ((sT).access (Rect.whole cc0_scratch0.ty.shape)) TV) ![v] h

theorem gat_apply (TV : (sT).view.ty.Contents (Elt F)) (v : IVec S16 32) (h) (x : S16.Idx) :
    gat TV v h x = tabAt (tabRd TV) (v x).toNat := by
  have hx : (v x).toNat < 832 := h 0 x
  unfold gat tabAt loadIdx
  rw [dif_pos hx]
  exact congrArg (tabRd TV) (funext fun a => match a with | ⟨0, _⟩ => rfl)

section Trip

variable (TV : (sT).view.ty.Contents (Elt F)) (XV : IVec S26x512 32) (V3 : Vec F S16 .f32)
variable (k : Fin k0_t1_loop.trips)

/-- Sixteen words of row `r` of the index block starting at column `c`, each moved up by `w`: lane `x` is `XV[r, c + x] + w`. -/
theorem row_words (off : Fin 2 → Nat) (inb : ∀ a, off a + S1x16.size a ≤ S26x512.size a) (w : BitVec 32) (r : Fin 26) (c : Nat)
    (hoff : off = ![r.val, c]) (x : S16.Idx) (hc : c + (x 0).val < 512) :
    addi (shapeCast S16 (View.readAt (Elt F) (sX).view (Rect.unit (s := S26x512) off S1x16.size inb).toLoadRect XV) shapeCasts_S1x16_S16) (broadcast S16 w) x
      = XV (ix2 r ⟨c + (x 0).val, hc⟩) + w := by
  subst hoff
  refine congrArg (fun t : BitVec 32 => t + w)
    (?_ : shapeCast S16 (View.readAt (Elt F) (sX).view (Rect.unit (s := S26x512) ![r.val, c] S1x16.size inb).toLoadRect XV) shapeCasts_S1x16_S16 x
      = XV (ix2 r ⟨c + (x 0).val, hc⟩))
  rw [shapeCast_apply _ shapeCasts_S1x16_S16 x (ix2 (0 : Fin 1) (x 0)) (by
    rw [Shape.rowMajor_val_two, Shape.rowMajor_val_one]; simp)]
  show XV ((Rect.unit (s := S26x512) ![r.val, c] S1x16.size inb).toLoadRect.idx (ix2 (0 : Fin 1) (x 0))) = _
  refine congrArg XV (funext fun a => Fin.ext ?_)
  rw [LoadRect.idx_apply]
  match a with
  | ⟨0, _⟩ => simp
  | ⟨1, _⟩ => simp

/-- Field 0's entry numbers for trip `k`. -/
abbrev idxv0 : IVec S16 32 := k0_pay7 (View.readAt (Elt F) (sX).view (Rect.unit (s := S26x512) (k0_off2 k) S1x16.size (k0_off2_inb k)).toLoadRect XV)
/-- Field 1's entry numbers for trip `k`. -/
abbrev idxv1 : IVec S16 32 := k0_pay8 (View.readAt (Elt F) (sX).view (Rect.unit (s := S26x512) (k0_off3 k) S1x16.size (k0_off3_inb k)).toLoadRect XV)
/-- Field 2's entry numbers for trip `k`. -/
abbrev idxv2 : IVec S16 32 := k0_pay9 (View.readAt (Elt F) (sX).view (Rect.unit (s := S26x512) (k0_off4 k) S1x16.size (k0_off4_inb k)).toLoadRect XV)
/-- Field 3's entry numbers for trip `k`. -/
abbrev idxv3 : IVec S16 32 := k0_pay10 (View.readAt (Elt F) (sX).view (Rect.unit (s := S26x512) (k0_off5 k) S1x16.size (k0_off5_inb k)).toLoadRect XV)
/-- Field 4's entry numbers for trip `k`. -/
abbrev idxv4 : IVec S16 32 := k0_pay11 (View.readAt (Elt F) (sX).view (Rect.unit (s := S26x512) (k0_off6 k) S1x16.size (k0_off6_inb k)).toLoadRect XV)
/-- Field 5's entry numbers for trip `k`. -/
abbrev idxv5 : IVec S16 32 := k0_pay13 (View.readAt (Elt F) (sX).view (Rect.unit (s := S26x512) (k0_off7 k) S1x16.size (k0_off7_inb k)).toLoadRect XV)
/-- Field 6's entry numbers for trip `k`. -/
abbrev idxv6 : IVec S16 32 := k0_pay14 (View.readAt (Elt F) (sX).view (Rect.unit (s := S26x512) (k0_off8 k) S1x16.size (k0_off8_inb k)).toLoadRect XV)
/-- Field 7's entry numbers for trip `k`. -/
abbrev idxv7 : IVec S16 32 := k0_pay15 (View.readAt (Elt F) (sX).view (Rect.unit (s := S26x512) (k0_off9 k) S1x16.size (k0_off9_inb k)).toLoadRect XV)
/-- Field 8's entry numbers for trip `k`. -/
abbrev idxv8 : IVec S16 32 := k0_pay16 (View.readAt (Elt F) (sX).view (Rect.unit (s := S26x512) (k0_off10 k) S1x16.size (k0_off10_inb k)).toLoadRect XV)
/-- Field 9's entry numbers for trip `k`. -/
abbrev idxv9 : IVec S16 32 := k0_pay17 (View.readAt (Elt F) (sX).view (Rect.unit (s := S26x512) (k0_off11 k) S1x16.size (k0_off11_inb k)).toLoadRect XV)
/-- Field 10's entry numbers for trip `k`. -/
abbrev idxv10 : IVec S16 32 := addi (k0_pay19 (View.readAt (Elt F) (sX).view (Rect.unit (s := S26x512) (k0_off12 k) S1x16.size (k0_off12_inb k)).toLoadRect XV)) (k0_pay20)
/-- Field 11's entry numbers for trip `k`. -/
abbrev idxv11 : IVec S16 32 := k0_pay21 (View.readAt (Elt F) (sX).view (Rect.unit (s := S26x512) (k0_off13 k) S1x16.size (k0_off13_inb k)).toLoadRect XV)
/-- Field 12's entry numbers for trip `k`. -/
abbrev idxv12 : IVec S16 32 := k0_pay22 (View.readAt (Elt F) (sX).view (Rect.unit (s := S26x512) (k0_off14 k) S1x16.size (k0_off14_inb k)).toLoadRect XV)
/-- Field 13's entry numbers for trip `k`. -/
abbrev idxv13 : IVec S16 32 := k0_pay23 (View.readAt (Elt F) (sX).view (Rect.unit (s := S26x512) (k0_off15 k) S1x16.size (k0_off15_inb k)).toLoadRect XV)
/-- Field 14's entry numbers for trip `k`. -/
abbrev idxv14 : IVec S16 32 := k0_pay24 (View.readAt (Elt F) (sX).view (Rect.unit (s := S26x512) (k0_off16 k) S1x16.size (k0_off16_inb k)).toLoadRect XV)
/-- Field 15's entry numbers for trip `k`. -/
abbrev idxv15 : IVec S16 32 := k0_pay25 (View.readAt (Elt F) (sX).view (Rect.unit (s := S26x512) (k0_off17 k) S1x16.size (k0_off17_inb k)).toLoadRect XV)
/-- Field 16's entry numbers for trip `k`. -/
abbrev idxv16 : IVec S16 32 := k0_pay27 (View.readAt (Elt F) (sX).view (Rect.unit (s := S26x512) (k0_off18 k) S1x16.size (k0_off18_inb k)).toLoadRect XV)
/-- Field 17's entry numbers for trip `k`. -/
abbrev idxv17 : IVec S16 32 := k0_pay28 (View.readAt (Elt F) (sX).view (Rect.unit (s := S26x512) (k0_off19 k) S1x16.size (k0_off19_inb k)).toLoadRect XV)
/-- Field 18's entry numbers for trip `k`. -/
abbrev idxv18 : IVec S16 32 := k0_pay29 (View.readAt (Elt F) (sX).view (Rect.unit (s := S26x512) (k0_off20 k) S1x16.size (k0_off20_inb k)).toLoadRect XV)
/-- Field 19's entry numbers for trip `k`. -/
abbrev idxv19 : IVec S16 32 := k0_pay30 (View.readAt (Elt F) (sX).view (Rect.unit (s := S26x512) (k0_off21 k) S1x16.size (k0_off21_inb k)).toLoadRect XV)
/-- Field 20's entry numbers for trip `k`. -/
abbrev idxv20 : IVec S16 32 := k0_pay31 (View.readAt (Elt F) (sX).view (Rect.unit (s := S26x512) (k0_off22 k) S1x16.size (k0_off22_inb k)).toLoadRect XV)
/-- Field 21's entry numbers for trip `k`. -/
abbrev idxv21 : IVec S16 32 := k0_pay1 (k0_pay33 (View.readAt (Elt F) (sX).view (Rect.unit (s := S26x512) (k0_off23 k) S1x16.size (k0_off23_inb k)).toLoadRect XV)) 672#32
/-- Field 22's entry numbers for trip `k`. -/
abbrev idxv22 : IVec S16 32 := k0_pay2 (View.readAt (Elt F) (sX).view (Rect.unit (s := S26x512) (k0_off24 k) S1x16.size (k0_off24_inb k)).toLoadRect XV)
/-- Field 23's entry numbers for trip `k`. -/
abbrev idxv23 : IVec S16 32 := k0_pay3 (View.readAt (Elt F) (sX).view (Rect.unit (s := S26x512) (k0_off25 k) S1x16.size (k0_off25_inb k)).toLoadRect XV)
/-- Field 24's entry numbers for trip `k`. -/
abbrev idxv24 : IVec S16 32 := k0_pay4 (View.readAt (Elt F) (sX).view (Rect.unit (s := S26x512) (k0_off26 k) S1x16.size (k0_off26_inb k)).toLoadRect XV)
/-- Field 25's entry numbers for trip `k`. -/
abbrev idxv25 : IVec S16 32 := k0_pay5 (View.readAt (Elt F) (sX).view (Rect.unit (s := S26x512) (k0_off27 k) S1x16.size (k0_off27_inb k)).toLoadRect XV)

theorem idxv0_ok (hXr : ∀ j, (XV j).toNat < 32) : ∀ a x, ((![idxv0 (F := F) XV k] : Fin 1 → IVec S16 32) a x).toNat < S832.size a := chk_of_small _ _ (fun y => hXr _) (by decide)
theorem idxv1_ok (hXr : ∀ j, (XV j).toNat < 32) : ∀ a x, ((![idxv1 (F := F) XV k] : Fin 1 → IVec S16 32) a x).toNat < S832.size a := chk_of_small _ _ (fun y => hXr _) (by decide)
theorem idxv2_ok (hXr : ∀ j, (XV j).toNat < 32) : ∀ a x, ((![idxv2 (F := F) XV k] : Fin 1 → IVec S16 32) a x).toNat < S832.size a := chk_of_small _ _ (fun y => hXr _) (by decide)
theorem idxv3_ok (hXr : ∀ j, (XV j).toNat < 32) : ∀ a x, ((![idxv3 (F := F) XV k] : Fin 1 → IVec S16 32) a x).toNat < S832.size a := chk_of_small _ _ (fun y => hXr _) (by decide)
theorem idxv4_ok (hXr : ∀ j, (XV j).toNat < 32) : ∀ a x, ((![idxv4 (F := F) XV k] : Fin 1 → IVec S16 32) a x).toNat < S832.size a := chk_of_small _ _ (fun y => hXr _) (by decide)
theorem idxv5_ok (hXr : ∀ j, (XV j).toNat < 32) : ∀ a x, ((![idxv5 (F := F) XV k] : Fin 1 → IVec S16 32) a x).toNat < S832.size a := chk_of_small _ _ (fun y => hXr _) (by decide)
theorem idxv6_ok (hXr : ∀ j, (XV j).toNat < 32) : ∀ a x, ((![idxv6 (F := F) XV k] : Fin 1 → IVec S16 32) a x).toNat < S832.size a := chk_of_small _ _ (fun y => hXr _) (by decide)
theorem idxv7_ok (hXr : ∀ j, (XV j).toNat < 32) : ∀ a x, ((![idxv7 (F := F) XV k] : Fin 1 → IVec S16 32) a x).toNat < S832.size a := chk_of_small _ _ (fun y => hXr _) (by decide)
theorem idxv8_ok (hXr : ∀ j, (XV j).toNat < 32) : ∀ a x, ((![idxv8 (F := F) XV k] : Fin 1 → IVec S16 32) a x).toNat < S832.size a := chk_of_small _ _ (fun y => hXr _) (by decide)
theorem idxv9_ok (hXr : ∀ j, (XV j).toNat < 32) : ∀ a x, ((![idxv9 (F := F) XV k] : Fin 1 → IVec S16 32) a x).toNat < S832.size a := chk_of_small _ _ (fun y => hXr _) (by decide)
theorem idxv10_ok (hXr : ∀ j, (XV j).toNat < 32) : ∀ a x, ((![idxv10 (F := F) XV k] : Fin 1 → IVec S16 32) a x).toNat < S832.size a := chk_of_small _ _ (fun y => hXr _) (by decide)
theorem idxv11_ok (hXr : ∀ j, (XV j).toNat < 32) : ∀ a x, ((![idxv11 (F := F) XV k] : Fin 1 → IVec S16 32) a x).toNat < S832.size a := chk_of_small _ _ (fun y => hXr _) (by decide)
theorem idxv12_ok (hXr : ∀ j, (XV j).toNat < 32) : ∀ a x, ((![idxv12 (F := F) XV k] : Fin 1 → IVec S16 32) a x).toNat < S832.size a := chk_of_small _ _ (fun y => hXr _) (by decide)
theorem idxv13_ok (hXr : ∀ j, (XV j).toNat < 32) : ∀ a x, ((![idxv13 (F := F) XV k] : Fin 1 → IVec S16 32) a x).toNat < S832.size a := chk_of_small _ _ (fun y => hXr _) (by decide)
theorem idxv14_ok (hXr : ∀ j, (XV j).toNat < 32) : ∀ a x, ((![idxv14 (F := F) XV k] : Fin 1 → IVec S16 32) a x).toNat < S832.size a := chk_of_small _ _ (fun y => hXr _) (by decide)
theorem idxv15_ok (hXr : ∀ j, (XV j).toNat < 32) : ∀ a x, ((![idxv15 (F := F) XV k] : Fin 1 → IVec S16 32) a x).toNat < S832.size a := chk_of_small _ _ (fun y => hXr _) (by decide)
theorem idxv16_ok (hXr : ∀ j, (XV j).toNat < 32) : ∀ a x, ((![idxv16 (F := F) XV k] : Fin 1 → IVec S16 32) a x).toNat < S832.size a := chk_of_small _ _ (fun y => hXr _) (by decide)
theorem idxv17_ok (hXr : ∀ j, (XV j).toNat < 32) : ∀ a x, ((![idxv17 (F := F) XV k] : Fin 1 → IVec S16 32) a x).toNat < S832.size a := chk_of_small _ _ (fun y => hXr _) (by decide)
theorem idxv18_ok (hXr : ∀ j, (XV j).toNat < 32) : ∀ a x, ((![idxv18 (F := F) XV k] : Fin 1 → IVec S16 32) a x).toNat < S832.size a := chk_of_small _ _ (fun y => hXr _) (by decide)
theorem idxv19_ok (hXr : ∀ j, (XV j).toNat < 32) : ∀ a x, ((![idxv19 (F := F) XV k] : Fin 1 → IVec S16 32) a x).toNat < S832.size a := chk_of_small _ _ (fun y => hXr _) (by decide)
theorem idxv20_ok (hXr : ∀ j, (XV j).toNat < 32) : ∀ a x, ((![idxv20 (F := F) XV k] : Fin 1 → IVec S16 32) a x).toNat < S832.size a := chk_of_small _ _ (fun y => hXr _) (by decide)
theorem idxv21_ok (hXr : ∀ j, (XV j).toNat < 32) : ∀ a x, ((![idxv21 (F := F) XV k] : Fin 1 → IVec S16 32) a x).toNat < S832.size a := chk_of_small _ _ (fun y => hXr _) (by decide)
theorem idxv22_ok (hXr : ∀ j, (XV j).toNat < 32) : ∀ a x, ((![idxv22 (F := F) XV k] : Fin 1 → IVec S16 32) a x).toNat < S832.size a := chk_of_small _ _ (fun y => hXr _) (by decide)
theorem idxv23_ok (hXr : ∀ j, (XV j).toNat < 32) : ∀ a x, ((![idxv23 (F := F) XV k] : Fin 1 → IVec S16 32) a x).toNat < S832.size a := chk_of_small _ _ (fun y => hXr _) (by decide)
theorem idxv24_ok (hXr : ∀ j, (XV j).toNat < 32) : ∀ a x, ((![idxv24 (F := F) XV k] : Fin 1 → IVec S16 32) a x).toNat < S832.size a := chk_of_small _ _ (fun y => hXr _) (by decide)
theorem idxv25_ok (hXr : ∀ j, (XV j).toNat < 32) : ∀ a x, ((![idxv25 (F := F) XV k] : Fin 1 → IVec S16 32) a x).toNat < S832.size a := chk_of_small _ _ (fun y => hXr _) (by decide)

/-- What trip `k` stores: the free-term vector with the 26 gathered vectors added on in turn. -/
def tripVec (hXr : ∀ j, (XV j).toNat < 32) : FVec F S16 .f32 :=
  k0_pay6 (k0_pay32 (k0_pay26 (k0_pay18 (k0_pay12 V3 (gat TV (idxv0 (F := F) XV k) (idxv0_ok (F := F) XV k hXr)) (gat TV (idxv1 (F := F) XV k) (idxv1_ok (F := F) XV k hXr)) (gat TV (idxv2 (F := F) XV k) (idxv2_ok (F := F) XV k hXr)) (gat TV (idxv3 (F := F) XV k) (idxv3_ok (F := F) XV k hXr)) (gat TV (idxv4 (F := F) XV k) (idxv4_ok (F := F) XV k hXr)))
      (gat TV (idxv5 (F := F) XV k) (idxv5_ok (F := F) XV k hXr)) (gat TV (idxv6 (F := F) XV k) (idxv6_ok (F := F) XV k hXr)) (gat TV (idxv7 (F := F) XV k) (idxv7_ok (F := F) XV k hXr)) (gat TV (idxv8 (F := F) XV k) (idxv8_ok (F := F) XV k hXr)) (gat TV (idxv9 (F := F) XV k) (idxv9_ok (F := F) XV k hXr)))
      (gat TV (idxv10 (F := F) XV k) (idxv10_ok (F := F) XV k hXr)) (gat TV (idxv11 (F := F) XV k) (idxv11_ok (F := F) XV k hXr)) (gat TV (idxv12 (F := F) XV k) (idxv12_ok (F := F) XV k hXr)) (gat TV (idxv13 (F := F) XV k) (idxv13_ok (F := F) XV k hXr)) (gat TV (idxv14 (F := F) XV k) (idxv14_ok (F := F) XV k hXr)) (gat TV (idxv15 (F := F) XV k) (idxv15_ok (F := F) XV k hXr)))
      (gat TV (idxv16 (F := F) XV k) (idxv16_ok (F := F) XV k hXr)) (gat TV (idxv17 (F := F) XV k) (idxv17_ok (F := F) XV k hXr)) (gat TV (idxv18 (F := F) XV k) (idxv18_ok (F := F) XV k hXr)) (gat TV (idxv19 (F := F) XV k) (idxv19_ok (F := F) XV k hXr)) (gat TV (idxv20 (F := F) XV k) (idxv20_ok (F := F) XV k hXr)))
    (gat TV (idxv21 (F := F) XV k) (idxv21_ok (F := F) XV k hXr)) (gat TV (idxv22 (F := F) XV k) (idxv22_ok (F := F) XV k hXr)) (gat TV (idxv23 (F := F) XV k) (idxv23_ok (F := F) XV k hXr)) (gat TV (idxv24 (F := F) XV k) (idxv24_ok (F := F) XV k hXr)) (gat TV (idxv25 (F := F) XV k) (idxv25_ok (F := F) XV k hXr))

end Trip

/-- The staged table read through the gather's view is the staged table. -/
theorem tabRd_eq (TV : (sT).view.ty.Contents (Elt F)) : tabRd TV = TV := Memref.read_access_whole (Elt F) cc0_scratch0 TV

/-- One result: the free term `v0` with, for `f = 0 … 25` in turn, entry `row f + 32·f` of the table added on. -/
def laneVal (T : FVec F S832 .f32) (row : Fin 26 → BitVec 32) (v0 : F .f32) : F .f32 :=
  (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf v0 (tabAt T (row 0 + 0#32).toNat)) (tabAt T (row 1 + 32#32).toNat)) (tabAt T (row 2 + 64#32).toNat)) (tabAt T (row 3 + 96#32).toNat)) (tabAt T (row 4 + 128#32).toNat)) (tabAt T (row 5 + 160#32).toNat)) (tabAt T (row 6 + 192#32).toNat)) (tabAt T (row 7 + 224#32).toNat)) (tabAt T (row 8 + 256#32).toNat)) (tabAt T (row 9 + 288#32).toNat)) (tabAt T (row 10 + 320#32).toNat)) (tabAt T (row 11 + 352#32).toNat)) (tabAt T (row 12 + 384#32).toNat)) (tabAt T (row 13 + 416#32).toNat)) (tabAt T (row 14 + 448#32).toNat)) (tabAt T (row 15 + 480#32).toNat)) (tabAt T (row 16 + 512#32).toNat)) (tabAt T (row 17 + 544#32).toNat)) (tabAt T (row 18 + 576#32).toNat)) (tabAt T (row 19 + 608#32).toNat)) (tabAt T (row 20 + 640#32).toNat)) (tabAt T (row 21 + 672#32).toNat)) (tabAt T (row 22 + 704#32).toNat)) (tabAt T (row 23 + 736#32).toNat)) (tabAt T (row 24 + 768#32).toNat)) (tabAt T (row 25 + 800#32).toNat))

section TripApply

variable (TV : (sT).view.ty.Contents (Elt F)) (XV : IVec S26x512 32) (V3 : Vec F S16 .f32)
variable (k : Fin k0_t1_loop.trips)

theorem trips_le : k0_t1_loop.trips ≤ 32 := k0_t1_abs.2.1

theorem pos_lt (x : S16.Idx) : 16 * k.val + (x 0).val < 512 := by
  have h1 := k.isLt; have h2 := trips_le; have h3 : (x 0).val < 16 := (x 0).isLt; omega

theorem idxv0_apply (x : S16.Idx) : idxv0 (F := F) XV k x = XV (ix2 (0 : Fin 26) ⟨16 * k.val + (x 0).val, pos_lt k x⟩) + 0#32 :=
  row_words (F := F) XV _ (k0_off2_inb k) _ (0 : Fin 26) (16 * k.val) (k0_off2_eq k) x (pos_lt k x)
theorem idxv1_apply (x : S16.Idx) : idxv1 (F := F) XV k x = XV (ix2 (1 : Fin 26) ⟨16 * k.val + (x 0).val, pos_lt k x⟩) + 32#32 :=
  row_words (F := F) XV _ (k0_off3_inb k) _ (1 : Fin 26) (16 * k.val) (k0_off3_eq k) x (pos_lt k x)
theorem idxv2_apply (x : S16.Idx) : idxv2 (F := F) XV k x = XV (ix2 (2 : Fin 26) ⟨16 * k.val + (x 0).val, pos_lt k x⟩) + 64#32 :=
  row_words (F := F) XV _ (k0_off4_inb k) _ (2 : Fin 26) (16 * k.val) (k0_off4_eq k) x (pos_lt k x)
theorem idxv3_apply (x : S16.Idx) : idxv3 (F := F) XV k x = XV (ix2 (3 : Fin 26) ⟨16 * k.val + (x 0).val, pos_lt k x⟩) + 96#32 :=
  row_words (F := F) XV _ (k0_off5_inb k) _ (3 : Fin 26) (16 * k.val) (k0_off5_eq k) x (pos_lt k x)
theorem idxv4_apply (x : S16.Idx) : idxv4 (F := F) XV k x = XV (ix2 (4 : Fin 26) ⟨16 * k.val + (x 0).val, pos_lt k x⟩) + 128#32 :=
  row_words (F := F) XV _ (k0_off6_inb k) _ (4 : Fin 26) (16 * k.val) (k0_off6_eq k) x (pos_lt k x)
theorem idxv5_apply (x : S16.Idx) : idxv5 (F := F) XV k x = XV (ix2 (5 : Fin 26) ⟨16 * k.val + (x 0).val, pos_lt k x⟩) + 160#32 :=
  row_words (F := F) XV _ (k0_off7_inb k) _ (5 : Fin 26) (16 * k.val) (k0_off7_eq k) x (pos_lt k x)
theorem idxv6_apply (x : S16.Idx) : idxv6 (F := F) XV k x = XV (ix2 (6 : Fin 26) ⟨16 * k.val + (x 0).val, pos_lt k x⟩) + 192#32 :=
  row_words (F := F) XV _ (k0_off8_inb k) _ (6 : Fin 26) (16 * k.val) (k0_off8_eq k) x (pos_lt k x)
theorem idxv7_apply (x : S16.Idx) : idxv7 (F := F) XV k x = XV (ix2 (7 : Fin 26) ⟨16 * k.val + (x 0).val, pos_lt k x⟩) + 224#32 :=
  row_words (F := F) XV _ (k0_off9_inb k) _ (7 : Fin 26) (16 * k.val) (k0_off9_eq k) x (pos_lt k x)
theorem idxv8_apply (x : S16.Idx) : idxv8 (F := F) XV k x = XV (ix2 (8 : Fin 26) ⟨16 * k.val + (x 0).val, pos_lt k x⟩) + 256#32 :=
  row_words (F := F) XV _ (k0_off10_inb k) _ (8 : Fin 26) (16 * k.val) (k0_off10_eq k) x (pos_lt k x)
theorem idxv9_apply (x : S16.Idx) : idxv9 (F := F) XV k x = XV (ix2 (9 : Fin 26) ⟨16 * k.val + (x 0).val, pos_lt k x⟩) + 288#32 :=
  row_words (F := F) XV _ (k0_off11_inb k) _ (9 : Fin 26) (16 * k.val) (k0_off11_eq k) x (pos_lt k x)
theorem idxv10_apply (x : S16.Idx) : idxv10 (F := F) XV k x = XV (ix2 (10 : Fin 26) ⟨16 * k.val + (x 0).val, pos_lt k x⟩) + 320#32 :=
  row_words (F := F) XV _ (k0_off12_inb k) _ (10 : Fin 26) (16 * k.val) (k0_off12_eq k) x (pos_lt k x)
theorem idxv11_apply (x : S16.Idx) : idxv11 (F := F) XV k x = XV (ix2 (11 : Fin 26) ⟨16 * k.val + (x 0).val, pos_lt k x⟩) + 352#32 :=
  row_words (F := F) XV _ (k0_off13_inb k) _ (11 : Fin 26) (16 * k.val) (k0_off13_eq k) x (pos_lt k x)
theorem idxv12_apply (x : S16.Idx) : idxv12 (F := F) XV k x = XV (ix2 (12 : Fin 26) ⟨16 * k.val + (x 0).val, pos_lt k x⟩) + 384#32 :=
  row_words (F := F) XV _ (k0_off14_inb k) _ (12 : Fin 26) (16 * k.val) (k0_off14_eq k) x (pos_lt k x)
theorem idxv13_apply (x : S16.Idx) : idxv13 (F := F) XV k x = XV (ix2 (13 : Fin 26) ⟨16 * k.val + (x 0).val, pos_lt k x⟩) + 416#32 :=
  row_words (F := F) XV _ (k0_off15_inb k) _ (13 : Fin 26) (16 * k.val) (k0_off15_eq k) x (pos_lt k x)
theorem idxv14_apply (x : S16.Idx) : idxv14 (F := F) XV k x = XV (ix2 (14 : Fin 26) ⟨16 * k.val + (x 0).val, pos_lt k x⟩) + 448#32 :=
  row_words (F := F) XV _ (k0_off16_inb k) _ (14 : Fin 26) (16 * k.val) (k0_off16_eq k) x (pos_lt k x)
theorem idxv15_apply (x : S16.Idx) : idxv15 (F := F) XV k x = XV (ix2 (15 : Fin 26) ⟨16 * k.val + (x 0).val, pos_lt k x⟩) + 480#32 :=
  row_words (F := F) XV _ (k0_off17_inb k) _ (15 : Fin 26) (16 * k.val) (k0_off17_eq k) x (pos_lt k x)
theorem idxv16_apply (x : S16.Idx) : idxv16 (F := F) XV k x = XV (ix2 (16 : Fin 26) ⟨16 * k.val + (x 0).val, pos_lt k x⟩) + 512#32 :=
  row_words (F := F) XV _ (k0_off18_inb k) _ (16 : Fin 26) (16 * k.val) (k0_off18_eq k) x (pos_lt k x)
theorem idxv17_apply (x : S16.Idx) : idxv17 (F := F) XV k x = XV (ix2 (17 : Fin 26) ⟨16 * k.val + (x 0).val, pos_lt k x⟩) + 544#32 :=
  row_words (F := F) XV _ (k0_off19_inb k) _ (17 : Fin 26) (16 * k.val) (k0_off19_eq k) x (pos_lt k x)
theorem idxv18_apply (x : S16.Idx) : idxv18 (F := F) XV k x = XV (ix2 (18 : Fin 26) ⟨16 * k.val + (x 0).val, pos_lt k x⟩) + 576#32 :=
  row_words (F := F) XV _ (k0_off20_inb k) _ (18 : Fin 26) (16 * k.val) (k0_off20_eq k) x (pos_lt k x)
theorem idxv19_apply (x : S16.Idx) : idxv19 (F := F) XV k x = XV (ix2 (19 : Fin 26) ⟨16 * k.val + (x 0).val, pos_lt k x⟩) + 608#32 :=
  row_words (F := F) XV _ (k0_off21_inb k) _ (19 : Fin 26) (16 * k.val) (k0_off21_eq k) x (pos_lt k x)
theorem idxv20_apply (x : S16.Idx) : idxv20 (F := F) XV k x = XV (ix2 (20 : Fin 26) ⟨16 * k.val + (x 0).val, pos_lt k x⟩) + 640#32 :=
  row_words (F := F) XV _ (k0_off22_inb k) _ (20 : Fin 26) (16 * k.val) (k0_off22_eq k) x (pos_lt k x)
theorem idxv21_apply (x : S16.Idx) : idxv21 (F := F) XV k x = XV (ix2 (21 : Fin 26) ⟨16 * k.val + (x 0).val, pos_lt k x⟩) + 672#32 :=
  row_words (F := F) XV _ (k0_off23_inb k) _ (21 : Fin 26) (16 * k.val) (k0_off23_eq k) x (pos_lt k x)
theorem idxv22_apply (x : S16.Idx) : idxv22 (F := F) XV k x = XV (ix2 (22 : Fin 26) ⟨16 * k.val + (x 0).val, pos_lt k x⟩) + 704#32 :=
  row_words (F := F) XV _ (k0_off24_inb k) _ (22 : Fin 26) (16 * k.val) (k0_off24_eq k) x (pos_lt k x)
theorem idxv23_apply (x : S16.Idx) : idxv23 (F := F) XV k x = XV (ix2 (23 : Fin 26) ⟨16 * k.val + (x 0).val, pos_lt k x⟩) + 736#32 :=
  row_words (F := F) XV _ (k0_off25_inb k) _ (23 : Fin 26) (16 * k.val) (k0_off25_eq k) x (pos_lt k x)
theorem idxv24_apply (x : S16.Idx) : idxv24 (F := F) XV k x = XV (ix2 (24 : Fin 26) ⟨16 * k.val + (x 0).val, pos_lt k x⟩) + 768#32 :=
  row_words (F := F) XV _ (k0_off26_inb k) _ (24 : Fin 26) (16 * k.val) (k0_off26_eq k) x (pos_lt k x)
theorem idxv25_apply (x : S16.Idx) : idxv25 (F := F) XV k x = XV (ix2 (25 : Fin 26) ⟨16 * k.val + (x 0).val, pos_lt k x⟩) + 800#32 :=
  row_words (F := F) XV _ (k0_off27_inb k) _ (25 : Fin 26) (16 * k.val) (k0_off27_eq k) x (pos_lt k x)

/-- Lane `x` of what trip `k` stores is the lane formula at position `16·k + x` of the tile's results. -/
theorem tripVec_apply (hXr : ∀ j, (XV j).toNat < 32) (x : S16.Idx) :
    tripVec TV XV V3 k hXr x = laneVal (tabRd TV) (fun f => XV (ix2 f ⟨16 * k.val + (x 0).val, pos_lt k x⟩)) (V3 x) := by
  unfold tripVec laneVal
  simp only [k0_pay6, k0_pay32, k0_pay26, k0_pay18, k0_pay12, addf, gat_apply, idxv0_apply, idxv1_apply, idxv2_apply, idxv3_apply, idxv4_apply, idxv5_apply, idxv6_apply, idxv7_apply, idxv8_apply, idxv9_apply, idxv10_apply, idxv11_apply, idxv12_apply, idxv13_apply, idxv14_apply, idxv15_apply, idxv16_apply, idxv17_apply, idxv18_apply, idxv19_apply, idxv20_apply, idxv21_apply, idxv22_apply, idxv23_apply, idxv24_apply, idxv25_apply]

end TripApply

end Cert.Proof.KI

end
-- ==== Proof.KIBody.lean ====
/-
  One tile's task, run once at a symbolic place: it stages the table, the free-term vector and its block of the index
  array, then for each of 32 groups of 16 batch positions adds, onto the free-term vector, the 26 vectors gathered from
  the table at the staged indices, stores the sum into its result scratch, and at the end writes the 512 results out.
  Every gather's indices are in range because every staged index word is below 32. What the task leaves in its 512
  cells of the result array is stated position by position (`OutOK`).
-/
import proofs.«206722_g31198642438219_cont_8to1_b_1255_3_alg».proof.Proof.KITileOwn
import proofs.«206722_g31198642438219_cont_8to1_b_1255_3_alg».proof.Proof.KIVal
import Idealize.ShloMosaic.Lib.WritesUnit

noncomputable section

namespace Cert.Proof.KI

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.KernelIdeal.main_v1_scv : Memref Cert.KernelIdeal.sig Kind.scVector Space.hbm Cert.KernelIdeal.S32x26x512 EltTy.i32)
local notation "tabW" => (Memref.whole Cert.KernelIdeal.main_v2_scv : Memref Cert.KernelIdeal.sig Kind.scVector Space.hbm Cert.KernelIdeal.S832 EltTy.f32)
local notation "freeW" => (Memref.whole Cert.KernelIdeal.main_v3_scv : Memref Cert.KernelIdeal.sig Kind.scVector Space.hbm Cert.KernelIdeal.S16 EltTy.f32)
local notation "outW" => (Memref.whole Cert.KernelIdeal.main_v4_scv : Memref Cert.KernelIdeal.sig Kind.scVector Space.hbm Cert.KernelIdeal.S16384 EltTy.f32)
local notation "sT" => (Memref.whole Cert.KernelIdeal.cc0_scratch0 : Memref Cert.KernelIdeal.sig Kind.scVector Space.vmem Cert.KernelIdeal.S832 EltTy.f32)
local notation "sX" => (Memref.whole Cert.KernelIdeal.cc0_scratch1 : Memref Cert.KernelIdeal.sig Kind.scVector Space.vmem Cert.KernelIdeal.S26x512 EltTy.i32)
local notation "sO" => (Memref.whole Cert.KernelIdeal.cc0_scratch2 : Memref Cert.KernelIdeal.sig Kind.scVector Space.vmem Cert.KernelIdeal.S512 EltTy.f32)
local notation "sF" => (Memref.whole Cert.KernelIdeal.cc0_scratch3 : Memref Cert.KernelIdeal.sig Kind.scVector Space.vmem Cert.KernelIdeal.S16 EltTy.f32)

open Idealize.ShloMosaic.ValueIdx

section Tile

variable (d : Dev nD) (L : grid0.Coords)

theorem pts_sT (f : Buf (Elt F) ((tile d L).loc cc0_scratch0)) :
    ((sT).view.loc (tile d L) ↦{fullShare} f : sProp 𝕄) = (tile d L).loc cc0_scratch0 ↦{fullShare} f := rfl
theorem pts_sX (f : Buf (Elt F) ((tile d L).loc cc0_scratch1)) :
    ((sX).view.loc (tile d L) ↦{fullShare} f : sProp 𝕄) = (tile d L).loc cc0_scratch1 ↦{fullShare} f := rfl
theorem pts_sO (f : Buf (Elt F) ((tile d L).loc cc0_scratch2)) :
    ((sO).view.loc (tile d L) ↦{fullShare} f : sProp 𝕄) = (tile d L).loc cc0_scratch2 ↦{fullShare} f := rfl
theorem pts_sF (f : Buf (Elt F) ((tile d L).loc cc0_scratch3)) :
    ((sF).view.loc (tile d L) ↦{fullShare} f : sProp 𝕄) = (tile d L).loc cc0_scratch3 ↦{fullShare} f := rfl
theorem pts_sT_access (f : Buf (Elt F) ((tile d L).loc cc0_scratch0)) :
    ((((sT).access (.whole S832)).loc (tile d L)) ↦{fullShare} f : sProp 𝕄) = (sT).view.loc (tile d L) ↦{fullShare} f := rfl

variable [FloatOps F]

/-- Position `16·k + x` of the tile's 512 results. -/
abbrev oIx (k : Fin k0_t1_loop.trips) (x : S16.Idx) : S512.Idx := ix1 ⟨16 * k.val + (x 0).val, pos_lt k x⟩

/-- What the tile leaves in its cells of the result array, from what it staged: at position `16·k + x` the lane formula
    over the table, the index block's column `16·k + x` and lane `x` of the free-term vector. -/
def OutOK (tabv : Buf (Elt F) (tabLoc d)) (freev : Buf (Elt F) (freeLoc d)) (xtv : Buf (Elt F) (xtLoc d)) (fo : Buf (Elt F) (outLoc d)) : Prop :=
  ∀ (k : Fin k0_t1_loop.trips) (x : S16.Idx),
    fo ((oBlk L).view.emb (oIx k x))
      = laneVal (View.read (Elt F) (tabW).view tabv)
          (fun f => View.read (Elt F) (xBlk L).view xtv (ix2 f ⟨16 * k.val + (x 0).val, pos_lt k x⟩))
          (View.read (Elt F) (freeW).view freev x)

/-- The loop's invariant after `n` trips: the staged table and index block as they are, and the result scratch holding, at
    the positions of the first `n` groups, what those trips stored. -/
def inv (TV : (sT).view.ty.Contents (Elt F)) (XV : IVec S26x512 32) (V3 : Vec F S16 .f32) (hXr : ∀ j, (XV j).toNat < 32)
    (n : Nat) (_ : PUnit) : sProp 𝕄 :=
  iprop(((sT).view.loc (tile d L) ↦{fullShare} TV) ∗ ((sX).view.loc (tile d L) ↦{fullShare} XV)
    ∗ ∃ g, ⌜∀ (k' : Fin k0_t1_loop.trips), k'.val < n → ∀ x : S16.Idx,
            View.read (Elt F) (sO).view g (oIx k' x) = tripVec TV XV V3 k' hXr x⌝
        ∗ (sO).view.loc (tile d L) ↦{fullShare} g)

set_option maxHeartbeats 4000000 in
theorem tile_body (hF : (K (F := F)).Facts) (O : CellTallies nD τ sig (HIx 1)) (W : Waits sig (HIx 1)) (hO : ∀ g, O g none = 0)
    (qT qF : PosShare TreeShare)
    (tabv : Buf (Elt F) (tabLoc d)) (freev : Buf (Elt F) (freeLoc d)) (xtv : Buf (Elt F) (xtLoc d)) (outv : Buf (Elt F) (outLoc d))
    (hX : ∀ j : S26x512.Idx, (View.read (Elt F) (xBlk L).view xtv j).toNat < 32) :
    iprop(levAts (K (F := F)).L (K (F := F)).lev
        ∗ ((tabW).view.loc (tile d L) ↦{qT} tabv) ∗ ((freeW).view.loc (tile d L) ↦{qF} freev)
        ∗ ((xBlk L).view.loc (tile d L) ↦[(xBlk L).view.set]{fullShare} xtv)
        ∗ ((oBlk L).view.loc (tile d L) ↦[(oBlk L).view.set]{fullShare} outv)
        ∗ scopedBufs (tile d L) ∗ scopedSems0 (tile d L) ∗ owes (tile d L) O W)
      ⊢ wp frame (wpE (defs₀ (F := F)) 𝒱₀ (tile d L) none) Set.univ
          (cc0__emb_sum_kernel L xtW (Memref.isWhole_whole _) tabW (Memref.isWhole_whole _) freeW (Memref.isWhole_whole _) outW (Memref.isWhole_whole _)
            sT (Memref.isWhole_whole _) sX (Memref.isWhole_whole _) sO (Memref.isWhole_whole _) sF (Memref.isWhole_whole _)
            cc0_scoped0 cc0_scoped1 cc0_scoped2 cc0_scoped3)
          fun _ => (iprop((∃ fo, ⌜OutOK d L tabv freev xtv fo⌝ ∗ ((oBlk L).view.loc (tile d L) ↦[(oBlk L).view.set]{fullShare} fo))
            ∗ scopedBufs (tile d L) ∗ scopedSems0 (tile d L)
            ∗ ∃ W', ⌜∀ p ∈ W', p ∈ W ∨ p.2 = none⌝ ∗ owes (tile d L) O W') : sProp 𝕄) := by
  rw [cc0__emb_sum_kernel_eq_skeleton]; unfold cc0__emb_sum_kernel_skel
  rw [(K (F := F)).scopedBufs_V hF d (cV L) (jV L), SparseCore.Cfg.scopedSems0_V (Val := Elt F) d (cV L) (jV L), ownSems0_tile, ownBufs_tile]
  iintro ⟨#Hlv, Htab, Hfree, Hx, Ho, ⟨⟨%fT, HsT⟩, ⟨%fX, HsX⟩, ⟨%fO, HsO⟩, ⟨%fF, HsF⟩, Hbufs⟩, ⟨Hc0, Hc1, Hc2, Hc3, Hsems⟩, HO⟩
  ihave Hmw := ((K (F := F)).mayWaits_none (thr := tile d L) hO) $$ Hlv
  ihave HsT' := (Entails.of_eq (pts_sT (F := F) d L _).symm) $$ HsT
  ihave HsX' := (Entails.of_eq (pts_sX (F := F) d L _).symm) $$ HsX
  ihave HsO' := (Entails.of_eq (pts_sO (F := F) d L _).symm) $$ HsO
  ihave HsF' := (Entails.of_eq (pts_sF (F := F) d L _).symm) $$ HsF
  -- the three staging copies and the load of the free-term vector
  sl_exec
  generalize hTV : View.write (Elt F) (sT).view fT (tile_body.sl.dma0 d tabv) Finset.univ = TV
  generalize hXV : View.write (Elt F) (sX).view fX (tile_body.sl.dma0_2 d L xtv) Finset.univ = XV
  generalize hV3 : View.readAt (Elt F) (sF).view (Rect.unit ![0] S16.size inb_S16_S16_0).toLoadRect (View.write (Elt F) (sF).view fF (tile_body.sl.dma0_1 d freev) Finset.univ) = V3
  have eTV : TV = View.read (Elt F) (tabW).view tabv := by rw [← hTV, View.write_whole_univ]; rfl
  have eXV : XV = View.read (Elt F) (xBlk L).view xtv := by rw [← hXV, View.write_whole_univ]; rfl
  have eV3 : V3 = View.read (Elt F) (freeW).view freev := by
    rw [← hV3, View.write_whole_univ]
    funext x
    have hi : (Rect.unit (s := S16) ![0] S16.size inb_S16_S16_0).toLoadRect.idx x = x := by
      funext a; apply Fin.ext
      rw [LoadRect.idx_apply, Subsingleton.elim a 0]
      show 0 + 1 * (x 0).val = (x 0).val
      simp
    show View.read (Elt F) (sF).view (tile_body.sl.dma0_1 d freev) ((Rect.unit (s := S16) ![0] S16.size inb_S16_S16_0).toLoadRect.idx x) = _
    rw [hi]; rfl
  have hXr : ∀ j, ((XV : IVec S26x512 32) j).toNat < 32 := fun j => by rw [eXV]; exact hX j
  sl_for (inv d L TV XV V3 hXr) $$ [HsT' HsX' HsO']
  case region =>
    intro k _
    unfold inv
    iintro ⟨HsT, HsX, ⟨%g, %hg, HsO⟩⟩
    ihave HsT := (Entails.of_eq (pts_sT_access (F := F) d L _).symm) $$ HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    ihave HsT := (Entails.of_eq (pts_sT_access (F := F) d L _)) $$ HsT
    sl_step
    isplitl [HsT]; · iexact HsT
    isplitl [HsX]; · iexact HsX
    iexists _; isplitr
    rotate_left
    · iexact HsO
    · ipureintro
      intro k' hk' x
      by_cases hkk : k'.val = k.val
      · obtain rfl : k' = k := Fin.ext hkk
        refine (View.read_writes_cons_unit_of_mem (sO).view g (k0_off28_inb k') _ [] (oIx k' x) x (k0_off28_eq k')
          (fun a => match a with | ⟨0, _⟩ => rfl)).trans ?_
        rfl
      · have hlt : k'.val < k.val := by omega
        refine (View.read_writes_cons_unit_of_not_mem (sO).view g (k0_off28_inb k) _ [] (oIx k' x) (k0_off28_eq k) 0
          (Or.inl (by show 16 * k'.val + (x 0).val < 16 * k.val; have h3 : (x 0).val < 16 := (x 0).isLt; omega))).trans ?_
        exact hg k' hlt x
  · unfold inv
    isplitl [HsT']; · iexact HsT'
    isplitl [HsX']; · iexact HsX'
    iexists fO; isplitr
    · ipureintro; intro k' hk'; exact absurd hk' (Nat.not_lt_zero _)
    · iexact HsO'
  iintro %_ HI
  unfold inv
  icases HI with ⟨HsT, HsX, %g, %hg, HsO⟩
  -- the write-out of the 512 results and its wait
  sl_exec
  sl_step
  isplitl [Ho]
  · iexists ((oBlk L).view.writes (Elt F) outv [⟨Rect.whole S512, tile_body.sl.dma0_3 g⟩]); isplitr
    · ipureintro
      unfold OutOK
      intro k x
      have h1 := View.read_writes_cons_emb (oBlk L).view outv (Rect.whole S512) (tile_body.sl.dma0_3 g) [] (oIx k x)
      rw [Rect.emb_whole_apply] at h1
      have h2 : (oBlk L).view.writes (Elt F) outv [⟨Rect.whole S512, tile_body.sl.dma0_3 g⟩] ((oBlk L).view.emb (oIx k x))
          = View.read (Elt F) (oBlk L).view ((oBlk L).view.writes (Elt F) outv [⟨Rect.whole S512, tile_body.sl.dma0_3 g⟩]) (oIx k x) :=
        ((View.read_apply _ _).trans (cast_eq _ _)).symm
      rw [h2, h1]
      have h3 : tile_body.sl.dma0_3 g (oIx k x) = tripVec TV XV V3 k hXr x := hg k k.isLt x
      rw [h3, tripVec_apply, tabRd_eq, eTV, eV3]
      simp only [eXV]
    · iexact Ho
  ihave HsT := (Entails.of_eq (pts_sT (F := F) d L _)) $$ HsT
  ihave HsX := (Entails.of_eq (pts_sX (F := F) d L _)) $$ HsX
  ihave HsO := (Entails.of_eq (pts_sO (F := F) d L _)) $$ HsO
  ihave HsF := (Entails.of_eq (pts_sF (F := F) d L _)) $$ HsF'
  isplitl [HsT HsX HsO HsF Hbufs]
  · isplitl [HsT]; · iexists _; iexact HsT
    isplitl [HsX]; · iexists _; iexact HsX
    isplitl [HsO]; · iexists _; iexact HsO
    isplitl [HsF]; · iexists _; iexact HsF
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KI

end
-- ==== Proof.KIIndex.lean ====
/-
  Where a tile's pieces sit in the whole arrays. Tile (c, s) is worker w = 2·s + c: position j of its 512 results is
  cell 512·w + j of the result array, and entry (f, j) of its squeezed index block is entry (w, f, j) of the transposed
  index array.
-/
import proofs.«206722_g31198642438219_cont_8to1_b_1255_3_alg».proof.Proof.KISetup
import Idealize.ShloMosaic.Lib.ValueIdx

noncomputable section

namespace Cert.Proof.KI

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.KernelIdeal.main_v1_scv : Memref Cert.KernelIdeal.sig Kind.scVector Space.hbm Cert.KernelIdeal.S32x26x512 EltTy.i32)
local notation "tabW" => (Memref.whole Cert.KernelIdeal.main_v2_scv : Memref Cert.KernelIdeal.sig Kind.scVector Space.hbm Cert.KernelIdeal.S832 EltTy.f32)
local notation "freeW" => (Memref.whole Cert.KernelIdeal.main_v3_scv : Memref Cert.KernelIdeal.sig Kind.scVector Space.hbm Cert.KernelIdeal.S16 EltTy.f32)
local notation "outW" => (Memref.whole Cert.KernelIdeal.main_v4_scv : Memref Cert.KernelIdeal.sig Kind.scVector Space.hbm Cert.KernelIdeal.S16384 EltTy.f32)
local notation "sT" => (Memref.whole Cert.KernelIdeal.cc0_scratch0 : Memref Cert.KernelIdeal.sig Kind.scVector Space.vmem Cert.KernelIdeal.S832 EltTy.f32)
local notation "sX" => (Memref.whole Cert.KernelIdeal.cc0_scratch1 : Memref Cert.KernelIdeal.sig Kind.scVector Space.vmem Cert.KernelIdeal.S26x512 EltTy.i32)
local notation "sO" => (Memref.whole Cert.KernelIdeal.cc0_scratch2 : Memref Cert.KernelIdeal.sig Kind.scVector Space.vmem Cert.KernelIdeal.S512 EltTy.f32)
local notation "sF" => (Memref.whole Cert.KernelIdeal.cc0_scratch3 : Memref Cert.KernelIdeal.sig Kind.scVector Space.vmem Cert.KernelIdeal.S16 EltTy.f32)

open Idealize.ShloMosaic.ValueIdx

/-- The tile's worker number. -/
abbrev widN (L : grid0.Coords) : Nat := 2 * (L 1).val + (L 0).val
theorem widN_lt (L : grid0.Coords) : widN L < 32 := by
  have h0 : (L 0).val < 2 := (L 0).isLt
  have h1 : (L 1).val < 16 := (L 1).isLt
  show 2 * (L 1).val + (L 0).val < 32
  omega

theorem cell_lt (L : grid0.Coords) (j : S512.Idx) : 512 * widN L + (j 0).val < 16384 := by
  have h := widN_lt L; have hj : (j 0).val < 512 := (j 0).isLt; omega

/-- Position `j` of the tile's results is cell `512·w + j`. -/
theorem oBlk_emb (L : grid0.Coords) (j : S512.Idx) :
    (oBlk L).view.emb j = (ix1 ⟨512 * widN L + (j 0).val, cell_lt L j⟩ : S16384.Idx) := by
  funext a
  apply Fin.ext
  match a with
  | ⟨0, _⟩ =>
    show (k0_off29 L) 0 + 1 * (j 0).val = 512 * widN L + (j 0).val
    rw [k0_off29_eq L]
    show 1024 * (L 1).val + 512 * (L 0).val + 1 * (j 0).val = 512 * (2 * (L 1).val + (L 0).val) + (j 0).val
    omega

/-- Entry `(f, j)` of the tile's index block is entry `(w, f, j)` of the transposed index array. -/
theorem xBlk_emb (L : grid0.Coords) (f : Fin 26) (j : Fin 512) :
    (xBlk L).view.emb (ix2 f j : S26x512.Idx) = (ix3 (⟨widN L, widN_lt L⟩ : Fin 32) f j : S32x26x512.Idx) := by
  have hr : Shape.reshapeEquiv (s := S1x26x512) (s' := S26x512) squeezes_S1x26x512_S26x512.numel_eq (ix2 f j)
      = (ix3 (0 : Fin 1) f j : S1x26x512.Idx) :=
    Shape.reshapeEquiv_eq_of_rowMajor _ (by rw [Shape.rowMajor_val_three, Shape.rowMajor_val_two]; simp)
  show (Rect.unit (s := S32x26x512) (k0_off1 L) S1x26x512.size (k0_off1_inb L)).emb
      (Shape.reshapeEquiv (s := S1x26x512) (s' := S26x512) squeezes_S1x26x512_S26x512.numel_eq (ix2 f j)) = _
  rw [hr]
  funext a
  apply Fin.ext
  show (k0_off1 L) a + 1 * ((ix3 (0 : Fin 1) f j : S1x26x512.Idx) a).val = _
  rw [k0_off1_eq L]
  match a with
  | ⟨0, _⟩ => simp [widN]
  | ⟨1, _⟩ => simp
  | ⟨2, _⟩ => simp

end Cert.Proof.KI

end
-- ==== Proof.KILaunch.lean ====
/-
  The launch: the TensorCore's @main lays the index array out as 32 blocks of 26 rows of 512, flattens the table,
  repeats the free term over 16 lanes, and starts the two SparseCores; each of the 32 tiles is handed a read share of the
  table and of the free-term vector, its own block of the indices and its own 512 cells of the result array, and hands
  the cells back holding the specification `outSpec` there. Put back together, the whole result array holds `outSpec`;
  the three argument arrays never leave the TensorCore.
-/
import proofs.«206722_g31198642438219_cont_8to1_b_1255_3_alg».proof.Proof.KIBody
import proofs.«206722_g31198642438219_cont_8to1_b_1255_3_alg».proof.Proof.KIIndex

noncomputable section

namespace Cert.Proof.KI

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.KernelIdeal.main_v1_scv : Memref Cert.KernelIdeal.sig Kind.scVector Space.hbm Cert.KernelIdeal.S32x26x512 EltTy.i32)
local notation "tabW" => (Memref.whole Cert.KernelIdeal.main_v2_scv : Memref Cert.KernelIdeal.sig Kind.scVector Space.hbm Cert.KernelIdeal.S832 EltTy.f32)
local notation "freeW" => (Memref.whole Cert.KernelIdeal.main_v3_scv : Memref Cert.KernelIdeal.sig Kind.scVector Space.hbm Cert.KernelIdeal.S16 EltTy.f32)
local notation "outW" => (Memref.whole Cert.KernelIdeal.main_v4_scv : Memref Cert.KernelIdeal.sig Kind.scVector Space.hbm Cert.KernelIdeal.S16384 EltTy.f32)
local notation "sT" => (Memref.whole Cert.KernelIdeal.cc0_scratch0 : Memref Cert.KernelIdeal.sig Kind.scVector Space.vmem Cert.KernelIdeal.S832 EltTy.f32)
local notation "sX" => (Memref.whole Cert.KernelIdeal.cc0_scratch1 : Memref Cert.KernelIdeal.sig Kind.scVector Space.vmem Cert.KernelIdeal.S26x512 EltTy.i32)
local notation "sO" => (Memref.whole Cert.KernelIdeal.cc0_scratch2 : Memref Cert.KernelIdeal.sig Kind.scVector Space.vmem Cert.KernelIdeal.S512 EltTy.f32)
local notation "sF" => (Memref.whole Cert.KernelIdeal.cc0_scratch3 : Memref Cert.KernelIdeal.sig Kind.scVector Space.vmem Cert.KernelIdeal.S16 EltTy.f32)

open Idealize.ShloMosaic.StableHlo (held held_split held_sdiff_result wp_hlo_within wp_seq after)
open Idealize.ShloMosaic.Transfers (shareTok shareDrop pointsTo_toks)
open Idealize.ShloMosaic.ValueIdx

/-! ## The specification of the whole result array -/

section Spec
variable [FloatOps F]

theorem cell_div (b : S16384.Idx) : (b 0).val / 512 < 32 := by have h : (b 0).val < 16384 := (b 0).isLt; omega
theorem cell_mod (b : S16384.Idx) : (b 0).val % 512 < 512 := Nat.mod_lt _ (by decide)
theorem cell_lane (b : S16384.Idx) : (b 0).val % 16 < 16 := Nat.mod_lt _ (by decide)

/-- Cell `b` of the result array: with `w = b / 512` and `j = b % 512`, the lane formula over the table, column `j` of
    index block `w`, and lane `b % 16` of the free-term vector. -/
def outSpec (T : FVec F S832 .f32) (X : IVec S32x26x512 32) (V : FVec F S16 .f32) : FVec F S16384 .f32 :=
  fun b => laneVal T (fun f => X (ix3 (⟨(b 0).val / 512, cell_div b⟩ : Fin 32) f (⟨(b 0).val % 512, cell_mod b⟩ : Fin 512)))
    (V (ix1 (⟨(b 0).val % 16, cell_lane b⟩ : Fin 16)))

theorem trips_eq : k0_t1_loop.trips = 32 := by decide

variable (d : Dev nD) (L : grid0.Coords)

/-- What a tile leaves in its cells is the specification there. -/
theorem spec_of_OutOK (tabv : Buf (Elt F) (tabLoc d)) (freev : Buf (Elt F) (freeLoc d)) (xtv : Buf (Elt F) (xtLoc d)) (fo : Buf (Elt F) (outLoc d))
    (h : OutOK d L tabv freev xtv fo) :
    ∀ i ∈ (oBlk L).view.set,
      fo i = outSpec (View.read (Elt F) (tabW).view tabv) (View.read (Elt F) (xtW).view xtv) (View.read (Elt F) (freeW).view freev) i := by
  intro i hi
  obtain ⟨j, -, rfl⟩ := Finset.mem_map.mp hi
  have hj16 : (j 0).val < 512 := (j 0).isLt
  have hk : (j 0).val / 16 < k0_t1_loop.trips := by rw [trips_eq]; omega
  have hx : (j 0).val % 16 < 16 := Nat.mod_lt _ (by decide)
  have hj : j = oIx (⟨(j 0).val / 16, hk⟩ : Fin k0_t1_loop.trips) (ix1 (⟨(j 0).val % 16, hx⟩ : Fin 16)) := by
    funext a
    match a with
    | ⟨0, _⟩ => exact Fin.ext (by show (j 0).val = 16 * ((j 0).val / 16) + (j 0).val % 16; omega)
  have hw := widN_lt L
  rw [hj, h _ _, oBlk_emb]
  unfold outSpec
  congr 1
  · funext f
    rw [View.read_apply, xBlk_emb]
    refine (cast_eq _ _).trans (congrArg xtv (funext fun a => Fin.ext ?_))
    match a with
    | ⟨0, _⟩ => show widN L = (512 * widN L + (16 * ((j 0).val / 16) + (j 0).val % 16)) / 512; omega
    | ⟨1, _⟩ => rfl
    | ⟨2, _⟩ => show 16 * ((j 0).val / 16) + (j 0).val % 16 = (512 * widN L + (16 * ((j 0).val / 16) + (j 0).val % 16)) % 512; omega
  · refine congrArg (View.read (Elt F) (freeW).view freev) (funext fun a => Fin.ext ?_)
    match a with
    | ⟨0, _⟩ => show (j 0).val % 16 = (512 * widN L + (16 * ((j 0).val / 16) + (j 0).val % 16)) % 16; omega

end Spec

variable (m : (ℓ : Loc nD τ sig) → Buf (Elt F) ℓ) (ρ : Dev nD → PrngReg)

variable [FloatOps F]

/-! ## @main's host operations and the arrays they leave -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0

abbrev op0 : HloOp τ sig (Elt F) := StableHlo.reshape main_arg0 main_v0 rfl shapeCasts_S16384x26_S32x512x26
abbrev op1 : HloOp τ sig (Elt F) := StableHlo.unary main_v0 main_v1 ((transpose S32x26x512 [0, 2, 1] · transposes_S32x512x26_S32x26x512_0_2_1) : (⟨S32x512x26, .i32⟩ : BufTy).Contents (Elt F) → (⟨S32x26x512, .i32⟩ : BufTy).Contents (Elt F))
abbrev op2 : HloOp τ sig (Elt F) := StableHlo.reshape main_arg1 main_v2 rfl shapeCasts_S26x32x1_S832
abbrev op3 : HloOp τ sig (Elt F) := StableHlo.unary main_arg2 main_v3 (broadcastInDim S16 ![0] bcast_S1_S16_0 : (⟨S1, .f32⟩ : BufTy).Contents (Elt F) → (⟨S16, .f32⟩ : BufTy).Contents (Elt F))
abbrev hostOps : List (HloOp τ sig (Elt F)) := [op0, op1, op2, op3]

/-- The launch contents, and the contents when the SparseCores are started. -/
def V0 (d : Dev nD) : Valuation τ sig (Elt F) := fun b => m (d, b)
abbrev V4 (d : Dev nD) : Valuation τ sig (Elt F) := after (hostOps (F := F)) (V0 m d)

abbrev r' (b : Ref sig .tc) : DevRef τ sig := Proc.devRef .tc b

/-- The transposed index blocks, the flat table, the free-term vector, as the call finds them. -/
abbrev xtC (d : Dev nD) : Buf (Elt F) (xtLoc d) := V4 m d (r' main_v1)
abbrev tabC (d : Dev nD) : Buf (Elt F) (tabLoc d) := V4 m d (r' main_v2)
abbrev freeC (d : Dev nD) : Buf (Elt F) (freeLoc d) := V4 m d (r' main_v3)

/-- The whole result array as the kernel leaves it. -/
def outS (d : Dev nD) : Buf (Elt F) (outLoc d) :=
  outSpec (View.read (Elt F) (tabW).view (tabC m d)) (View.read (Elt F) (xtW).view (xtC m d)) (View.read (Elt F) (freeW).view (freeC m d))

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

abbrev widF (L : grid0.Coords) : Fin 32 := ⟨widN L, widN_lt L⟩

/-- What a tile is handed: a read share of the table and of the free-term vector, its index block, its result cells. -/
def goP (d : Dev nD) (L : grid0.Coords) : sProp 𝕄 :=
  iprop((tabLoc d ↦{shareTok fullShare 32 (widF L)} tabC m d) ∗ (freeLoc d ↦{shareTok fullShare 32 (widF L)} freeC m d)
    ∗ (xtLoc d ↦[(xBlk L).view.set]{fullShare} xtC m d) ∗ (outLoc d ↦[(oBlk L).view.set]{fullShare} m (outLoc d)))
/-- What it hands back: its result cells, holding the specification. -/
def tdP (d : Dev nD) (L : grid0.Coords) : sProp 𝕄 := outLoc d ↦[(oBlk L).view.set]{fullShare} outS m d

abbrev cG (c : Fin ((K (F := F)).nCore 0)) : Fin (grid0.bound 0) := ⟨c.val, c.isLt⟩
abbrev sG (i : Fin ((K (F := F)).nSub 0)) : Fin (grid0.bound 1) := ⟨i.val, i.isLt⟩

/-- The one call: a SparseCore is handed its sixteen tiles' shares and blocks together and hands their cells back together. -/
def P : (K (F := F)).Pay (nD := nD) (Val := Elt F) (Name := ℕ) (U := UU) where
  st := fun q d c => match q with | 0 => bigSep Finset.univ fun i : Fin ((K (F := F)).nSub 0) => goP m d (coordsV (cG c) (sG i))
  dn := fun q d c => match q with | 0 => bigSep Finset.univ fun i : Fin ((K (F := F)).nSub 0) => tdP m d (coordsV (cG c) (sG i))
  go := fun q d c i => match q with | 0 => goP m d (coordsV (cG c) (sG i))
  td := fun q d c i => match q with | 0 => tdP m d (coordsV (cG c) (sG i))
  x := fun _ _ => iprop(emp)

instance goP_storable (d : Dev nD) (L : grid0.Coords) : BI.Storable (upEmb : UEmb _ 𝕄) (goP m d L) := by unfold goP; infer_instance
instance tdP_storable (d : Dev nD) (L : grid0.Coords) : BI.Storable (upEmb : UEmb _ 𝕄) (tdP m d L) := by unfold tdP; infer_instance

instance P_storable : (P (F := F) m).IsStorable where
  st q d c := match q with | 0 => (inferInstance : BI.Storable (upEmb : UEmb _ 𝕄) (bigSep Finset.univ fun i : Fin ((K (F := F)).nSub 0) => goP m d (coordsV (cG c) (sG i))))
  dn q d c := match q with | 0 => (inferInstance : BI.Storable (upEmb : UEmb _ 𝕄) (bigSep Finset.univ fun i : Fin ((K (F := F)).nSub 0) => tdP m d (coordsV (cG c) (sG i))))
  go q d c i := match q with | 0 => (inferInstance : BI.Storable (upEmb : UEmb _ 𝕄) (goP m d (coordsV (cG c) (sG i))))
  td q d c i := match q with | 0 => (inferInstance : BI.Storable (upEmb : UEmb _ 𝕄) (tdP m d (coordsV (cG c) (sG i))))

/-- What the proof asks of the memory the call finds: every index word below 32. -/
def PreOK : Prop := ∀ (d : Dev nD) (j : S32x26x512.Idx), ((View.read (Elt F) (xtW).view (xtC m d)) j).toNat < 32

/-! ## The launch theorem's obligations -/

theorem defs₀_vector (c : Fin τ.nSC) (s : Fin τ.nSub) :
    defs₀ (F := F) (.scVector c s) 0 ()
      = SparseCore.onTile hcore0 hsub0 (fun c s => cc0__emb_sum_kernel (coordsV c s)
          xtW (Memref.isWhole_whole _) tabW (Memref.isWhole_whole _) freeW (Memref.isWhole_whole _) outW (Memref.isWhole_whole _)
          sT (Memref.isWhole_whole _) sX (Memref.isWhole_whole _) sO (Memref.isWhole_whole _) sF (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's index block read through its own memref is part of the transposed array: its words are below 32. -/
theorem blk_small (hpre : PreOK m) (d : Dev nD) (L : grid0.Coords) (j : S26x512.Idx) :
    (View.read (Elt F) (xBlk L).view (xtC m d) j).toNat < 32 := by
  rw [View.read_apply]
  exact hpre d _

omit [FloatOps F] in
/-- What a tile is handed, respelt through the tile's own memrefs. -/
theorem go_pre (d : Dev nD) (L : grid0.Coords) {A B C D : sProp 𝕄} :
    iprop(A ∗ emp ∗ goP m d L ∗ B ∗ C ∗ D)
      ⊢ iprop(A ∗ ((tabW).view.loc (tile d L) ↦{shareTok fullShare 32 (widF L)} tabC m d)
        ∗ ((freeW).view.loc (tile d L) ↦{shareTok fullShare 32 (widF L)} freeC m d)
        ∗ ((xBlk L).view.loc (tile d L) ↦[(xBlk L).view.set]{fullShare} xtC m d)
        ∗ ((oBlk L).view.loc (tile d L) ↦[(oBlk L).view.set]{fullShare} m (outLoc d))
        ∗ B ∗ C ∗ D) := by
  unfold goP
  iintro ⟨Hlv, -, ⟨Htab, Hfree, Hx, Ho⟩, Hsb, Hss, HO⟩
  isplitl [Hlv]; · iexact Hlv
  isplitl [Htab]; · iexact Htab
  isplitl [Hfree]; · iexact Hfree
  isplitl [Hx]; · iexact Hx
  isplitl [Ho]; · iexact Ho
  isplitl [Hsb]; · iexact Hsb
  isplitl [Hss]; · iexact Hss
  iexact HO

/-- What a tile leaves, as the specification on its cells. -/
theorem td_post (d : Dev nD) (L : grid0.Coords) {B C D : sProp 𝕄} :
    iprop((∃ fo, ⌜OutOK d L (tabC m d) (freeC m d) (xtC m d) fo⌝ ∗ ((oBlk L).view.loc (tile d L) ↦[(oBlk L).view.set]{fullShare} fo)) ∗ B ∗ C ∗ D)
      ⊢ iprop(tdP m d L ∗ B ∗ C ∗ D) := by
  unfold tdP outS
  iintro ⟨⟨%fo, %hfo, Ho⟩, Hsb, Hss, HW⟩
  isplitl [Ho]
  · iapply (Entails.of_eq (pointsTo_congr (spec_of_OutOK d L (tabC m d) (freeC m d) (xtC m d) fo hfo)))
    iexact Ho
  isplitl [Hsb]; · iexact Hsb
  isplitl [Hss]; · iexact Hss
  iexact HW

theorem tile_task (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ goP m d L ∗ scopedBufs (tile d L) ∗ scopedSems0 (tile d L) ∗ owes (tile d L) O W)
      ⊢ wp frame (wpE (defs₀ (F := F)) 𝒱₀ (tile d L) none) Set.univ
          (cc0__emb_sum_kernel L xtW (Memref.isWhole_whole _) tabW (Memref.isWhole_whole _) freeW (Memref.isWhole_whole _) outW (Memref.isWhole_whole _)
            sT (Memref.isWhole_whole _) sX (Memref.isWhole_whole _) sO (Memref.isWhole_whole _) sF (Memref.isWhole_whole _)
            cc0_scoped0 cc0_scoped1 cc0_scoped2 cc0_scoped3)
          fun _ => (iprop(tdP m d L ∗ scopedBufs (tile d L) ∗ scopedSems0 (tile d L)
            ∗ ∃ W', ⌜∀ p ∈ W', p ∈ W ∨ p.2 = none⌝ ∗ owes (tile d L) O W') : sProp 𝕄) :=
  (go_pre m d L).trans ((tile_body d L hF O W hO (shareTok fullShare 32 (widF L)) (shareTok fullShare 32 (widF L))
    (tabC m d) (freeC m d) (xtC m d) (m (outLoc d)) (blk_small m hpre d L)).trans (wp_mono frame _ _ fun _ => td_post m d L))

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m hF hpre d (coordsV ⟨_, hc.1⟩ ⟨_, hc.2⟩) O W hO).trans (wp_mono frame _ _ fun _ => obl_post)

theorem vecSplit : (K (F := F)).VecSplit' (P m) 0 := by
  intro d c
  show (bigSep Finset.univ fun i : Fin ((K (F := F)).nSub 0) => goP m d (coordsV (cG c) (sG i)))
    ⊢ |={Set.univ}=> iprop((bigSep Finset.univ fun i : Fin ((K (F := F)).nSub 0) => goP m d (coordsV (cG c) (sG i)))
      ∗ ((bigSep Finset.univ fun i : Fin ((K (F := F)).nSub 0) => tdP m d (coordsV (cG c) (sG i)))
          -∗ bigSep Finset.univ fun i : Fin ((K (F := F)).nSub 0) => tdP m d (coordsV (cG c) (sG i))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KIMain.lean ====
/-
  @main on the TensorCore and the program's run. The index array's 32 blocks and the result array's 32 runs of 512 cells
  are pairwise disjoint and cover their arrays (a cell belongs to the tile whose worker number is its leading coordinate,
  respectively its position divided by 512); the table and the free-term vector go out as 32 read shares. After the
  call the result array is whole again and holds the specification.
-/
import proofs.«206722_g31198642438219_cont_8to1_b_1255_3_alg».proof.Proof.KILaunch

noncomputable section

namespace Cert.Proof.KI

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.KernelIdeal.main_v1_scv : Memref Cert.KernelIdeal.sig Kind.scVector Space.hbm Cert.KernelIdeal.S32x26x512 EltTy.i32)
local notation "tabW" => (Memref.whole Cert.KernelIdeal.main_v2_scv : Memref Cert.KernelIdeal.sig Kind.scVector Space.hbm Cert.KernelIdeal.S832 EltTy.f32)
local notation "freeW" => (Memref.whole Cert.KernelIdeal.main_v3_scv : Memref Cert.KernelIdeal.sig Kind.scVector Space.hbm Cert.KernelIdeal.S16 EltTy.f32)
local notation "outW" => (Memref.whole Cert.KernelIdeal.main_v4_scv : Memref Cert.KernelIdeal.sig Kind.scVector Space.hbm Cert.KernelIdeal.S16384 EltTy.f32)
local notation "sT" => (Memref.whole Cert.KernelIdeal.cc0_scratch0 : Memref Cert.KernelIdeal.sig Kind.scVector Space.vmem Cert.KernelIdeal.S832 EltTy.f32)
local notation "sX" => (Memref.whole Cert.KernelIdeal.cc0_scratch1 : Memref Cert.KernelIdeal.sig Kind.scVector Space.vmem Cert.KernelIdeal.S26x512 EltTy.i32)
local notation "sO" => (Memref.whole Cert.KernelIdeal.cc0_scratch2 : Memref Cert.KernelIdeal.sig Kind.scVector Space.vmem Cert.KernelIdeal.S512 EltTy.f32)
local notation "sF" => (Memref.whole Cert.KernelIdeal.cc0_scratch3 : Memref Cert.KernelIdeal.sig Kind.scVector Space.vmem Cert.KernelIdeal.S16 EltTy.f32)

open Idealize.ShloMosaic.StableHlo (held held_split held_sdiff_result wp_hlo_within wp_seq after)
open Idealize.ShloMosaic.Transfers (shareTok shareDrop pointsTo_toks)
open Idealize.ShloMosaic.ValueIdx

/-! ## Blocks -/

/-- The tiles of the call, as (SparseCore, subcore). -/
abbrev TI : Type := Fin ((K (F := F)).nCore 0) × Fin ((K (F := F)).nSub 0)
abbrev Lp (p : TI (F := F)) : grid0.Coords := coordsV (cG p.1) (sG p.2)

theorem widN_Lp (p : TI (F := F)) : widN (Lp p) = 2 * p.2.val + p.1.val := rfl

theorem Lp_inj {p p' : TI (F := F)} (h : widN (Lp p) = widN (Lp p')) : p = p' := by
  rw [widN_Lp, widN_Lp] at h
  have h1 : p.1.val < 2 := p.1.isLt
  have h2 : p'.1.val < 2 := p'.1.isLt
  exact Prod.ext (Fin.ext (by omega)) (Fin.ext (by omega))

/-- A tile's index block and result cells, as sets of cells of the whole arrays. -/
abbrev xSetOf (L : grid0.Coords) : Finset S32x26x512.Idx := (xBlk L).view.set
abbrev oSetOf (L : grid0.Coords) : Finset S16384.Idx := (oBlk L).view.set

/-- A cell of the transposed index array is in a tile's block exactly when its leading coordinate is the tile's number. -/
theorem mem_xSet (L : grid0.Coords) (i : S32x26x512.Idx) : i ∈ xSetOf L ↔ (i 0).val = widN L := by
  constructor
  · intro hi
    obtain ⟨y, -, rfl⟩ := Finset.mem_map.mp hi
    obtain ⟨f, j, rfl⟩ : ∃ (f : Fin 26) (j : Fin 512), y = ix2 f j := ⟨y 0, y 1, eq_ix2 y⟩
    show (((xBlk L).view.emb (ix2 f j : S26x512.Idx)) 0).val = widN L
    rw [xBlk_emb]
    rfl
  · intro h
    obtain ⟨w, f, j, rfl⟩ : ∃ (w : Fin 32) (f : Fin 26) (j : Fin 512), i = ix3 w f j := ⟨i 0, i 1, i 2, eq_ix3 i⟩
    have e : (ix3 w f j : S32x26x512.Idx) = (xBlk L).view.emb (ix2 f j : S26x512.Idx) := by
      rw [xBlk_emb]; exact congrArg (fun t => (ix3 t f j : S32x26x512.Idx)) (Fin.ext h)
    rw [e]; exact View.emb_mem_set _ _

/-- A cell of the result array is a tile's exactly when its position divided by 512 is the tile's number. -/
theorem mem_oSet (L : grid0.Coords) (i : S16384.Idx) : i ∈ oSetOf L ↔ (i 0).val / 512 = widN L := by
  constructor
  · intro hi
    obtain ⟨y, -, rfl⟩ := Finset.mem_map.mp hi
    show (((oBlk L).view.emb y) 0).val / 512 = widN L
    rw [oBlk_emb]
    have hy : (y 0).val < 512 := (y 0).isLt
    show (512 * widN L + (y 0).val) / 512 = widN L
    omega
  · intro h
    obtain ⟨b, rfl⟩ : ∃ b : Fin 16384, i = ix1 b := ⟨i 0, eq_ix1 i⟩
    have hlt : b.val % 512 < 512 := Nat.mod_lt _ (by decide)
    have e : (ix1 b : S16384.Idx) = (oBlk L).view.emb (ix1 (⟨b.val % 512, hlt⟩ : Fin 512) : S512.Idx) := by
      rw [oBlk_emb]
      exact congrArg ix1 (Fin.ext (by show b.val = 512 * widN L + b.val % 512; have h' : b.val / 512 = widN L := h; omega))
    rw [e]; exact View.emb_mem_set _ _

theorem xSets_disjoint : ∀ p ∈ (Finset.univ : Finset (TI (F := F))), ∀ p' ∈ (Finset.univ : Finset (TI (F := F))), p ≠ p' →
    Disjoint (xSetOf (Lp p)) (xSetOf (Lp p')) := fun p _ p' _ hne =>
  Finset.disjoint_left.mpr fun i h1 h2 => hne (Lp_inj (((mem_xSet _ i).mp h1).symm.trans ((mem_xSet _ i).mp h2)))
theorem oSets_disjoint : ∀ p ∈ (Finset.univ : Finset (TI (F := F))), ∀ p' ∈ (Finset.univ : Finset (TI (F := F))), p ≠ p' →
    Disjoint (oSetOf (Lp p)) (oSetOf (Lp p')) := fun p _ p' _ hne =>
  Finset.disjoint_left.mpr fun i h1 h2 => hne (Lp_inj (((mem_oSet _ i).mp h1).symm.trans ((mem_oSet _ i).mp h2)))

/-- The tile whose number is `w`. -/
def ofWid (w : Nat) (hw : w < 32) : TI (F := F) := (⟨w % 2, Nat.mod_lt _ (by decide)⟩, ⟨w / 2, by show w / 2 < 16; omega⟩)
theorem widN_ofWid (w : Nat) (hw : w < 32) : widN (Lp (ofWid (F := F) w hw)) = w := by
  show 2 * (w / 2) + w % 2 = w; omega

theorem xSets_cover : (Finset.univ : Finset (TI (F := F))).biUnion (fun p => xSetOf (Lp p)) = Finset.univ := by
  ext i
  simp only [Finset.mem_biUnion, Finset.mem_univ, true_and, iff_true]
  have h : (i 0).val < 32 := (i 0).isLt
  exact ⟨ofWid (i 0).val h, (mem_xSet _ i).mpr (widN_ofWid _ h).symm⟩
theorem oSets_cover : (Finset.univ : Finset (TI (F := F))).biUnion (fun p => oSetOf (Lp p)) = Finset.univ := by
  ext i
  simp only [Finset.mem_biUnion, Finset.mem_univ, true_and, iff_true]
  have h : (i 0).val / 512 < 32 := by have h : (i 0).val < 16384 := (i 0).isLt; omega
  exact ⟨ofWid ((i 0).val / 512) h, (mem_oSet _ i).mpr (widN_ofWid _ h).symm⟩

theorem xt_blocks (d : Dev nD) (f : Buf (Elt F) (xtLoc d)) :
    (xtLoc d ↦{fullShare} f : sProp 𝕄) = bigSep Finset.univ fun p : TI (F := F) => xtLoc d ↦[xSetOf (Lp p)]{fullShare} f := by
  rw [← pointsTo_biUnion Finset.univ (ℓ := xtLoc d) (fun p : TI (F := F) => xSetOf (Lp p)) xSets_disjoint, xSets_cover]; try rfl
theorem out_blocks (d : Dev nD) (f : Buf (Elt F) (outLoc d)) :
    (outLoc d ↦{fullShare} f : sProp 𝕄) = bigSep Finset.univ fun p : TI (F := F) => outLoc d ↦[oSetOf (Lp p)]{fullShare} f := by
  rw [← pointsTo_biUnion Finset.univ (ℓ := outLoc d) (fun p : TI (F := F) => oSetOf (Lp p)) oSets_disjoint, oSets_cover]; try rfl

/-- Tiles and worker numbers correspond one to one. -/
def widEquiv : TI (F := F) ≃ Fin 32 where
  toFun p := widF (Lp p)
  invFun w := ofWid w.val w.isLt
  left_inv p := Lp_inj (widN_ofWid _ _)
  right_inv w := Fin.ext (widN_ofWid _ _)

theorem toks_tiles {ℓ : Loc nD τ sig} (f : Buf (Elt F) ℓ) :
    (ℓ ↦{fullShare} f : sProp 𝕄) ⊢ bigSep Finset.univ fun p : TI (F := F) => ℓ ↦{shareTok fullShare 32 (widF (Lp p))} f := by
  refine (pointsTo_toks (ℓ := ℓ) (S := Finset.univ) (f := f) fullShare 32).1.trans ?_
  rw [bigSep_univ_equiv (widEquiv (F := F)) (fun w : Fin 32 => (ℓ ↦{shareTok fullShare 32 w} f : sProp 𝕄))]
  iintro ⟨-, H⟩
  iexact H

variable (m : (ℓ : Loc nD τ sig) → Buf (Elt F) ℓ) (ρ : Dev nD → PrngReg)
variable [FloatOps F]

/-! ## What the call takes and gives back, from and to whole arrays -/

theorem st0_eq (d : Dev nD) :
    (bigSep Finset.univ fun c : Fin ((K (F := F)).nCore 0) => (P m).st 0 d c) = bigSep Finset.univ fun p : TI (F := F) => goP m d (Lp p) :=
  (bigSep_univ_prod (fun p : TI (F := F) => goP m d (Lp p))).symm
theorem dn0_eq (d : Dev nD) :
    (bigSep Finset.univ fun c : Fin ((K (F := F)).nCore 0) => (P m).dn 0 d c) = bigSep Finset.univ fun p : TI (F := F) => tdP m d (Lp p) :=
  (bigSep_univ_prod (fun p : TI (F := F) => tdP m d (Lp p))).symm

/-- The four arrays the kernel works on, whole, deal out as the 32 tiles' shares and blocks. -/
theorem deal (d : Dev nD) :
    iprop((tabLoc d ↦{fullShare} tabC m d) ∗ (freeLoc d ↦{fullShare} freeC m d) ∗ (xtLoc d ↦{fullShare} xtC m d) ∗ (outLoc d ↦{fullShare} m (outLoc d)))
      ⊢ (bigSep Finset.univ fun p : TI (F := F) => goP m d (Lp p) : sProp 𝕄) := by
  unfold goP
  rw [bigSep_sep', bigSep_sep', bigSep_sep', ← xt_blocks, ← out_blocks]
  iintro ⟨Ht, Hf, Hx, Ho⟩
  isplitl [Ht]; · iapply (toks_tiles (F := F) (tabC m d)); iexact Ht
  isplitl [Hf]; · iapply (toks_tiles (F := F) (freeC m d)); iexact Hf
  isplitl [Hx]; · iexact Hx
  iexact Ho

/-- The tiles' cells, each holding the specification, are the result array whole, holding it. -/
theorem collect (d : Dev nD) :
    (bigSep Finset.univ fun p : TI (F := F) => tdP m d (Lp p) : sProp 𝕄) = outLoc d ↦{fullShare} outS m d := by
  unfold tdP; exact (out_blocks d (outS m d)).symm

/-! ## @main on the TensorCore -/

abbrev S8 : Finset (DevRef τ sig) :=
  {r' main_arg0, r' main_arg1, r' main_arg2, r' main_v0, r' main_v1, r' main_v2, r' main_v3, r' main_v4}

omit [FloatOps F] in
theorem held_S8 (d : Dev nD) (W : Valuation τ sig (Elt F)) :
    (held (T d) S8 W : sProp 𝕄)
      = iprop((a0Loc d ↦{fullShare} W (r' main_arg0)) ∗ (a1Loc d ↦{fullShare} W (r' main_arg1)) ∗ (a2Loc d ↦{fullShare} W (r' main_arg2))
          ∗ (v0Loc d ↦{fullShare} W (r' main_v0)) ∗ (xtLoc d ↦{fullShare} W (r' main_v1)) ∗ (tabLoc d ↦{fullShare} W (r' main_v2))
          ∗ (freeLoc d ↦{fullShare} W (r' main_v3)) ∗ (outLoc d ↦{fullShare} W (r' main_v4))) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ (v0Loc d ↦{fullShare} W main_v0) ∗ (xtLoc d ↦{fullShare} W main_v1) ∗ (tabLoc d ↦{fullShare} W main_v2)
          ∗ (freeLoc d ↦{fullShare} W main_v3) ∗ (outLoc d ↦{fullShare} W main_v4)) := by
  unfold unscopedBufs
  rw [show (Finset.univ.filter fun b : Ref sig .tc => ¬ b.isScoped)
      = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8]; rfl

/-- The host operations write neither an argument array nor the result array. -/
theorem V4_a0 (d : Dev nD) : after (hostOps (F := F)) (V0 m d) (r' main_arg0) = m (a0Loc d) := by
  show after [op0 (F := F), op1, op2, op3] (V0 m d) (r' main_arg0) = _
  after_results; rfl
theorem V4_a1 (d : Dev nD) : after (hostOps (F := F)) (V0 m d) (r' main_arg1) = m (a1Loc d) := by
  show after [op0 (F := F), op1, op2, op3] (V0 m d) (r' main_arg1) = _
  after_results; rfl
theorem V4_a2 (d : Dev nD) : after (hostOps (F := F)) (V0 m d) (r' main_arg2) = m (a2Loc d) := by
  show after [op0 (F := F), op1, op2, op3] (V0 m d) (r' main_arg2) = _
  after_results; rfl
theorem V4_out (d : Dev nD) : after (hostOps (F := F)) (V0 m d) (r' main_v4) = m (outLoc d) := by
  show after [op0 (F := F), op1, op2, op3] (V0 m d) (r' main_v4) = _
  after_results; rfl

theorem hSub : ∀ op ∈ (hostOps (F := F)), op.bufs ⊆ S8 := by
  intro op hop
  simp only [List.mem_cons, List.not_mem_nil, or_false] at hop
  rcases hop with rfl | rfl | rfl | rfl
  · show ({r' main_arg0, r' main_v0} : Finset (DevRef τ sig)) ⊆ S8; decide
  · show ({r' main_v0, r' main_v1} : Finset (DevRef τ sig)) ⊆ S8; decide
  · show ({r' main_arg1, r' main_v2} : Finset (DevRef τ sig)) ⊆ S8; decide
  · show ({r' main_arg2, r' main_v3} : Finset (DevRef τ sig)) ⊆ S8; decide
theorem hFresh : ∀ op ∈ (hostOps (F := F)), op.fresh = ∅ := by
  intro op hop
  simp only [List.mem_cons, List.not_mem_nil, or_false] at hop
  rcases hop with rfl | rfl | rfl | rfl <;> rfl

theorem main_eq (d : Dev nD) :
    main (F := F) d = (StableHlo.seq (hostOps (F := F)) >>= fun _ => do (sc (F := F)).run d 0; pure ⟨⟩) := rfl

/-- What @main leaves the claim: the three arguments at their launch contents, the result array at the specification. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (outLoc d ↦{fullShare} outS m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d S8 _ (hostOps (F := F)) hSub hFresh (V0 m d)) $$ [Hb Hheld]
  · isplitl [Hb]; · iexact Hb
    iexact Hheld
  iintro ⟨Hb, Hheld⟩
  ihave Hh := (Entails.of_eq (held_S8 (F := F) d _)) $$ Hheld
  rw [V4_a0 m d, V4_a1 m d, V4_a2 m d, V4_out m d]
  icases Hh with ⟨H0, H1, H2, Hv0, Hxt, Htab, Hfree, Hout⟩
  rw [wp_bind]
  iapply ((K (F := F)).wp_run (D (F := F)) 𝒱 (EH := EH) (P := P m) κ d 0) $$ [Hst Hxt Htab Hfree Hout H0 H1 H2]
  isplitr; · iexact Hctx
  isplitl [Hst]; · iexact Hst
  isplitl [Hxt Htab Hfree Hout]
  · rw [st0_eq]
    iapply (deal m d)
    isplitl [Htab]; · iexact Htab
    isplitl [Hfree]; · iexact Hfree
    isplitl [Hxt]; · iexact Hxt
    iexact Hout
  iintro ⟨Hst, Hdn⟩
  ihave Hout := (Entails.of_eq ((dn0_eq m d).trans (collect m d))) $$ Hdn
  rw [wp_pure]; imodintro
  isplitl [Hst]; · iexact Hst
  isplitl [H0]; · iexact H0
  isplitl [H1]; · iexact H1
  isplitl [H2]; · iexact H2
  iexact Hout

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (outLoc d) = outS m d

theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := outLoc d) (I := Finset.univ) (q := fullShare) (f := outS m d)) $$ [HSI Ho]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-! ## The program's run -/

def QC : PUnit × MemSt nD τ sig (Elt F) → Prop := fun r => ∀ c : Dev nD,
  r.2.mem (outLoc c) = outS m c ∧ r.2.mem (a0Loc c) = m (a0Loc c) ∧ r.2.mem (a1Loc c) = m (a1Loc c) ∧ r.2.mem (a2Loc c) = m (a2Loc c)

/-- From a memory whose index words are all below 32: every weakly fair execution of the device's threads ends, nothing
    faulting, the arguments unchanged and the result array at the specification. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2.2, (h c).1, (h c).2.1, (h c).2.2.1⟩)

end Cert.Proof.KI

end
-- ==== Proof.KIHost.lean ====
/-
  The arrays @main prepares for the kernel, read at an index: cell (w, f, j) of the 32 transposed index blocks is
  X[512·w + j, f]; entry 32·f + v of the flat table is E[f, v, 0]; every lane of the 16-lane vector is the free term.
-/
import proofs.«206722_g31198642438219_cont_8to1_b_1255_3_alg».proof.Proof.KIMain
import Idealize.ShloMosaic.Lib.Pipeline.Value

noncomputable section

namespace Cert.Proof.KI

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.KernelIdeal.main_v1_scv : Memref Cert.KernelIdeal.sig Kind.scVector Space.hbm Cert.KernelIdeal.S32x26x512 EltTy.i32)
local notation "tabW" => (Memref.whole Cert.KernelIdeal.main_v2_scv : Memref Cert.KernelIdeal.sig Kind.scVector Space.hbm Cert.KernelIdeal.S832 EltTy.f32)
local notation "freeW" => (Memref.whole Cert.KernelIdeal.main_v3_scv : Memref Cert.KernelIdeal.sig Kind.scVector Space.hbm Cert.KernelIdeal.S16 EltTy.f32)
local notation "outW" => (Memref.whole Cert.KernelIdeal.main_v4_scv : Memref Cert.KernelIdeal.sig Kind.scVector Space.hbm Cert.KernelIdeal.S16384 EltTy.f32)
local notation "sT" => (Memref.whole Cert.KernelIdeal.cc0_scratch0 : Memref Cert.KernelIdeal.sig Kind.scVector Space.vmem Cert.KernelIdeal.S832 EltTy.f32)
local notation "sX" => (Memref.whole Cert.KernelIdeal.cc0_scratch1 : Memref Cert.KernelIdeal.sig Kind.scVector Space.vmem Cert.KernelIdeal.S26x512 EltTy.i32)
local notation "sO" => (Memref.whole Cert.KernelIdeal.cc0_scratch2 : Memref Cert.KernelIdeal.sig Kind.scVector Space.vmem Cert.KernelIdeal.S512 EltTy.f32)
local notation "sF" => (Memref.whole Cert.KernelIdeal.cc0_scratch3 : Memref Cert.KernelIdeal.sig Kind.scVector Space.vmem Cert.KernelIdeal.S16 EltTy.f32)

open Idealize.ShloMosaic.StableHlo (after)
open Idealize.ShloMosaic.ValueIdx

variable (m : (ℓ : Loc nD τ sig) → Buf (Elt F) ℓ)
variable [FloatOps F]

theorem V4_xt (d : Dev nD) :
    after (hostOps (F := F)) (V0 m d) (r' main_v1) = transpose S32x26x512 [0, 2, 1] (shapeCast S32x512x26 (m (a0Loc d)) shapeCasts_S16384x26_S32x512x26) transposes_S32x512x26_S32x26x512_0_2_1 := by
  show after [op0 (F := F), op1, op2, op3] (V0 m d) (r' main_v1) = _
  after_results; rfl
theorem V4_tab (d : Dev nD) :
    after (hostOps (F := F)) (V0 m d) (r' main_v2) = shapeCast S832 (m (a1Loc d)) shapeCasts_S26x32x1_S832 := by
  show after [op0 (F := F), op1, op2, op3] (V0 m d) (r' main_v2) = _
  after_results; rfl
theorem V4_free (d : Dev nD) :
    after (hostOps (F := F)) (V0 m d) (r' main_v3) = broadcastInDim S16 ![0] bcast_S1_S16_0 (m (a2Loc d)) := by
  show after [op0 (F := F), op1, op2, op3] (V0 m d) (r' main_v3) = _
  after_results; rfl

omit [FloatOps F] in
theorem row_lt (w : Fin 32) (j : Fin 512) : 512 * w.val + j.val < 16384 := by
  have h1 := w.isLt; have h2 := j.isLt; omega

omit [FloatOps F] in
/-- Cell (w, f, j) of the transposed blocks. -/
theorem xt_apply {α : Type} (X : S16384x26.Idx → α) (w : Fin 32) (f : Fin 26) (j : Fin 512) :
    transpose S32x26x512 [0, 2, 1] (shapeCast S32x512x26 X shapeCasts_S16384x26_S32x512x26) transposes_S32x512x26_S32x26x512_0_2_1 (ix3 w f j)
      = X (ix2 (⟨512 * w.val + j.val, row_lt w j⟩ : Fin 16384) f) := by
  rw [transpose_apply [0, 2, 1] _ transposes_S32x512x26_S32x26x512_0_2_1 (ix3 w f j) (ix3 w j f : S32x512x26.Idx)
    (fun b => match b with | ⟨0, _⟩ => rfl | ⟨1, _⟩ => rfl | ⟨2, _⟩ => rfl)]
  exact shapeCast_apply X shapeCasts_S16384x26_S32x512x26 (ix3 w j f) _
    (by rw [Shape.rowMajor_val_two, Shape.rowMajor_val_three]
        show (512 * w.val + j.val) * 26 + f.val = (w.val * 512 + j.val) * 26 + f.val
        omega)

omit [FloatOps F] in
theorem ent_lt (f : Fin 26) (v : Fin 32) : 32 * f.val + v.val < 832 := by
  have h1 := f.isLt; have h2 := v.isLt; omega

omit [FloatOps F] in
/-- Entry 32·f + v of the flat table. -/
theorem tab_apply {α : Type} (E : S26x32x1.Idx → α) (f : Fin 26) (v : Fin 32) :
    shapeCast S832 E shapeCasts_S26x32x1_S832 (ix1 (⟨32 * f.val + v.val, ent_lt f v⟩ : Fin 832)) = E (ix3 f v (0 : Fin 1)) :=
  shapeCast_apply E shapeCasts_S26x32x1_S832 _ (ix3 f v (0 : Fin 1))
    (by rw [Shape.rowMajor_val_three, Shape.rowMajor_val_one]
        show (f.val * 32 + v.val) * 1 + 0 = 32 * f.val + v.val
        omega)

omit [FloatOps F] in
/-- Every lane of the repeated free term. -/
theorem free_apply {α : Type} (fr : S1.Idx → α) (x : S16.Idx) :
    broadcastInDim S16 ![0] bcast_S1_S16_0 fr x = fr (ix1 (0 : Fin 1)) :=
  broadcastInDim_apply _ bcast_S1_S16_0 fr x (ix1 (0 : Fin 1)) (fun a => match a with
    | ⟨0, _⟩ => by show 0 = if (1 : Nat) = 1 then 0 else (x 0).val; rw [if_pos rfl])

/-- Every staged index word is a word of X. -/
theorem preOK_of_small (h : ∀ (d : Dev nD) (i : S16384x26.Idx), ((m (a0Loc d) : IVec S16384x26 32) i).toNat < 32) : PreOK m := by
  intro d j
  show ((after (hostOps (F := F)) (V0 m d) (r' main_v1) : IVec S32x26x512 32) j).toNat < 32
  obtain ⟨w, f, jj, rfl⟩ : ∃ (w : Fin 32) (f : Fin 26) (jj : Fin 512), j = ix3 w f jj := ⟨j 0, j 1, j 2, eq_ix3 j⟩
  rw [V4_xt, xt_apply]
  exact h d _

end Cert.Proof.KI

end
-- ==== Proof.KIBridge.lean ====
/-
  The two sides are one function. On the extended reals the kernel's lane formula — the free term with 26 table entries
  added on one after the other — is the free term plus the sum of the 26 entries (addition is associative there, also
  at the infinities), and entry `X[b, f] + 32·f` of the flat table is `E[f, X[b, f], 0]` because every index word is
  below 32. That is the reference's result.
-/
import proofs.«206722_g31198642438219_cont_8to1_b_1255_3_alg».proof.Proof.KIHost
import proofs.«206722_g31198642438219_cont_8to1_b_1255_3_alg».proof.Proof.RefValue
import Idealize.ShloMosaic.PureOps.Ideal.Laws

noncomputable section

namespace Cert.Proof.KI

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.KernelIdeal.main_v1_scv : Memref Cert.KernelIdeal.sig Kind.scVector Space.hbm Cert.KernelIdeal.S32x26x512 EltTy.i32)
local notation "tabW" => (Memref.whole Cert.KernelIdeal.main_v2_scv : Memref Cert.KernelIdeal.sig Kind.scVector Space.hbm Cert.KernelIdeal.S832 EltTy.f32)
local notation "freeW" => (Memref.whole Cert.KernelIdeal.main_v3_scv : Memref Cert.KernelIdeal.sig Kind.scVector Space.hbm Cert.KernelIdeal.S16 EltTy.f32)
local notation "outW" => (Memref.whole Cert.KernelIdeal.main_v4_scv : Memref Cert.KernelIdeal.sig Kind.scVector Space.hbm Cert.KernelIdeal.S16384 EltTy.f32)
local notation "sT" => (Memref.whole Cert.KernelIdeal.cc0_scratch0 : Memref Cert.KernelIdeal.sig Kind.scVector Space.vmem Cert.KernelIdeal.S832 EltTy.f32)
local notation "sX" => (Memref.whole Cert.KernelIdeal.cc0_scratch1 : Memref Cert.KernelIdeal.sig Kind.scVector Space.vmem Cert.KernelIdeal.S26x512 EltTy.i32)
local notation "sO" => (Memref.whole Cert.KernelIdeal.cc0_scratch2 : Memref Cert.KernelIdeal.sig Kind.scVector Space.vmem Cert.KernelIdeal.S512 EltTy.f32)
local notation "sF" => (Memref.whole Cert.KernelIdeal.cc0_scratch3 : Memref Cert.KernelIdeal.sig Kind.scVector Space.vmem Cert.KernelIdeal.S16 EltTy.f32)

open Idealize.ShloMosaic.StableHlo (after)
open Idealize.ShloMosaic.ValueIdx

theorem finRange26 : List.finRange 26 = [0, 1, 2, 3, 4, 5, 6, 7, 8, 9, 10, 11, 12, 13, 14, 15, 16, 17, 18, 19, 20, 21, 22, 23, 24, 25] := by decide

/-- The lane formula is a left fold over the 26 fields. -/
theorem laneVal_eq_foldl [FloatOps F] (T : FVec F S832 .f32) (row : Fin 26 → BitVec 32) (v0 : F .f32) :
    laneVal T row v0 = (List.finRange 26).foldl (fun acc f => FloatOps.addf acc (tabAt T (row f + BitVec.ofNat 32 (32 * f.val)).toNat)) v0 := by
  rw [finRange26]; rfl

/-- Adding terms on one after the other is adding their sum. -/
theorem foldl_add (l : List (Fin 26)) (t : Fin 26 → EReal) (a : EReal) :
    l.foldl (fun acc f => acc + t f) a = a + (l.map t).sum := by
  induction l generalizing a with
  | nil => simp
  | cons x l ih => rw [List.foldl_cons, ih, List.map_cons, List.sum_cons, add_assoc]

theorem laneVal_ideal (T : FVec Ideal S832 .f32) (row : Fin 26 → BitVec 32) (v0 : EReal) :
    laneVal (F := Ideal) T row v0 = v0 + ∑ f : Fin 26, tabAt (F := Ideal) T (row f + BitVec.ofNat 32 (32 * f.val)).toNat := by
  rw [laneVal_eq_foldl, Fin.sum_univ_def]
  exact foldl_add _ _ _

/-- Entry `v + 32·f` of the flat table, for a word `v` below 32, is `E[f, v, 0]`. -/
theorem tab_entry (E : FVec Ideal S26x32x1 .f32) (v : BitVec 32) (hv : v.toNat < 32) (f : Fin 26) :
    tabAt (F := Ideal) (shapeCast S832 E shapeCasts_S26x32x1_S832) (v + BitVec.ofNat 32 (32 * f.val)).toNat
      = E (ix3 f (⟨v.toNat % 32, Nat.mod_lt _ (by decide)⟩ : Fin 32) (0 : Fin 1)) := by
  have hf := f.isLt
  have hn : (v + BitVec.ofNat 32 (32 * f.val)).toNat = 32 * f.val + v.toNat := by
    rw [BitVec.toNat_add, BitVec.toNat_ofNat]; omega
  have key : ∀ (n : Nat) (h : n < 832), n = 32 * f.val + v.toNat →
      shapeCast S832 E shapeCasts_S26x32x1_S832 (ix1 (⟨n, h⟩ : Fin 832)) = E (ix3 f (⟨v.toNat % 32, Nat.mod_lt _ (by decide)⟩ : Fin 32) (0 : Fin 1)) := by
    intro n h e
    subst e
    exact (tab_apply E f ⟨v.toNat, hv⟩).trans (congrArg (fun t => E (ix3 f t (0 : Fin 1))) (Fin.ext (Nat.mod_eq_of_lt hv).symm))
  have hlt : (v + BitVec.ofNat 32 (32 * f.val)).toNat < 832 := by rw [hn]; omega
  unfold tabAt
  rw [dif_pos hlt]
  exact key _ hlt hn

/-- With the table flattened from `x1`, the index blocks transposed from `x0` and the free term repeated from `x2`, the
    kernel's specification is the reference's function of `x0`, `x1`, `x2`, provided every word of `x0` is below 32. -/
theorem outSpec_eq_G (T : FVec Ideal S832 .f32) (X : IVec S32x26x512 32) (V : FVec Ideal S16 .f32)
    (x0 : IVec S16384x26 32) (x1 : FVec Ideal S26x32x1 .f32) (x2 : FVec Ideal S1 .f32)
    (hT : T = shapeCast S832 x1 shapeCasts_S26x32x1_S832)
    (hXt : X = transpose S32x26x512 [0, 2, 1] (shapeCast S32x512x26 x0 shapeCasts_S16384x26_S32x512x26) transposes_S32x512x26_S32x26x512_0_2_1)
    (hV : V = broadcastInDim S16 ![0] bcast_S1_S16_0 x2)
    (hsmall : ∀ i, (x0 i).toNat < 32) :
    outSpec (F := Ideal) T X V = Cert.Proof.RefValue.G x0 x1 x2 := by
  subst hT hXt hV
  funext b
  obtain ⟨c, rfl⟩ : ∃ c : Fin 16384, b = ix1 c := ⟨b 0, eq_ix1 b⟩
  have hc := c.isLt
  unfold outSpec Cert.Proof.RefValue.G
  rw [laneVal_ideal]
  congr 1
  · exact free_apply x2 _
  · refine Finset.sum_congr rfl fun f _ => ?_
    have hrow : (ix2 (⟨512 * (c.val / 512) + c.val % 512, by omega⟩ : Fin 16384) f : S16384x26.Idx) = ix2 c f :=
      congrArg (fun t => (ix2 t f : S16384x26.Idx)) (Fin.ext (by show 512 * (c.val / 512) + c.val % 512 = c.val; omega))
    show tabAt (F := Ideal) (shapeCast S832 x1 shapeCasts_S26x32x1_S832)
        (transpose S32x26x512 [0, 2, 1] (shapeCast S32x512x26 x0 shapeCasts_S16384x26_S32x512x26) transposes_S32x512x26_S32x26x512_0_2_1
          (ix3 (⟨c.val / 512, by omega⟩ : Fin 32) f (⟨c.val % 512, Nat.mod_lt _ (by decide)⟩ : Fin 512)) + BitVec.ofNat 32 (32 * f.val)).toNat = _
    rw [xt_apply, hrow]
    exact tab_entry x1 _ (hsmall _) f

variable (m : (ℓ : Loc nD τ sig) → Buf (Elt Ideal) ℓ)

/-- The kernel's specification of the result array is the reference's function of the arguments. -/
theorem outS_eq_G (d : Dev nD) (hX : ∀ i : S16384x26.Idx, ((m (a0Loc d) : IVec S16384x26 32) i).toNat < 32) :
    outS (F := Ideal) m d = Cert.Proof.RefValue.G (m (a0Loc d)) (m (a1Loc d)) (m (a2Loc d)) :=
  outSpec_eq_G _ _ _ (m (a0Loc d)) (m (a1Loc d)) (m (a2Loc d)) (V4_tab m d) (V4_xt m d) (V4_free m d) hX

end Cert.Proof.KI

end
-- ==== Proof.KBSetup.lean ====
/-
  The kernel as printed, read at the word level, as the SparseCore launch theorem sees it: the configuration of its one vector-subcore call, the
  ghost state (the handshakes' rounds beside the local transfers' counters), and the pieces of the arrays a tile works
  on: tile (c, s) is worker 2·s + c; it reads the whole table of 26·32 entries and the whole 16-lane free-term vector,
  block 2·s + c of the transposed index array (26 rows of 512 batch positions), and writes 512 consecutive results.
-/
import proofs.«206722_g31198642438219_cont_8to1_b_1255_3_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206722_g31198642438219_cont_8to1_b_1255_3_alg».proof.Proof.Gen.Kernel
import proofs.«206722_g31198642438219_cont_8to1_b_1255_3_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

abbrev EH : Emb UH (MT nD τ sig (HIx 1) (Elt F) ℕ UU ℕ) := embL

/-! ## The arrays -/

abbrev xtLoc (d : Dev nD) : Loc nD τ sig := (SparseCore.T d).loc main_v1
abbrev tabLoc (d : Dev nD) : Loc nD τ sig := (SparseCore.T d).loc main_v2
abbrev freeLoc (d : Dev nD) : Loc nD τ sig := (SparseCore.T d).loc main_v3
abbrev outLoc (d : Dev nD) : Loc nD τ sig := (SparseCore.T d).loc main_v4

/-- A tile's place: SparseCore `L 0`, vector subcore `L 1`. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

/-- Block `2·(L 1) + L 0` of the transposed indices, as the tile slices and squeezes it: 26 rows of 512. -/
abbrev xBlk (L : grid0.Coords) : Memref sig .scVector .hbm S26x512 .i32 :=
  ((Memref.whole main_v1_scv : Memref sig .scVector .hbm S32x26x512 .i32).slice
    (Rect.unit (s := S32x26x512) (k0_off1 L) S1x26x512.size (k0_off1_inb L)) (fun _ => rfl)).squeeze S26x512 squeezes_S1x26x512_S26x512
/-- The 512 results the tile writes, as it slices them. -/
abbrev oBlk (L : grid0.Coords) : Memref sig .scVector .hbm S512 .f32 :=
  (Memref.whole main_v4_scv : Memref sig .scVector .hbm S16384 .f32).slice
    (Rect.unit (s := S16384) (k0_off29 L) S512.size (k0_off29_inb L)) (fun _ => rfl)

end Cert.Proof.KB

end
-- ==== Proof.KBTileOwn.lean ====
/-
  What a tile owns for the length of its task: its four transfer semaphores at zero and its four scratch buffers
  (the staged table, the staged index block, the 512 results, the staged free-term vector), taken out of the
  thread's scoped storage.
-/
import proofs.«206722_g31198642438219_cont_8to1_b_1255_3_alg».proof.Proof.KBSetup

noncomputable section

namespace Cert.Proof.KB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.Kernel.main_v1_scv : Memref Cert.Kernel.sig Kind.scVector Space.hbm Cert.Kernel.S32x26x512 EltTy.i32)
local notation "tabW" => (Memref.whole Cert.Kernel.main_v2_scv : Memref Cert.Kernel.sig Kind.scVector Space.hbm Cert.Kernel.S832 EltTy.f32)
local notation "freeW" => (Memref.whole Cert.Kernel.main_v3_scv : Memref Cert.Kernel.sig Kind.scVector Space.hbm Cert.Kernel.S16 EltTy.f32)
local notation "outW" => (Memref.whole Cert.Kernel.main_v4_scv : Memref Cert.Kernel.sig Kind.scVector Space.hbm Cert.Kernel.S16384 EltTy.f32)
local notation "sT" => (Memref.whole Cert.Kernel.cc0_scratch0 : Memref Cert.Kernel.sig Kind.scVector Space.vmem Cert.Kernel.S832 EltTy.f32)
local notation "sX" => (Memref.whole Cert.Kernel.cc0_scratch1 : Memref Cert.Kernel.sig Kind.scVector Space.vmem Cert.Kernel.S26x512 EltTy.i32)
local notation "sO" => (Memref.whole Cert.Kernel.cc0_scratch2 : Memref Cert.Kernel.sig Kind.scVector Space.vmem Cert.Kernel.S512 EltTy.f32)
local notation "sF" => (Memref.whole Cert.Kernel.cc0_scratch3 : Memref Cert.Kernel.sig Kind.scVector Space.vmem Cert.Kernel.S16 EltTy.f32)

section Tile

variable (d : Dev nD) (L : grid0.Coords)

abbrev cell0 : GSem nD τ sig := (tile d L, .dma cc0_scoped0.sem)
abbrev cell1 : GSem nD τ sig := (tile d L, .dma cc0_scoped1.sem)
abbrev cell2 : GSem nD τ sig := (tile d L, .dma cc0_scoped2.sem)
abbrev cell3 : GSem nD τ sig := (tile d L, .dma cc0_scoped3.sem)

/-- The tile's four transfer semaphores are among its own scoped cells: they, at zero, and the rest. -/
theorem ownSems0_tile :
    (ownSems0 (tile d L) : sProp 𝕄)
      = iprop(semVal (cell0 d L) 0 ∗ semVal (cell1 d L) 0 ∗ semVal (cell2 d L) 0 ∗ semVal (cell3 d L) 0
          ∗ bigSep (((((ownCells (tile d L)).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped3.sem : SemLoc sig).isScoped .scVector = true; decide⟩⟩⟩⟩)]

abbrev pV (L : grid0.Coords) : Proc τ := Proc.scVector (cV L) (jV L)

/-- The four scratch buffers are among the tile's own: they, at some contents, and the rest. -/
theorem ownBufs_tile :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f)
          ∗ bigSep (((((ownRefs (τ := τ) (pV L)).erase ((pV L).devRef cc0_scratch0)).erase
              ((pV L).devRef cc0_scratch1)).erase ((pV L).devRef cc0_scratch2)).erase ((pV L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := pV L)
    (b := (pV L).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := pV L) (b := (pV L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := pV L) (b := (pV L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := pV L) (b := (pV L).devRef cc0_scratch3) rfl⟩⟩⟩)]

end Tile

end Cert.Proof.KB

end
-- ==== Proof.KBVal.lean ====
/-
  What one trip of the tile's loop computes, as pure functions of the staged table `TV` (832 entries), the staged index
  block `XV` (26 rows of 512 words, each below 32) and the free-term vector `V3` (16 lanes): for trip `k` and lane `x`,
  position `j = 16·k + x` of the tile's results is `V3 x` with the 26 entries `TV[XV[f, j] + 32·f]`, `f = 0 … 25`, added
  on in that order.
-/
import proofs.«206722_g31198642438219_cont_8to1_b_1255_3_alg».proof.Proof.KBSetup
import Idealize.ShloMosaic.Lib.ValueIdx
import Idealize.ShloMosaic.Lib.Pipeline.Value

noncomputable section

namespace Cert.Proof.KB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.Kernel.main_v1_scv : Memref Cert.Kernel.sig Kind.scVector Space.hbm Cert.Kernel.S32x26x512 EltTy.i32)
local notation "tabW" => (Memref.whole Cert.Kernel.main_v2_scv : Memref Cert.Kernel.sig Kind.scVector Space.hbm Cert.Kernel.S832 EltTy.f32)
local notation "freeW" => (Memref.whole Cert.Kernel.main_v3_scv : Memref Cert.Kernel.sig Kind.scVector Space.hbm Cert.Kernel.S16 EltTy.f32)
local notation "outW" => (Memref.whole Cert.Kernel.main_v4_scv : Memref Cert.Kernel.sig Kind.scVector Space.hbm Cert.Kernel.S16384 EltTy.f32)
local notation "sT" => (Memref.whole Cert.Kernel.cc0_scratch0 : Memref Cert.Kernel.sig Kind.scVector Space.vmem Cert.Kernel.S832 EltTy.f32)
local notation "sX" => (Memref.whole Cert.Kernel.cc0_scratch1 : Memref Cert.Kernel.sig Kind.scVector Space.vmem Cert.Kernel.S26x512 EltTy.i32)
local notation "sO" => (Memref.whole Cert.Kernel.cc0_scratch2 : Memref Cert.Kernel.sig Kind.scVector Space.vmem Cert.Kernel.S512 EltTy.f32)
local notation "sF" => (Memref.whole Cert.Kernel.cc0_scratch3 : Memref Cert.Kernel.sig Kind.scVector Space.vmem Cert.Kernel.S16 EltTy.f32)

open Idealize.ShloMosaic.ValueIdx

variable [FloatOps F]

/-- An index word below 32 moved up by a row offset of at most 800 names an entry of the 832-entry table. -/
theorem chk_of_small (ld : IVec S1x16 32) (c : BitVec 32) (hld : ∀ y, (ld y).toNat < 32) (hc : c.toNat ≤ 800) :
    ∀ a x, ((![addi (shapeCast S16 ld shapeCasts_S1x16_S16) (broadcast S16 c)] : Fin 1 → IVec S16 32) a x).toNat < S832.size a := by
  intro a x
  obtain rfl : a = 0 := Subsingleton.elim _ _
  have hw : (shapeCast S16 ld shapeCasts_S1x16_S16 x).toNat < 32 := by unfold shapeCast; exact hld _
  show ((shapeCast S16 ld shapeCasts_S1x16_S16 x) + c).toNat < 832
  rw [BitVec.toNat_add]; omega

/-- Entry `n` of the table; some entry when `n` names none. -/
def tabAt (T : FVec F S832 .f32) (n : Nat) : F .f32 :=
  if h : n < 832 then T (ix1 ⟨n, h⟩) else T (ix1 ⟨0, by decide⟩)

/-- The staged table as the gather reads it. -/
abbrev tabRd (TV : (sT).view.ty.Contents (Elt F)) : FVec F S832 .f32 :=
  View.read (Elt F) ((sT).access (Rect.whole cc0_scratch0.ty.shape)) TV

/-- The table gathered at a vector of 16 entry numbers. -/
def gat (TV : (sT).view.ty.Contents (Elt F)) (v : IVec S16 32) (h : ∀ a x, ((![v] : Fin 1 → IVec S16 32) a x).toNat < S832.size a) : Vec F S16 .f32 :=
  loadIdx (View.read (Elt F) ((sT).access (Rect.whole cc0_scratch0.ty.shape)) TV) ![v] h

theorem gat_apply (TV : (sT).view.ty.Contents (Elt F)) (v : IVec S16 32) (h) (x : S16.Idx) :
    gat TV v h x = tabAt (tabRd TV) (v x).toNat := by
  have hx : (v x).toNat < 832 := h 0 x
  unfold gat tabAt loadIdx
  rw [dif_pos hx]
  exact congrArg (tabRd TV) (funext fun a => match a with | ⟨0, _⟩ => rfl)

section Trip

variable (TV : (sT).view.ty.Contents (Elt F)) (XV : IVec S26x512 32) (V3 : Vec F S16 .f32)
variable (k : Fin k0_t1_loop.trips)

/-- Sixteen words of row `r` of the index block starting at column `c`, each moved up by `w`: lane `x` is `XV[r, c + x] + w`. -/
theorem row_words (off : Fin 2 → Nat) (inb : ∀ a, off a + S1x16.size a ≤ S26x512.size a) (w : BitVec 32) (r : Fin 26) (c : Nat)
    (hoff : off = ![r.val, c]) (x : S16.Idx) (hc : c + (x 0).val < 512) :
    addi (shapeCast S16 (View.readAt (Elt F) (sX).view (Rect.unit (s := S26x512) off S1x16.size inb).toLoadRect XV) shapeCasts_S1x16_S16) (broadcast S16 w) x
      = XV (ix2 r ⟨c + (x 0).val, hc⟩) + w := by
  subst hoff
  refine congrArg (fun t : BitVec 32 => t + w)
    (?_ : shapeCast S16 (View.readAt (Elt F) (sX).view (Rect.unit (s := S26x512) ![r.val, c] S1x16.size inb).toLoadRect XV) shapeCasts_S1x16_S16 x
      = XV (ix2 r ⟨c + (x 0).val, hc⟩))
  rw [shapeCast_apply _ shapeCasts_S1x16_S16 x (ix2 (0 : Fin 1) (x 0)) (by
    rw [Shape.rowMajor_val_two, Shape.rowMajor_val_one]; simp)]
  show XV ((Rect.unit (s := S26x512) ![r.val, c] S1x16.size inb).toLoadRect.idx (ix2 (0 : Fin 1) (x 0))) = _
  refine congrArg XV (funext fun a => Fin.ext ?_)
  rw [LoadRect.idx_apply]
  match a with
  | ⟨0, _⟩ => simp
  | ⟨1, _⟩ => simp

/-- Field 0's entry numbers for trip `k`. -/
abbrev idxv0 : IVec S16 32 := k0_pay7 (View.readAt (Elt F) (sX).view (Rect.unit (s := S26x512) (k0_off2 k) S1x16.size (k0_off2_inb k)).toLoadRect XV)
/-- Field 1's entry numbers for trip `k`. -/
abbrev idxv1 : IVec S16 32 := k0_pay8 (View.readAt (Elt F) (sX).view (Rect.unit (s := S26x512) (k0_off3 k) S1x16.size (k0_off3_inb k)).toLoadRect XV)
/-- Field 2's entry numbers for trip `k`. -/
abbrev idxv2 : IVec S16 32 := k0_pay9 (View.readAt (Elt F) (sX).view (Rect.unit (s := S26x512) (k0_off4 k) S1x16.size (k0_off4_inb k)).toLoadRect XV)
/-- Field 3's entry numbers for trip `k`. -/
abbrev idxv3 : IVec S16 32 := k0_pay10 (View.readAt (Elt F) (sX).view (Rect.unit (s := S26x512) (k0_off5 k) S1x16.size (k0_off5_inb k)).toLoadRect XV)
/-- Field 4's entry numbers for trip `k`. -/
abbrev idxv4 : IVec S16 32 := k0_pay11 (View.readAt (Elt F) (sX).view (Rect.unit (s := S26x512) (k0_off6 k) S1x16.size (k0_off6_inb k)).toLoadRect XV)
/-- Field 5's entry numbers for trip `k`. -/
abbrev idxv5 : IVec S16 32 := k0_pay13 (View.readAt (Elt F) (sX).view (Rect.unit (s := S26x512) (k0_off7 k) S1x16.size (k0_off7_inb k)).toLoadRect XV)
/-- Field 6's entry numbers for trip `k`. -/
abbrev idxv6 : IVec S16 32 := k0_pay14 (View.readAt (Elt F) (sX).view (Rect.unit (s := S26x512) (k0_off8 k) S1x16.size (k0_off8_inb k)).toLoadRect XV)
/-- Field 7's entry numbers for trip `k`. -/
abbrev idxv7 : IVec S16 32 := k0_pay15 (View.readAt (Elt F) (sX).view (Rect.unit (s := S26x512) (k0_off9 k) S1x16.size (k0_off9_inb k)).toLoadRect XV)
/-- Field 8's entry numbers for trip `k`. -/
abbrev idxv8 : IVec S16 32 := k0_pay16 (View.readAt (Elt F) (sX).view (Rect.unit (s := S26x512) (k0_off10 k) S1x16.size (k0_off10_inb k)).toLoadRect XV)
/-- Field 9's entry numbers for trip `k`. -/
abbrev idxv9 : IVec S16 32 := k0_pay17 (View.readAt (Elt F) (sX).view (Rect.unit (s := S26x512) (k0_off11 k) S1x16.size (k0_off11_inb k)).toLoadRect XV)
/-- Field 10's entry numbers for trip `k`. -/
abbrev idxv10 : IVec S16 32 := addi (k0_pay19 (View.readAt (Elt F) (sX).view (Rect.unit (s := S26x512) (k0_off12 k) S1x16.size (k0_off12_inb k)).toLoadRect XV)) (k0_pay20)
/-- Field 11's entry numbers for trip `k`. -/
abbrev idxv11 : IVec S16 32 := k0_pay21 (View.readAt (Elt F) (sX).view (Rect.unit (s := S26x512) (k0_off13 k) S1x16.size (k0_off13_inb k)).toLoadRect XV)
/-- Field 12's entry numbers for trip `k`. -/
abbrev idxv12 : IVec S16 32 := k0_pay22 (View.readAt (Elt F) (sX).view (Rect.unit (s := S26x512) (k0_off14 k) S1x16.size (k0_off14_inb k)).toLoadRect XV)
/-- Field 13's entry numbers for trip `k`. -/
abbrev idxv13 : IVec S16 32 := k0_pay23 (View.readAt (Elt F) (sX).view (Rect.unit (s := S26x512) (k0_off15 k) S1x16.size (k0_off15_inb k)).toLoadRect XV)
/-- Field 14's entry numbers for trip `k`. -/
abbrev idxv14 : IVec S16 32 := k0_pay24 (View.readAt (Elt F) (sX).view (Rect.unit (s := S26x512) (k0_off16 k) S1x16.size (k0_off16_inb k)).toLoadRect XV)
/-- Field 15's entry numbers for trip `k`. -/
abbrev idxv15 : IVec S16 32 := k0_pay25 (View.readAt (Elt F) (sX).view (Rect.unit (s := S26x512) (k0_off17 k) S1x16.size (k0_off17_inb k)).toLoadRect XV)
/-- Field 16's entry numbers for trip `k`. -/
abbrev idxv16 : IVec S16 32 := k0_pay27 (View.readAt (Elt F) (sX).view (Rect.unit (s := S26x512) (k0_off18 k) S1x16.size (k0_off18_inb k)).toLoadRect XV)
/-- Field 17's entry numbers for trip `k`. -/
abbrev idxv17 : IVec S16 32 := k0_pay28 (View.readAt (Elt F) (sX).view (Rect.unit (s := S26x512) (k0_off19 k) S1x16.size (k0_off19_inb k)).toLoadRect XV)
/-- Field 18's entry numbers for trip `k`. -/
abbrev idxv18 : IVec S16 32 := k0_pay29 (View.readAt (Elt F) (sX).view (Rect.unit (s := S26x512) (k0_off20 k) S1x16.size (k0_off20_inb k)).toLoadRect XV)
/-- Field 19's entry numbers for trip `k`. -/
abbrev idxv19 : IVec S16 32 := k0_pay30 (View.readAt (Elt F) (sX).view (Rect.unit (s := S26x512) (k0_off21 k) S1x16.size (k0_off21_inb k)).toLoadRect XV)
/-- Field 20's entry numbers for trip `k`. -/
abbrev idxv20 : IVec S16 32 := k0_pay31 (View.readAt (Elt F) (sX).view (Rect.unit (s := S26x512) (k0_off22 k) S1x16.size (k0_off22_inb k)).toLoadRect XV)
/-- Field 21's entry numbers for trip `k`. -/
abbrev idxv21 : IVec S16 32 := k0_pay1 (k0_pay33 (View.readAt (Elt F) (sX).view (Rect.unit (s := S26x512) (k0_off23 k) S1x16.size (k0_off23_inb k)).toLoadRect XV)) 672#32
/-- Field 22's entry numbers for trip `k`. -/
abbrev idxv22 : IVec S16 32 := k0_pay2 (View.readAt (Elt F) (sX).view (Rect.unit (s := S26x512) (k0_off24 k) S1x16.size (k0_off24_inb k)).toLoadRect XV)
/-- Field 23's entry numbers for trip `k`. -/
abbrev idxv23 : IVec S16 32 := k0_pay3 (View.readAt (Elt F) (sX).view (Rect.unit (s := S26x512) (k0_off25 k) S1x16.size (k0_off25_inb k)).toLoadRect XV)
/-- Field 24's entry numbers for trip `k`. -/
abbrev idxv24 : IVec S16 32 := k0_pay4 (View.readAt (Elt F) (sX).view (Rect.unit (s := S26x512) (k0_off26 k) S1x16.size (k0_off26_inb k)).toLoadRect XV)
/-- Field 25's entry numbers for trip `k`. -/
abbrev idxv25 : IVec S16 32 := k0_pay5 (View.readAt (Elt F) (sX).view (Rect.unit (s := S26x512) (k0_off27 k) S1x16.size (k0_off27_inb k)).toLoadRect XV)

theorem idxv0_ok (hXr : ∀ j, (XV j).toNat < 32) : ∀ a x, ((![idxv0 (F := F) XV k] : Fin 1 → IVec S16 32) a x).toNat < S832.size a := chk_of_small _ _ (fun y => hXr _) (by decide)
theorem idxv1_ok (hXr : ∀ j, (XV j).toNat < 32) : ∀ a x, ((![idxv1 (F := F) XV k] : Fin 1 → IVec S16 32) a x).toNat < S832.size a := chk_of_small _ _ (fun y => hXr _) (by decide)
theorem idxv2_ok (hXr : ∀ j, (XV j).toNat < 32) : ∀ a x, ((![idxv2 (F := F) XV k] : Fin 1 → IVec S16 32) a x).toNat < S832.size a := chk_of_small _ _ (fun y => hXr _) (by decide)
theorem idxv3_ok (hXr : ∀ j, (XV j).toNat < 32) : ∀ a x, ((![idxv3 (F := F) XV k] : Fin 1 → IVec S16 32) a x).toNat < S832.size a := chk_of_small _ _ (fun y => hXr _) (by decide)
theorem idxv4_ok (hXr : ∀ j, (XV j).toNat < 32) : ∀ a x, ((![idxv4 (F := F) XV k] : Fin 1 → IVec S16 32) a x).toNat < S832.size a := chk_of_small _ _ (fun y => hXr _) (by decide)
theorem idxv5_ok (hXr : ∀ j, (XV j).toNat < 32) : ∀ a x, ((![idxv5 (F := F) XV k] : Fin 1 → IVec S16 32) a x).toNat < S832.size a := chk_of_small _ _ (fun y => hXr _) (by decide)
theorem idxv6_ok (hXr : ∀ j, (XV j).toNat < 32) : ∀ a x, ((![idxv6 (F := F) XV k] : Fin 1 → IVec S16 32) a x).toNat < S832.size a := chk_of_small _ _ (fun y => hXr _) (by decide)
theorem idxv7_ok (hXr : ∀ j, (XV j).toNat < 32) : ∀ a x, ((![idxv7 (F := F) XV k] : Fin 1 → IVec S16 32) a x).toNat < S832.size a := chk_of_small _ _ (fun y => hXr _) (by decide)
theorem idxv8_ok (hXr : ∀ j, (XV j).toNat < 32) : ∀ a x, ((![idxv8 (F := F) XV k] : Fin 1 → IVec S16 32) a x).toNat < S832.size a := chk_of_small _ _ (fun y => hXr _) (by decide)
theorem idxv9_ok (hXr : ∀ j, (XV j).toNat < 32) : ∀ a x, ((![idxv9 (F := F) XV k] : Fin 1 → IVec S16 32) a x).toNat < S832.size a := chk_of_small _ _ (fun y => hXr _) (by decide)
theorem idxv10_ok (hXr : ∀ j, (XV j).toNat < 32) : ∀ a x, ((![idxv10 (F := F) XV k] : Fin 1 → IVec S16 32) a x).toNat < S832.size a := chk_of_small _ _ (fun y => hXr _) (by decide)
theorem idxv11_ok (hXr : ∀ j, (XV j).toNat < 32) : ∀ a x, ((![idxv11 (F := F) XV k] : Fin 1 → IVec S16 32) a x).toNat < S832.size a := chk_of_small _ _ (fun y => hXr _) (by decide)
theorem idxv12_ok (hXr : ∀ j, (XV j).toNat < 32) : ∀ a x, ((![idxv12 (F := F) XV k] : Fin 1 → IVec S16 32) a x).toNat < S832.size a := chk_of_small _ _ (fun y => hXr _) (by decide)
theorem idxv13_ok (hXr : ∀ j, (XV j).toNat < 32) : ∀ a x, ((![idxv13 (F := F) XV k] : Fin 1 → IVec S16 32) a x).toNat < S832.size a := chk_of_small _ _ (fun y => hXr _) (by decide)
theorem idxv14_ok (hXr : ∀ j, (XV j).toNat < 32) : ∀ a x, ((![idxv14 (F := F) XV k] : Fin 1 → IVec S16 32) a x).toNat < S832.size a := chk_of_small _ _ (fun y => hXr _) (by decide)
theorem idxv15_ok (hXr : ∀ j, (XV j).toNat < 32) : ∀ a x, ((![idxv15 (F := F) XV k] : Fin 1 → IVec S16 32) a x).toNat < S832.size a := chk_of_small _ _ (fun y => hXr _) (by decide)
theorem idxv16_ok (hXr : ∀ j, (XV j).toNat < 32) : ∀ a x, ((![idxv16 (F := F) XV k] : Fin 1 → IVec S16 32) a x).toNat < S832.size a := chk_of_small _ _ (fun y => hXr _) (by decide)
theorem idxv17_ok (hXr : ∀ j, (XV j).toNat < 32) : ∀ a x, ((![idxv17 (F := F) XV k] : Fin 1 → IVec S16 32) a x).toNat < S832.size a := chk_of_small _ _ (fun y => hXr _) (by decide)
theorem idxv18_ok (hXr : ∀ j, (XV j).toNat < 32) : ∀ a x, ((![idxv18 (F := F) XV k] : Fin 1 → IVec S16 32) a x).toNat < S832.size a := chk_of_small _ _ (fun y => hXr _) (by decide)
theorem idxv19_ok (hXr : ∀ j, (XV j).toNat < 32) : ∀ a x, ((![idxv19 (F := F) XV k] : Fin 1 → IVec S16 32) a x).toNat < S832.size a := chk_of_small _ _ (fun y => hXr _) (by decide)
theorem idxv20_ok (hXr : ∀ j, (XV j).toNat < 32) : ∀ a x, ((![idxv20 (F := F) XV k] : Fin 1 → IVec S16 32) a x).toNat < S832.size a := chk_of_small _ _ (fun y => hXr _) (by decide)
theorem idxv21_ok (hXr : ∀ j, (XV j).toNat < 32) : ∀ a x, ((![idxv21 (F := F) XV k] : Fin 1 → IVec S16 32) a x).toNat < S832.size a := chk_of_small _ _ (fun y => hXr _) (by decide)
theorem idxv22_ok (hXr : ∀ j, (XV j).toNat < 32) : ∀ a x, ((![idxv22 (F := F) XV k] : Fin 1 → IVec S16 32) a x).toNat < S832.size a := chk_of_small _ _ (fun y => hXr _) (by decide)
theorem idxv23_ok (hXr : ∀ j, (XV j).toNat < 32) : ∀ a x, ((![idxv23 (F := F) XV k] : Fin 1 → IVec S16 32) a x).toNat < S832.size a := chk_of_small _ _ (fun y => hXr _) (by decide)
theorem idxv24_ok (hXr : ∀ j, (XV j).toNat < 32) : ∀ a x, ((![idxv24 (F := F) XV k] : Fin 1 → IVec S16 32) a x).toNat < S832.size a := chk_of_small _ _ (fun y => hXr _) (by decide)
theorem idxv25_ok (hXr : ∀ j, (XV j).toNat < 32) : ∀ a x, ((![idxv25 (F := F) XV k] : Fin 1 → IVec S16 32) a x).toNat < S832.size a := chk_of_small _ _ (fun y => hXr _) (by decide)

/-- What trip `k` stores: the free-term vector with the 26 gathered vectors added on in turn. -/
def tripVec (hXr : ∀ j, (XV j).toNat < 32) : FVec F S16 .f32 :=
  k0_pay6 (k0_pay32 (k0_pay26 (k0_pay18 (k0_pay12 V3 (gat TV (idxv0 (F := F) XV k) (idxv0_ok (F := F) XV k hXr)) (gat TV (idxv1 (F := F) XV k) (idxv1_ok (F := F) XV k hXr)) (gat TV (idxv2 (F := F) XV k) (idxv2_ok (F := F) XV k hXr)) (gat TV (idxv3 (F := F) XV k) (idxv3_ok (F := F) XV k hXr)) (gat TV (idxv4 (F := F) XV k) (idxv4_ok (F := F) XV k hXr)))
      (gat TV (idxv5 (F := F) XV k) (idxv5_ok (F := F) XV k hXr)) (gat TV (idxv6 (F := F) XV k) (idxv6_ok (F := F) XV k hXr)) (gat TV (idxv7 (F := F) XV k) (idxv7_ok (F := F) XV k hXr)) (gat TV (idxv8 (F := F) XV k) (idxv8_ok (F := F) XV k hXr)) (gat TV (idxv9 (F := F) XV k) (idxv9_ok (F := F) XV k hXr)))
      (gat TV (idxv10 (F := F) XV k) (idxv10_ok (F := F) XV k hXr)) (gat TV (idxv11 (F := F) XV k) (idxv11_ok (F := F) XV k hXr)) (gat TV (idxv12 (F := F) XV k) (idxv12_ok (F := F) XV k hXr)) (gat TV (idxv13 (F := F) XV k) (idxv13_ok (F := F) XV k hXr)) (gat TV (idxv14 (F := F) XV k) (idxv14_ok (F := F) XV k hXr)) (gat TV (idxv15 (F := F) XV k) (idxv15_ok (F := F) XV k hXr)))
      (gat TV (idxv16 (F := F) XV k) (idxv16_ok (F := F) XV k hXr)) (gat TV (idxv17 (F := F) XV k) (idxv17_ok (F := F) XV k hXr)) (gat TV (idxv18 (F := F) XV k) (idxv18_ok (F := F) XV k hXr)) (gat TV (idxv19 (F := F) XV k) (idxv19_ok (F := F) XV k hXr)) (gat TV (idxv20 (F := F) XV k) (idxv20_ok (F := F) XV k hXr)))
    (gat TV (idxv21 (F := F) XV k) (idxv21_ok (F := F) XV k hXr)) (gat TV (idxv22 (F := F) XV k) (idxv22_ok (F := F) XV k hXr)) (gat TV (idxv23 (F := F) XV k) (idxv23_ok (F := F) XV k hXr)) (gat TV (idxv24 (F := F) XV k) (idxv24_ok (F := F) XV k hXr)) (gat TV (idxv25 (F := F) XV k) (idxv25_ok (F := F) XV k hXr))

end Trip

/-- The staged table read through the gather's view is the staged table. -/
theorem tabRd_eq (TV : (sT).view.ty.Contents (Elt F)) : tabRd TV = TV := Memref.read_access_whole (Elt F) cc0_scratch0 TV

/-- One result: the free term `v0` with, for `f = 0 … 25` in turn, entry `row f + 32·f` of the table added on. -/
def laneVal (T : FVec F S832 .f32) (row : Fin 26 → BitVec 32) (v0 : F .f32) : F .f32 :=
  (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf v0 (tabAt T (row 0 + 0#32).toNat)) (tabAt T (row 1 + 32#32).toNat)) (tabAt T (row 2 + 64#32).toNat)) (tabAt T (row 3 + 96#32).toNat)) (tabAt T (row 4 + 128#32).toNat)) (tabAt T (row 5 + 160#32).toNat)) (tabAt T (row 6 + 192#32).toNat)) (tabAt T (row 7 + 224#32).toNat)) (tabAt T (row 8 + 256#32).toNat)) (tabAt T (row 9 + 288#32).toNat)) (tabAt T (row 10 + 320#32).toNat)) (tabAt T (row 11 + 352#32).toNat)) (tabAt T (row 12 + 384#32).toNat)) (tabAt T (row 13 + 416#32).toNat)) (tabAt T (row 14 + 448#32).toNat)) (tabAt T (row 15 + 480#32).toNat)) (tabAt T (row 16 + 512#32).toNat)) (tabAt T (row 17 + 544#32).toNat)) (tabAt T (row 18 + 576#32).toNat)) (tabAt T (row 19 + 608#32).toNat)) (tabAt T (row 20 + 640#32).toNat)) (tabAt T (row 21 + 672#32).toNat)) (tabAt T (row 22 + 704#32).toNat)) (tabAt T (row 23 + 736#32).toNat)) (tabAt T (row 24 + 768#32).toNat)) (tabAt T (row 25 + 800#32).toNat))

section TripApply

variable (TV : (sT).view.ty.Contents (Elt F)) (XV : IVec S26x512 32) (V3 : Vec F S16 .f32)
variable (k : Fin k0_t1_loop.trips)

theorem trips_le : k0_t1_loop.trips ≤ 32 := k0_t1_abs.2.1

theorem pos_lt (x : S16.Idx) : 16 * k.val + (x 0).val < 512 := by
  have h1 := k.isLt; have h2 := trips_le; have h3 : (x 0).val < 16 := (x 0).isLt; omega

theorem idxv0_apply (x : S16.Idx) : idxv0 (F := F) XV k x = XV (ix2 (0 : Fin 26) ⟨16 * k.val + (x 0).val, pos_lt k x⟩) + 0#32 :=
  row_words (F := F) XV _ (k0_off2_inb k) _ (0 : Fin 26) (16 * k.val) (k0_off2_eq k) x (pos_lt k x)
theorem idxv1_apply (x : S16.Idx) : idxv1 (F := F) XV k x = XV (ix2 (1 : Fin 26) ⟨16 * k.val + (x 0).val, pos_lt k x⟩) + 32#32 :=
  row_words (F := F) XV _ (k0_off3_inb k) _ (1 : Fin 26) (16 * k.val) (k0_off3_eq k) x (pos_lt k x)
theorem idxv2_apply (x : S16.Idx) : idxv2 (F := F) XV k x = XV (ix2 (2 : Fin 26) ⟨16 * k.val + (x 0).val, pos_lt k x⟩) + 64#32 :=
  row_words (F := F) XV _ (k0_off4_inb k) _ (2 : Fin 26) (16 * k.val) (k0_off4_eq k) x (pos_lt k x)
theorem idxv3_apply (x : S16.Idx) : idxv3 (F := F) XV k x = XV (ix2 (3 : Fin 26) ⟨16 * k.val + (x 0).val, pos_lt k x⟩) + 96#32 :=
  row_words (F := F) XV _ (k0_off5_inb k) _ (3 : Fin 26) (16 * k.val) (k0_off5_eq k) x (pos_lt k x)
theorem idxv4_apply (x : S16.Idx) : idxv4 (F := F) XV k x = XV (ix2 (4 : Fin 26) ⟨16 * k.val + (x 0).val, pos_lt k x⟩) + 128#32 :=
  row_words (F := F) XV _ (k0_off6_inb k) _ (4 : Fin 26) (16 * k.val) (k0_off6_eq k) x (pos_lt k x)
theorem idxv5_apply (x : S16.Idx) : idxv5 (F := F) XV k x = XV (ix2 (5 : Fin 26) ⟨16 * k.val + (x 0).val, pos_lt k x⟩) + 160#32 :=
  row_words (F := F) XV _ (k0_off7_inb k) _ (5 : Fin 26) (16 * k.val) (k0_off7_eq k) x (pos_lt k x)
theorem idxv6_apply (x : S16.Idx) : idxv6 (F := F) XV k x = XV (ix2 (6 : Fin 26) ⟨16 * k.val + (x 0).val, pos_lt k x⟩) + 192#32 :=
  row_words (F := F) XV _ (k0_off8_inb k) _ (6 : Fin 26) (16 * k.val) (k0_off8_eq k) x (pos_lt k x)
theorem idxv7_apply (x : S16.Idx) : idxv7 (F := F) XV k x = XV (ix2 (7 : Fin 26) ⟨16 * k.val + (x 0).val, pos_lt k x⟩) + 224#32 :=
  row_words (F := F) XV _ (k0_off9_inb k) _ (7 : Fin 26) (16 * k.val) (k0_off9_eq k) x (pos_lt k x)
theorem idxv8_apply (x : S16.Idx) : idxv8 (F := F) XV k x = XV (ix2 (8 : Fin 26) ⟨16 * k.val + (x 0).val, pos_lt k x⟩) + 256#32 :=
  row_words (F := F) XV _ (k0_off10_inb k) _ (8 : Fin 26) (16 * k.val) (k0_off10_eq k) x (pos_lt k x)
theorem idxv9_apply (x : S16.Idx) : idxv9 (F := F) XV k x = XV (ix2 (9 : Fin 26) ⟨16 * k.val + (x 0).val, pos_lt k x⟩) + 288#32 :=
  row_words (F := F) XV _ (k0_off11_inb k) _ (9 : Fin 26) (16 * k.val) (k0_off11_eq k) x (pos_lt k x)
theorem idxv10_apply (x : S16.Idx) : idxv10 (F := F) XV k x = XV (ix2 (10 : Fin 26) ⟨16 * k.val + (x 0).val, pos_lt k x⟩) + 320#32 :=
  row_words (F := F) XV _ (k0_off12_inb k) _ (10 : Fin 26) (16 * k.val) (k0_off12_eq k) x (pos_lt k x)
theorem idxv11_apply (x : S16.Idx) : idxv11 (F := F) XV k x = XV (ix2 (11 : Fin 26) ⟨16 * k.val + (x 0).val, pos_lt k x⟩) + 352#32 :=
  row_words (F := F) XV _ (k0_off13_inb k) _ (11 : Fin 26) (16 * k.val) (k0_off13_eq k) x (pos_lt k x)
theorem idxv12_apply (x : S16.Idx) : idxv12 (F := F) XV k x = XV (ix2 (12 : Fin 26) ⟨16 * k.val + (x 0).val, pos_lt k x⟩) + 384#32 :=
  row_words (F := F) XV _ (k0_off14_inb k) _ (12 : Fin 26) (16 * k.val) (k0_off14_eq k) x (pos_lt k x)
theorem idxv13_apply (x : S16.Idx) : idxv13 (F := F) XV k x = XV (ix2 (13 : Fin 26) ⟨16 * k.val + (x 0).val, pos_lt k x⟩) + 416#32 :=
  row_words (F := F) XV _ (k0_off15_inb k) _ (13 : Fin 26) (16 * k.val) (k0_off15_eq k) x (pos_lt k x)
theorem idxv14_apply (x : S16.Idx) : idxv14 (F := F) XV k x = XV (ix2 (14 : Fin 26) ⟨16 * k.val + (x 0).val, pos_lt k x⟩) + 448#32 :=
  row_words (F := F) XV _ (k0_off16_inb k) _ (14 : Fin 26) (16 * k.val) (k0_off16_eq k) x (pos_lt k x)
theorem idxv15_apply (x : S16.Idx) : idxv15 (F := F) XV k x = XV (ix2 (15 : Fin 26) ⟨16 * k.val + (x 0).val, pos_lt k x⟩) + 480#32 :=
  row_words (F := F) XV _ (k0_off17_inb k) _ (15 : Fin 26) (16 * k.val) (k0_off17_eq k) x (pos_lt k x)
theorem idxv16_apply (x : S16.Idx) : idxv16 (F := F) XV k x = XV (ix2 (16 : Fin 26) ⟨16 * k.val + (x 0).val, pos_lt k x⟩) + 512#32 :=
  row_words (F := F) XV _ (k0_off18_inb k) _ (16 : Fin 26) (16 * k.val) (k0_off18_eq k) x (pos_lt k x)
theorem idxv17_apply (x : S16.Idx) : idxv17 (F := F) XV k x = XV (ix2 (17 : Fin 26) ⟨16 * k.val + (x 0).val, pos_lt k x⟩) + 544#32 :=
  row_words (F := F) XV _ (k0_off19_inb k) _ (17 : Fin 26) (16 * k.val) (k0_off19_eq k) x (pos_lt k x)
theorem idxv18_apply (x : S16.Idx) : idxv18 (F := F) XV k x = XV (ix2 (18 : Fin 26) ⟨16 * k.val + (x 0).val, pos_lt k x⟩) + 576#32 :=
  row_words (F := F) XV _ (k0_off20_inb k) _ (18 : Fin 26) (16 * k.val) (k0_off20_eq k) x (pos_lt k x)
theorem idxv19_apply (x : S16.Idx) : idxv19 (F := F) XV k x = XV (ix2 (19 : Fin 26) ⟨16 * k.val + (x 0).val, pos_lt k x⟩) + 608#32 :=
  row_words (F := F) XV _ (k0_off21_inb k) _ (19 : Fin 26) (16 * k.val) (k0_off21_eq k) x (pos_lt k x)
theorem idxv20_apply (x : S16.Idx) : idxv20 (F := F) XV k x = XV (ix2 (20 : Fin 26) ⟨16 * k.val + (x 0).val, pos_lt k x⟩) + 640#32 :=
  row_words (F := F) XV _ (k0_off22_inb k) _ (20 : Fin 26) (16 * k.val) (k0_off22_eq k) x (pos_lt k x)
theorem idxv21_apply (x : S16.Idx) : idxv21 (F := F) XV k x = XV (ix2 (21 : Fin 26) ⟨16 * k.val + (x 0).val, pos_lt k x⟩) + 672#32 :=
  row_words (F := F) XV _ (k0_off23_inb k) _ (21 : Fin 26) (16 * k.val) (k0_off23_eq k) x (pos_lt k x)
theorem idxv22_apply (x : S16.Idx) : idxv22 (F := F) XV k x = XV (ix2 (22 : Fin 26) ⟨16 * k.val + (x 0).val, pos_lt k x⟩) + 704#32 :=
  row_words (F := F) XV _ (k0_off24_inb k) _ (22 : Fin 26) (16 * k.val) (k0_off24_eq k) x (pos_lt k x)
theorem idxv23_apply (x : S16.Idx) : idxv23 (F := F) XV k x = XV (ix2 (23 : Fin 26) ⟨16 * k.val + (x 0).val, pos_lt k x⟩) + 736#32 :=
  row_words (F := F) XV _ (k0_off25_inb k) _ (23 : Fin 26) (16 * k.val) (k0_off25_eq k) x (pos_lt k x)
theorem idxv24_apply (x : S16.Idx) : idxv24 (F := F) XV k x = XV (ix2 (24 : Fin 26) ⟨16 * k.val + (x 0).val, pos_lt k x⟩) + 768#32 :=
  row_words (F := F) XV _ (k0_off26_inb k) _ (24 : Fin 26) (16 * k.val) (k0_off26_eq k) x (pos_lt k x)
theorem idxv25_apply (x : S16.Idx) : idxv25 (F := F) XV k x = XV (ix2 (25 : Fin 26) ⟨16 * k.val + (x 0).val, pos_lt k x⟩) + 800#32 :=
  row_words (F := F) XV _ (k0_off27_inb k) _ (25 : Fin 26) (16 * k.val) (k0_off27_eq k) x (pos_lt k x)

/-- Lane `x` of what trip `k` stores is the lane formula at position `16·k + x` of the tile's results. -/
theorem tripVec_apply (hXr : ∀ j, (XV j).toNat < 32) (x : S16.Idx) :
    tripVec TV XV V3 k hXr x = laneVal (tabRd TV) (fun f => XV (ix2 f ⟨16 * k.val + (x 0).val, pos_lt k x⟩)) (V3 x) := by
  unfold tripVec laneVal
  simp only [k0_pay6, k0_pay32, k0_pay26, k0_pay18, k0_pay12, addf, gat_apply, idxv0_apply, idxv1_apply, idxv2_apply, idxv3_apply, idxv4_apply, idxv5_apply, idxv6_apply, idxv7_apply, idxv8_apply, idxv9_apply, idxv10_apply, idxv11_apply, idxv12_apply, idxv13_apply, idxv14_apply, idxv15_apply, idxv16_apply, idxv17_apply, idxv18_apply, idxv19_apply, idxv20_apply, idxv21_apply, idxv22_apply, idxv23_apply, idxv24_apply, idxv25_apply]

end TripApply

end Cert.Proof.KB

end
-- ==== Proof.KBBody.lean ====
/-
  One tile's task, run once at a symbolic place: it stages the table, the free-term vector and its block of the index
  array, then for each of 32 groups of 16 batch positions adds, onto the free-term vector, the 26 vectors gathered from
  the table at the staged indices, stores the sum into its result scratch, and at the end writes the 512 results out.
  Every gather's indices are in range because every staged index word is below 32. What the task leaves in its 512
  cells of the result array is stated position by position (`OutOK`).
-/
import proofs.«206722_g31198642438219_cont_8to1_b_1255_3_alg».proof.Proof.KBTileOwn
import proofs.«206722_g31198642438219_cont_8to1_b_1255_3_alg».proof.Proof.KBVal
import Idealize.ShloMosaic.Lib.WritesUnit

noncomputable section

namespace Cert.Proof.KB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.Kernel.main_v1_scv : Memref Cert.Kernel.sig Kind.scVector Space.hbm Cert.Kernel.S32x26x512 EltTy.i32)
local notation "tabW" => (Memref.whole Cert.Kernel.main_v2_scv : Memref Cert.Kernel.sig Kind.scVector Space.hbm Cert.Kernel.S832 EltTy.f32)
local notation "freeW" => (Memref.whole Cert.Kernel.main_v3_scv : Memref Cert.Kernel.sig Kind.scVector Space.hbm Cert.Kernel.S16 EltTy.f32)
local notation "outW" => (Memref.whole Cert.Kernel.main_v4_scv : Memref Cert.Kernel.sig Kind.scVector Space.hbm Cert.Kernel.S16384 EltTy.f32)
local notation "sT" => (Memref.whole Cert.Kernel.cc0_scratch0 : Memref Cert.Kernel.sig Kind.scVector Space.vmem Cert.Kernel.S832 EltTy.f32)
local notation "sX" => (Memref.whole Cert.Kernel.cc0_scratch1 : Memref Cert.Kernel.sig Kind.scVector Space.vmem Cert.Kernel.S26x512 EltTy.i32)
local notation "sO" => (Memref.whole Cert.Kernel.cc0_scratch2 : Memref Cert.Kernel.sig Kind.scVector Space.vmem Cert.Kernel.S512 EltTy.f32)
local notation "sF" => (Memref.whole Cert.Kernel.cc0_scratch3 : Memref Cert.Kernel.sig Kind.scVector Space.vmem Cert.Kernel.S16 EltTy.f32)

open Idealize.ShloMosaic.ValueIdx

section Tile

variable (d : Dev nD) (L : grid0.Coords)

theorem pts_sT (f : Buf (Elt F) ((tile d L).loc cc0_scratch0)) :
    ((sT).view.loc (tile d L) ↦{fullShare} f : sProp 𝕄) = (tile d L).loc cc0_scratch0 ↦{fullShare} f := rfl
theorem pts_sX (f : Buf (Elt F) ((tile d L).loc cc0_scratch1)) :
    ((sX).view.loc (tile d L) ↦{fullShare} f : sProp 𝕄) = (tile d L).loc cc0_scratch1 ↦{fullShare} f := rfl
theorem pts_sO (f : Buf (Elt F) ((tile d L).loc cc0_scratch2)) :
    ((sO).view.loc (tile d L) ↦{fullShare} f : sProp 𝕄) = (tile d L).loc cc0_scratch2 ↦{fullShare} f := rfl
theorem pts_sF (f : Buf (Elt F) ((tile d L).loc cc0_scratch3)) :
    ((sF).view.loc (tile d L) ↦{fullShare} f : sProp 𝕄) = (tile d L).loc cc0_scratch3 ↦{fullShare} f := rfl
theorem pts_sT_access (f : Buf (Elt F) ((tile d L).loc cc0_scratch0)) :
    ((((sT).access (.whole S832)).loc (tile d L)) ↦{fullShare} f : sProp 𝕄) = (sT).view.loc (tile d L) ↦{fullShare} f := rfl

variable [FloatOps F]

/-- Position `16·k + x` of the tile's 512 results. -/
abbrev oIx (k : Fin k0_t1_loop.trips) (x : S16.Idx) : S512.Idx := ix1 ⟨16 * k.val + (x 0).val, pos_lt k x⟩

/-- What the tile leaves in its cells of the result array, from what it staged: at position `16·k + x` the lane formula
    over the table, the index block's column `16·k + x` and lane `x` of the free-term vector. -/
def OutOK (tabv : Buf (Elt F) (tabLoc d)) (freev : Buf (Elt F) (freeLoc d)) (xtv : Buf (Elt F) (xtLoc d)) (fo : Buf (Elt F) (outLoc d)) : Prop :=
  ∀ (k : Fin k0_t1_loop.trips) (x : S16.Idx),
    fo ((oBlk L).view.emb (oIx k x))
      = laneVal (View.read (Elt F) (tabW).view tabv)
          (fun f => View.read (Elt F) (xBlk L).view xtv (ix2 f ⟨16 * k.val + (x 0).val, pos_lt k x⟩))
          (View.read (Elt F) (freeW).view freev x)

/-- The loop's invariant after `n` trips: the staged table and index block as they are, and the result scratch holding, at
    the positions of the first `n` groups, what those trips stored. -/
def inv (TV : (sT).view.ty.Contents (Elt F)) (XV : IVec S26x512 32) (V3 : Vec F S16 .f32) (hXr : ∀ j, (XV j).toNat < 32)
    (n : Nat) (_ : PUnit) : sProp 𝕄 :=
  iprop(((sT).view.loc (tile d L) ↦{fullShare} TV) ∗ ((sX).view.loc (tile d L) ↦{fullShare} XV)
    ∗ ∃ g, ⌜∀ (k' : Fin k0_t1_loop.trips), k'.val < n → ∀ x : S16.Idx,
            View.read (Elt F) (sO).view g (oIx k' x) = tripVec TV XV V3 k' hXr x⌝
        ∗ (sO).view.loc (tile d L) ↦{fullShare} g)

set_option maxHeartbeats 4000000 in
theorem tile_body (hF : (K (F := F)).Facts) (O : CellTallies nD τ sig (HIx 1)) (W : Waits sig (HIx 1)) (hO : ∀ g, O g none = 0)
    (qT qF : PosShare TreeShare)
    (tabv : Buf (Elt F) (tabLoc d)) (freev : Buf (Elt F) (freeLoc d)) (xtv : Buf (Elt F) (xtLoc d)) (outv : Buf (Elt F) (outLoc d))
    (hX : ∀ j : S26x512.Idx, (View.read (Elt F) (xBlk L).view xtv j).toNat < 32) :
    iprop(levAts (K (F := F)).L (K (F := F)).lev
        ∗ ((tabW).view.loc (tile d L) ↦{qT} tabv) ∗ ((freeW).view.loc (tile d L) ↦{qF} freev)
        ∗ ((xBlk L).view.loc (tile d L) ↦[(xBlk L).view.set]{fullShare} xtv)
        ∗ ((oBlk L).view.loc (tile d L) ↦[(oBlk L).view.set]{fullShare} outv)
        ∗ scopedBufs (tile d L) ∗ scopedSems0 (tile d L) ∗ owes (tile d L) O W)
      ⊢ wp frame (wpE (defs₀ (F := F)) 𝒱₀ (tile d L) none) Set.univ
          (cc0__emb_sum_kernel L xtW (Memref.isWhole_whole _) tabW (Memref.isWhole_whole _) freeW (Memref.isWhole_whole _) outW (Memref.isWhole_whole _)
            sT (Memref.isWhole_whole _) sX (Memref.isWhole_whole _) sO (Memref.isWhole_whole _) sF (Memref.isWhole_whole _)
            cc0_scoped0 cc0_scoped1 cc0_scoped2 cc0_scoped3)
          fun _ => (iprop((∃ fo, ⌜OutOK d L tabv freev xtv fo⌝ ∗ ((oBlk L).view.loc (tile d L) ↦[(oBlk L).view.set]{fullShare} fo))
            ∗ scopedBufs (tile d L) ∗ scopedSems0 (tile d L)
            ∗ ∃ W', ⌜∀ p ∈ W', p ∈ W ∨ p.2 = none⌝ ∗ owes (tile d L) O W') : sProp 𝕄) := by
  rw [cc0__emb_sum_kernel_eq_skeleton]; unfold cc0__emb_sum_kernel_skel
  rw [(K (F := F)).scopedBufs_V hF d (cV L) (jV L), SparseCore.Cfg.scopedSems0_V (Val := Elt F) d (cV L) (jV L), ownSems0_tile, ownBufs_tile]
  iintro ⟨#Hlv, Htab, Hfree, Hx, Ho, ⟨⟨%fT, HsT⟩, ⟨%fX, HsX⟩, ⟨%fO, HsO⟩, ⟨%fF, HsF⟩, Hbufs⟩, ⟨Hc0, Hc1, Hc2, Hc3, Hsems⟩, HO⟩
  ihave Hmw := ((K (F := F)).mayWaits_none (thr := tile d L) hO) $$ Hlv
  ihave HsT' := (Entails.of_eq (pts_sT (F := F) d L _).symm) $$ HsT
  ihave HsX' := (Entails.of_eq (pts_sX (F := F) d L _).symm) $$ HsX
  ihave HsO' := (Entails.of_eq (pts_sO (F := F) d L _).symm) $$ HsO
  ihave HsF' := (Entails.of_eq (pts_sF (F := F) d L _).symm) $$ HsF
  -- the three staging copies and the load of the free-term vector
  sl_exec
  generalize hTV : View.write (Elt F) (sT).view fT (tile_body.sl.dma0 d tabv) Finset.univ = TV
  generalize hXV : View.write (Elt F) (sX).view fX (tile_body.sl.dma0_2 d L xtv) Finset.univ = XV
  generalize hV3 : View.readAt (Elt F) (sF).view (Rect.unit ![0] S16.size inb_S16_S16_0).toLoadRect (View.write (Elt F) (sF).view fF (tile_body.sl.dma0_1 d freev) Finset.univ) = V3
  have eTV : TV = View.read (Elt F) (tabW).view tabv := by rw [← hTV, View.write_whole_univ]; rfl
  have eXV : XV = View.read (Elt F) (xBlk L).view xtv := by rw [← hXV, View.write_whole_univ]; rfl
  have eV3 : V3 = View.read (Elt F) (freeW).view freev := by
    rw [← hV3, View.write_whole_univ]
    funext x
    have hi : (Rect.unit (s := S16) ![0] S16.size inb_S16_S16_0).toLoadRect.idx x = x := by
      funext a; apply Fin.ext
      rw [LoadRect.idx_apply, Subsingleton.elim a 0]
      show 0 + 1 * (x 0).val = (x 0).val
      simp
    show View.read (Elt F) (sF).view (tile_body.sl.dma0_1 d freev) ((Rect.unit (s := S16) ![0] S16.size inb_S16_S16_0).toLoadRect.idx x) = _
    rw [hi]; rfl
  have hXr : ∀ j, ((XV : IVec S26x512 32) j).toNat < 32 := fun j => by rw [eXV]; exact hX j
  sl_for (inv d L TV XV V3 hXr) $$ [HsT' HsX' HsO']
  case region =>
    intro k _
    unfold inv
    iintro ⟨HsT, HsX, ⟨%g, %hg, HsO⟩⟩
    ihave HsT := (Entails.of_eq (pts_sT_access (F := F) d L _).symm) $$ HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    iapply (SparseCore.wp_vectorLoadIdx 𝒱₀ (tile d L) none Set.univ (base := (sT)) (S := Finset.univ) (q := fullShare) (Finset.subset_univ _)) $$ HsT; iintro HsT
    sl_exec (disch := exact chk_of_small _ _ (fun y => hXr _) (by decide))
    ihave HsT := (Entails.of_eq (pts_sT_access (F := F) d L _)) $$ HsT
    sl_step
    isplitl [HsT]; · iexact HsT
    isplitl [HsX]; · iexact HsX
    iexists _; isplitr
    rotate_left
    · iexact HsO
    · ipureintro
      intro k' hk' x
      by_cases hkk : k'.val = k.val
      · obtain rfl : k' = k := Fin.ext hkk
        refine (View.read_writes_cons_unit_of_mem (sO).view g (k0_off28_inb k') _ [] (oIx k' x) x (k0_off28_eq k')
          (fun a => match a with | ⟨0, _⟩ => rfl)).trans ?_
        rfl
      · have hlt : k'.val < k.val := by omega
        refine (View.read_writes_cons_unit_of_not_mem (sO).view g (k0_off28_inb k) _ [] (oIx k' x) (k0_off28_eq k) 0
          (Or.inl (by show 16 * k'.val + (x 0).val < 16 * k.val; have h3 : (x 0).val < 16 := (x 0).isLt; omega))).trans ?_
        exact hg k' hlt x
  · unfold inv
    isplitl [HsT']; · iexact HsT'
    isplitl [HsX']; · iexact HsX'
    iexists fO; isplitr
    · ipureintro; intro k' hk'; exact absurd hk' (Nat.not_lt_zero _)
    · iexact HsO'
  iintro %_ HI
  unfold inv
  icases HI with ⟨HsT, HsX, %g, %hg, HsO⟩
  -- the write-out of the 512 results and its wait
  sl_exec
  sl_step
  isplitl [Ho]
  · iexists ((oBlk L).view.writes (Elt F) outv [⟨Rect.whole S512, tile_body.sl.dma0_3 g⟩]); isplitr
    · ipureintro
      unfold OutOK
      intro k x
      have h1 := View.read_writes_cons_emb (oBlk L).view outv (Rect.whole S512) (tile_body.sl.dma0_3 g) [] (oIx k x)
      rw [Rect.emb_whole_apply] at h1
      have h2 : (oBlk L).view.writes (Elt F) outv [⟨Rect.whole S512, tile_body.sl.dma0_3 g⟩] ((oBlk L).view.emb (oIx k x))
          = View.read (Elt F) (oBlk L).view ((oBlk L).view.writes (Elt F) outv [⟨Rect.whole S512, tile_body.sl.dma0_3 g⟩]) (oIx k x) :=
        ((View.read_apply _ _).trans (cast_eq _ _)).symm
      rw [h2, h1]
      have h3 : tile_body.sl.dma0_3 g (oIx k x) = tripVec TV XV V3 k hXr x := hg k k.isLt x
      rw [h3, tripVec_apply, tabRd_eq, eTV, eV3]
      simp only [eXV]
    · iexact Ho
  ihave HsT := (Entails.of_eq (pts_sT (F := F) d L _)) $$ HsT
  ihave HsX := (Entails.of_eq (pts_sX (F := F) d L _)) $$ HsX
  ihave HsO := (Entails.of_eq (pts_sO (F := F) d L _)) $$ HsO
  ihave HsF := (Entails.of_eq (pts_sF (F := F) d L _)) $$ HsF'
  isplitl [HsT HsX HsO HsF Hbufs]
  · isplitl [HsT]; · iexists _; iexact HsT
    isplitl [HsX]; · iexists _; iexact HsX
    isplitl [HsO]; · iexists _; iexact HsO
    isplitl [HsF]; · iexists _; iexact HsF
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KB

end
-- ==== Proof.KBIndex.lean ====
/-
  Where a tile's pieces sit in the whole arrays. Tile (c, s) is worker w = 2·s + c: position j of its 512 results is
  cell 512·w + j of the result array, and entry (f, j) of its squeezed index block is entry (w, f, j) of the transposed
  index array.
-/
import proofs.«206722_g31198642438219_cont_8to1_b_1255_3_alg».proof.Proof.KBSetup
import Idealize.ShloMosaic.Lib.ValueIdx

noncomputable section

namespace Cert.Proof.KB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.Kernel.main_v1_scv : Memref Cert.Kernel.sig Kind.scVector Space.hbm Cert.Kernel.S32x26x512 EltTy.i32)
local notation "tabW" => (Memref.whole Cert.Kernel.main_v2_scv : Memref Cert.Kernel.sig Kind.scVector Space.hbm Cert.Kernel.S832 EltTy.f32)
local notation "freeW" => (Memref.whole Cert.Kernel.main_v3_scv : Memref Cert.Kernel.sig Kind.scVector Space.hbm Cert.Kernel.S16 EltTy.f32)
local notation "outW" => (Memref.whole Cert.Kernel.main_v4_scv : Memref Cert.Kernel.sig Kind.scVector Space.hbm Cert.Kernel.S16384 EltTy.f32)
local notation "sT" => (Memref.whole Cert.Kernel.cc0_scratch0 : Memref Cert.Kernel.sig Kind.scVector Space.vmem Cert.Kernel.S832 EltTy.f32)
local notation "sX" => (Memref.whole Cert.Kernel.cc0_scratch1 : Memref Cert.Kernel.sig Kind.scVector Space.vmem Cert.Kernel.S26x512 EltTy.i32)
local notation "sO" => (Memref.whole Cert.Kernel.cc0_scratch2 : Memref Cert.Kernel.sig Kind.scVector Space.vmem Cert.Kernel.S512 EltTy.f32)
local notation "sF" => (Memref.whole Cert.Kernel.cc0_scratch3 : Memref Cert.Kernel.sig Kind.scVector Space.vmem Cert.Kernel.S16 EltTy.f32)

open Idealize.ShloMosaic.ValueIdx

/-- The tile's worker number. -/
abbrev widN (L : grid0.Coords) : Nat := 2 * (L 1).val + (L 0).val
theorem widN_lt (L : grid0.Coords) : widN L < 32 := by
  have h0 : (L 0).val < 2 := (L 0).isLt
  have h1 : (L 1).val < 16 := (L 1).isLt
  show 2 * (L 1).val + (L 0).val < 32
  omega

theorem cell_lt (L : grid0.Coords) (j : S512.Idx) : 512 * widN L + (j 0).val < 16384 := by
  have h := widN_lt L; have hj : (j 0).val < 512 := (j 0).isLt; omega

/-- Position `j` of the tile's results is cell `512·w + j`. -/
theorem oBlk_emb (L : grid0.Coords) (j : S512.Idx) :
    (oBlk L).view.emb j = (ix1 ⟨512 * widN L + (j 0).val, cell_lt L j⟩ : S16384.Idx) := by
  funext a
  apply Fin.ext
  match a with
  | ⟨0, _⟩ =>
    show (k0_off29 L) 0 + 1 * (j 0).val = 512 * widN L + (j 0).val
    rw [k0_off29_eq L]
    show 1024 * (L 1).val + 512 * (L 0).val + 1 * (j 0).val = 512 * (2 * (L 1).val + (L 0).val) + (j 0).val
    omega

/-- Entry `(f, j)` of the tile's index block is entry `(w, f, j)` of the transposed index array. -/
theorem xBlk_emb (L : grid0.Coords) (f : Fin 26) (j : Fin 512) :
    (xBlk L).view.emb (ix2 f j : S26x512.Idx) = (ix3 (⟨widN L, widN_lt L⟩ : Fin 32) f j : S32x26x512.Idx) := by
  have hr : Shape.reshapeEquiv (s := S1x26x512) (s' := S26x512) squeezes_S1x26x512_S26x512.numel_eq (ix2 f j)
      = (ix3 (0 : Fin 1) f j : S1x26x512.Idx) :=
    Shape.reshapeEquiv_eq_of_rowMajor _ (by rw [Shape.rowMajor_val_three, Shape.rowMajor_val_two]; simp)
  show (Rect.unit (s := S32x26x512) (k0_off1 L) S1x26x512.size (k0_off1_inb L)).emb
      (Shape.reshapeEquiv (s := S1x26x512) (s' := S26x512) squeezes_S1x26x512_S26x512.numel_eq (ix2 f j)) = _
  rw [hr]
  funext a
  apply Fin.ext
  show (k0_off1 L) a + 1 * ((ix3 (0 : Fin 1) f j : S1x26x512.Idx) a).val = _
  rw [k0_off1_eq L]
  match a with
  | ⟨0, _⟩ => simp [widN]
  | ⟨1, _⟩ => simp
  | ⟨2, _⟩ => simp

end Cert.Proof.KB

end
-- ==== Proof.KBLaunch.lean ====
/-
  The launch: the TensorCore's @main lays the index array out as 32 blocks of 26 rows of 512, flattens the table,
  repeats the free term over 16 lanes, and starts the two SparseCores; each of the 32 tiles is handed a read share of the
  table and of the free-term vector, its own block of the indices and its own 512 cells of the result array, and hands
  the cells back holding the specification `outSpec` there. Put back together, the whole result array holds `outSpec`;
  the three argument arrays never leave the TensorCore.
-/
import proofs.«206722_g31198642438219_cont_8to1_b_1255_3_alg».proof.Proof.KBBody
import proofs.«206722_g31198642438219_cont_8to1_b_1255_3_alg».proof.Proof.KBIndex

noncomputable section

namespace Cert.Proof.KB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.Kernel.main_v1_scv : Memref Cert.Kernel.sig Kind.scVector Space.hbm Cert.Kernel.S32x26x512 EltTy.i32)
local notation "tabW" => (Memref.whole Cert.Kernel.main_v2_scv : Memref Cert.Kernel.sig Kind.scVector Space.hbm Cert.Kernel.S832 EltTy.f32)
local notation "freeW" => (Memref.whole Cert.Kernel.main_v3_scv : Memref Cert.Kernel.sig Kind.scVector Space.hbm Cert.Kernel.S16 EltTy.f32)
local notation "outW" => (Memref.whole Cert.Kernel.main_v4_scv : Memref Cert.Kernel.sig Kind.scVector Space.hbm Cert.Kernel.S16384 EltTy.f32)
local notation "sT" => (Memref.whole Cert.Kernel.cc0_scratch0 : Memref Cert.Kernel.sig Kind.scVector Space.vmem Cert.Kernel.S832 EltTy.f32)
local notation "sX" => (Memref.whole Cert.Kernel.cc0_scratch1 : Memref Cert.Kernel.sig Kind.scVector Space.vmem Cert.Kernel.S26x512 EltTy.i32)
local notation "sO" => (Memref.whole Cert.Kernel.cc0_scratch2 : Memref Cert.Kernel.sig Kind.scVector Space.vmem Cert.Kernel.S512 EltTy.f32)
local notation "sF" => (Memref.whole Cert.Kernel.cc0_scratch3 : Memref Cert.Kernel.sig Kind.scVector Space.vmem Cert.Kernel.S16 EltTy.f32)

open Idealize.ShloMosaic.StableHlo (held held_split held_sdiff_result wp_hlo_within wp_seq after)
open Idealize.ShloMosaic.Transfers (shareTok shareDrop pointsTo_toks)
open Idealize.ShloMosaic.ValueIdx

/-! ## The specification of the whole result array -/

section Spec
variable [FloatOps F]

theorem cell_div (b : S16384.Idx) : (b 0).val / 512 < 32 := by have h : (b 0).val < 16384 := (b 0).isLt; omega
theorem cell_mod (b : S16384.Idx) : (b 0).val % 512 < 512 := Nat.mod_lt _ (by decide)
theorem cell_lane (b : S16384.Idx) : (b 0).val % 16 < 16 := Nat.mod_lt _ (by decide)

/-- Cell `b` of the result array: with `w = b / 512` and `j = b % 512`, the lane formula over the table, column `j` of
    index block `w`, and lane `b % 16` of the free-term vector. -/
def outSpec (T : FVec F S832 .f32) (X : IVec S32x26x512 32) (V : FVec F S16 .f32) : FVec F S16384 .f32 :=
  fun b => laneVal T (fun f => X (ix3 (⟨(b 0).val / 512, cell_div b⟩ : Fin 32) f (⟨(b 0).val % 512, cell_mod b⟩ : Fin 512)))
    (V (ix1 (⟨(b 0).val % 16, cell_lane b⟩ : Fin 16)))

theorem trips_eq : k0_t1_loop.trips = 32 := by decide

variable (d : Dev nD) (L : grid0.Coords)

/-- What a tile leaves in its cells is the specification there. -/
theorem spec_of_OutOK (tabv : Buf (Elt F) (tabLoc d)) (freev : Buf (Elt F) (freeLoc d)) (xtv : Buf (Elt F) (xtLoc d)) (fo : Buf (Elt F) (outLoc d))
    (h : OutOK d L tabv freev xtv fo) :
    ∀ i ∈ (oBlk L).view.set,
      fo i = outSpec (View.read (Elt F) (tabW).view tabv) (View.read (Elt F) (xtW).view xtv) (View.read (Elt F) (freeW).view freev) i := by
  intro i hi
  obtain ⟨j, -, rfl⟩ := Finset.mem_map.mp hi
  have hj16 : (j 0).val < 512 := (j 0).isLt
  have hk : (j 0).val / 16 < k0_t1_loop.trips := by rw [trips_eq]; omega
  have hx : (j 0).val % 16 < 16 := Nat.mod_lt _ (by decide)
  have hj : j = oIx (⟨(j 0).val / 16, hk⟩ : Fin k0_t1_loop.trips) (ix1 (⟨(j 0).val % 16, hx⟩ : Fin 16)) := by
    funext a
    match a with
    | ⟨0, _⟩ => exact Fin.ext (by show (j 0).val = 16 * ((j 0).val / 16) + (j 0).val % 16; omega)
  have hw := widN_lt L
  rw [hj, h _ _, oBlk_emb]
  unfold outSpec
  congr 1
  · funext f
    rw [View.read_apply, xBlk_emb]
    refine (cast_eq _ _).trans (congrArg xtv (funext fun a => Fin.ext ?_))
    match a with
    | ⟨0, _⟩ => show widN L = (512 * widN L + (16 * ((j 0).val / 16) + (j 0).val % 16)) / 512; omega
    | ⟨1, _⟩ => rfl
    | ⟨2, _⟩ => show 16 * ((j 0).val / 16) + (j 0).val % 16 = (512 * widN L + (16 * ((j 0).val / 16) + (j 0).val % 16)) % 512; omega
  · refine congrArg (View.read (Elt F) (freeW).view freev) (funext fun a => Fin.ext ?_)
    match a with
    | ⟨0, _⟩ => show (j 0).val % 16 = (512 * widN L + (16 * ((j 0).val / 16) + (j 0).val % 16)) % 16; omega

end Spec

variable (m : (ℓ : Loc nD τ sig) → Buf (Elt F) ℓ) (ρ : Dev nD → PrngReg)

variable [FloatOps F]

/-! ## @main's host operations and the arrays they leave -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0

abbrev op0 : HloOp τ sig (Elt F) := StableHlo.reshape main_arg0 main_v0 rfl shapeCasts_S16384x26_S32x512x26
abbrev op1 : HloOp τ sig (Elt F) := StableHlo.unary main_v0 main_v1 ((transpose S32x26x512 [0, 2, 1] · transposes_S32x512x26_S32x26x512_0_2_1) : (⟨S32x512x26, .i32⟩ : BufTy).Contents (Elt F) → (⟨S32x26x512, .i32⟩ : BufTy).Contents (Elt F))
abbrev op2 : HloOp τ sig (Elt F) := StableHlo.reshape main_arg1 main_v2 rfl shapeCasts_S26x32x1_S832
abbrev op3 : HloOp τ sig (Elt F) := StableHlo.unary main_arg2 main_v3 (broadcastInDim S16 ![0] bcast_S1_S16_0 : (⟨S1, .f32⟩ : BufTy).Contents (Elt F) → (⟨S16, .f32⟩ : BufTy).Contents (Elt F))
abbrev hostOps : List (HloOp τ sig (Elt F)) := [op0, op1, op2, op3]

/-- The launch contents, and the contents when the SparseCores are started. -/
def V0 (d : Dev nD) : Valuation τ sig (Elt F) := fun b => m (d, b)
abbrev V4 (d : Dev nD) : Valuation τ sig (Elt F) := after (hostOps (F := F)) (V0 m d)

abbrev r' (b : Ref sig .tc) : DevRef τ sig := Proc.devRef .tc b

/-- The transposed index blocks, the flat table, the free-term vector, as the call finds them. -/
abbrev xtC (d : Dev nD) : Buf (Elt F) (xtLoc d) := V4 m d (r' main_v1)
abbrev tabC (d : Dev nD) : Buf (Elt F) (tabLoc d) := V4 m d (r' main_v2)
abbrev freeC (d : Dev nD) : Buf (Elt F) (freeLoc d) := V4 m d (r' main_v3)

/-- The whole result array as the kernel leaves it. -/
def outS (d : Dev nD) : Buf (Elt F) (outLoc d) :=
  outSpec (View.read (Elt F) (tabW).view (tabC m d)) (View.read (Elt F) (xtW).view (xtC m d)) (View.read (Elt F) (freeW).view (freeC m d))

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

abbrev widF (L : grid0.Coords) : Fin 32 := ⟨widN L, widN_lt L⟩

/-- What a tile is handed: a read share of the table and of the free-term vector, its index block, its result cells. -/
def goP (d : Dev nD) (L : grid0.Coords) : sProp 𝕄 :=
  iprop((tabLoc d ↦{shareTok fullShare 32 (widF L)} tabC m d) ∗ (freeLoc d ↦{shareTok fullShare 32 (widF L)} freeC m d)
    ∗ (xtLoc d ↦[(xBlk L).view.set]{fullShare} xtC m d) ∗ (outLoc d ↦[(oBlk L).view.set]{fullShare} m (outLoc d)))
/-- What it hands back: its result cells, holding the specification. -/
def tdP (d : Dev nD) (L : grid0.Coords) : sProp 𝕄 := outLoc d ↦[(oBlk L).view.set]{fullShare} outS m d

abbrev cG (c : Fin ((K (F := F)).nCore 0)) : Fin (grid0.bound 0) := ⟨c.val, c.isLt⟩
abbrev sG (i : Fin ((K (F := F)).nSub 0)) : Fin (grid0.bound 1) := ⟨i.val, i.isLt⟩

/-- The one call: a SparseCore is handed its sixteen tiles' shares and blocks together and hands their cells back together. -/
def P : (K (F := F)).Pay (nD := nD) (Val := Elt F) (Name := ℕ) (U := UU) where
  st := fun q d c => match q with | 0 => bigSep Finset.univ fun i : Fin ((K (F := F)).nSub 0) => goP m d (coordsV (cG c) (sG i))
  dn := fun q d c => match q with | 0 => bigSep Finset.univ fun i : Fin ((K (F := F)).nSub 0) => tdP m d (coordsV (cG c) (sG i))
  go := fun q d c i => match q with | 0 => goP m d (coordsV (cG c) (sG i))
  td := fun q d c i => match q with | 0 => tdP m d (coordsV (cG c) (sG i))
  x := fun _ _ => iprop(emp)

instance goP_storable (d : Dev nD) (L : grid0.Coords) : BI.Storable (upEmb : UEmb _ 𝕄) (goP m d L) := by unfold goP; infer_instance
instance tdP_storable (d : Dev nD) (L : grid0.Coords) : BI.Storable (upEmb : UEmb _ 𝕄) (tdP m d L) := by unfold tdP; infer_instance

instance P_storable : (P (F := F) m).IsStorable where
  st q d c := match q with | 0 => (inferInstance : BI.Storable (upEmb : UEmb _ 𝕄) (bigSep Finset.univ fun i : Fin ((K (F := F)).nSub 0) => goP m d (coordsV (cG c) (sG i))))
  dn q d c := match q with | 0 => (inferInstance : BI.Storable (upEmb : UEmb _ 𝕄) (bigSep Finset.univ fun i : Fin ((K (F := F)).nSub 0) => tdP m d (coordsV (cG c) (sG i))))
  go q d c i := match q with | 0 => (inferInstance : BI.Storable (upEmb : UEmb _ 𝕄) (goP m d (coordsV (cG c) (sG i))))
  td q d c i := match q with | 0 => (inferInstance : BI.Storable (upEmb : UEmb _ 𝕄) (tdP m d (coordsV (cG c) (sG i))))

/-- What the proof asks of the memory the call finds: every index word below 32. -/
def PreOK : Prop := ∀ (d : Dev nD) (j : S32x26x512.Idx), ((View.read (Elt F) (xtW).view (xtC m d)) j).toNat < 32

/-! ## The launch theorem's obligations -/

theorem defs₀_vector (c : Fin τ.nSC) (s : Fin τ.nSub) :
    defs₀ (F := F) (.scVector c s) 0 ()
      = SparseCore.onTile hcore0 hsub0 (fun c s => cc0__emb_sum_kernel (coordsV c s)
          xtW (Memref.isWhole_whole _) tabW (Memref.isWhole_whole _) freeW (Memref.isWhole_whole _) outW (Memref.isWhole_whole _)
          sT (Memref.isWhole_whole _) sX (Memref.isWhole_whole _) sO (Memref.isWhole_whole _) sF (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's index block read through its own memref is part of the transposed array: its words are below 32. -/
theorem blk_small (hpre : PreOK m) (d : Dev nD) (L : grid0.Coords) (j : S26x512.Idx) :
    (View.read (Elt F) (xBlk L).view (xtC m d) j).toNat < 32 := by
  rw [View.read_apply]
  exact hpre d _

omit [FloatOps F] in
/-- What a tile is handed, respelt through the tile's own memrefs. -/
theorem go_pre (d : Dev nD) (L : grid0.Coords) {A B C D : sProp 𝕄} :
    iprop(A ∗ emp ∗ goP m d L ∗ B ∗ C ∗ D)
      ⊢ iprop(A ∗ ((tabW).view.loc (tile d L) ↦{shareTok fullShare 32 (widF L)} tabC m d)
        ∗ ((freeW).view.loc (tile d L) ↦{shareTok fullShare 32 (widF L)} freeC m d)
        ∗ ((xBlk L).view.loc (tile d L) ↦[(xBlk L).view.set]{fullShare} xtC m d)
        ∗ ((oBlk L).view.loc (tile d L) ↦[(oBlk L).view.set]{fullShare} m (outLoc d))
        ∗ B ∗ C ∗ D) := by
  unfold goP
  iintro ⟨Hlv, -, ⟨Htab, Hfree, Hx, Ho⟩, Hsb, Hss, HO⟩
  isplitl [Hlv]; · iexact Hlv
  isplitl [Htab]; · iexact Htab
  isplitl [Hfree]; · iexact Hfree
  isplitl [Hx]; · iexact Hx
  isplitl [Ho]; · iexact Ho
  isplitl [Hsb]; · iexact Hsb
  isplitl [Hss]; · iexact Hss
  iexact HO

/-- What a tile leaves, as the specification on its cells. -/
theorem td_post (d : Dev nD) (L : grid0.Coords) {B C D : sProp 𝕄} :
    iprop((∃ fo, ⌜OutOK d L (tabC m d) (freeC m d) (xtC m d) fo⌝ ∗ ((oBlk L).view.loc (tile d L) ↦[(oBlk L).view.set]{fullShare} fo)) ∗ B ∗ C ∗ D)
      ⊢ iprop(tdP m d L ∗ B ∗ C ∗ D) := by
  unfold tdP outS
  iintro ⟨⟨%fo, %hfo, Ho⟩, Hsb, Hss, HW⟩
  isplitl [Ho]
  · iapply (Entails.of_eq (pointsTo_congr (spec_of_OutOK d L (tabC m d) (freeC m d) (xtC m d) fo hfo)))
    iexact Ho
  isplitl [Hsb]; · iexact Hsb
  isplitl [Hss]; · iexact Hss
  iexact HW

theorem tile_task (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ goP m d L ∗ scopedBufs (tile d L) ∗ scopedSems0 (tile d L) ∗ owes (tile d L) O W)
      ⊢ wp frame (wpE (defs₀ (F := F)) 𝒱₀ (tile d L) none) Set.univ
          (cc0__emb_sum_kernel L xtW (Memref.isWhole_whole _) tabW (Memref.isWhole_whole _) freeW (Memref.isWhole_whole _) outW (Memref.isWhole_whole _)
            sT (Memref.isWhole_whole _) sX (Memref.isWhole_whole _) sO (Memref.isWhole_whole _) sF (Memref.isWhole_whole _)
            cc0_scoped0 cc0_scoped1 cc0_scoped2 cc0_scoped3)
          fun _ => (iprop(tdP m d L ∗ scopedBufs (tile d L) ∗ scopedSems0 (tile d L)
            ∗ ∃ W', ⌜∀ p ∈ W', p ∈ W ∨ p.2 = none⌝ ∗ owes (tile d L) O W') : sProp 𝕄) :=
  (go_pre m d L).trans ((tile_body d L hF O W hO (shareTok fullShare 32 (widF L)) (shareTok fullShare 32 (widF L))
    (tabC m d) (freeC m d) (xtC m d) (m (outLoc d)) (blk_small m hpre d L)).trans (wp_mono frame _ _ fun _ => td_post m d L))

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m hF hpre d (coordsV ⟨_, hc.1⟩ ⟨_, hc.2⟩) O W hO).trans (wp_mono frame _ _ fun _ => obl_post)

theorem vecSplit : (K (F := F)).VecSplit' (P m) 0 := by
  intro d c
  show (bigSep Finset.univ fun i : Fin ((K (F := F)).nSub 0) => goP m d (coordsV (cG c) (sG i)))
    ⊢ |={Set.univ}=> iprop((bigSep Finset.univ fun i : Fin ((K (F := F)).nSub 0) => goP m d (coordsV (cG c) (sG i)))
      ∗ ((bigSep Finset.univ fun i : Fin ((K (F := F)).nSub 0) => tdP m d (coordsV (cG c) (sG i)))
          -∗ bigSep Finset.univ fun i : Fin ((K (F := F)).nSub 0) => tdP m d (coordsV (cG c) (sG i))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KBMain.lean ====
/-
  @main on the TensorCore and the program's run. The index array's 32 blocks and the result array's 32 runs of 512 cells
  are pairwise disjoint and cover their arrays (a cell belongs to the tile whose worker number is its leading coordinate,
  respectively its position divided by 512); the table and the free-term vector go out as 32 read shares. After the
  call the result array is whole again and holds the specification.
-/
import proofs.«206722_g31198642438219_cont_8to1_b_1255_3_alg».proof.Proof.KBLaunch

noncomputable section

namespace Cert.Proof.KB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.Kernel.main_v1_scv : Memref Cert.Kernel.sig Kind.scVector Space.hbm Cert.Kernel.S32x26x512 EltTy.i32)
local notation "tabW" => (Memref.whole Cert.Kernel.main_v2_scv : Memref Cert.Kernel.sig Kind.scVector Space.hbm Cert.Kernel.S832 EltTy.f32)
local notation "freeW" => (Memref.whole Cert.Kernel.main_v3_scv : Memref Cert.Kernel.sig Kind.scVector Space.hbm Cert.Kernel.S16 EltTy.f32)
local notation "outW" => (Memref.whole Cert.Kernel.main_v4_scv : Memref Cert.Kernel.sig Kind.scVector Space.hbm Cert.Kernel.S16384 EltTy.f32)
local notation "sT" => (Memref.whole Cert.Kernel.cc0_scratch0 : Memref Cert.Kernel.sig Kind.scVector Space.vmem Cert.Kernel.S832 EltTy.f32)
local notation "sX" => (Memref.whole Cert.Kernel.cc0_scratch1 : Memref Cert.Kernel.sig Kind.scVector Space.vmem Cert.Kernel.S26x512 EltTy.i32)
local notation "sO" => (Memref.whole Cert.Kernel.cc0_scratch2 : Memref Cert.Kernel.sig Kind.scVector Space.vmem Cert.Kernel.S512 EltTy.f32)
local notation "sF" => (Memref.whole Cert.Kernel.cc0_scratch3 : Memref Cert.Kernel.sig Kind.scVector Space.vmem Cert.Kernel.S16 EltTy.f32)

open Idealize.ShloMosaic.StableHlo (held held_split held_sdiff_result wp_hlo_within wp_seq after)
open Idealize.ShloMosaic.Transfers (shareTok shareDrop pointsTo_toks)
open Idealize.ShloMosaic.ValueIdx

/-! ## Blocks -/

/-- The tiles of the call, as (SparseCore, subcore). -/
abbrev TI : Type := Fin ((K (F := F)).nCore 0) × Fin ((K (F := F)).nSub 0)
abbrev Lp (p : TI (F := F)) : grid0.Coords := coordsV (cG p.1) (sG p.2)

theorem widN_Lp (p : TI (F := F)) : widN (Lp p) = 2 * p.2.val + p.1.val := rfl

theorem Lp_inj {p p' : TI (F := F)} (h : widN (Lp p) = widN (Lp p')) : p = p' := by
  rw [widN_Lp, widN_Lp] at h
  have h1 : p.1.val < 2 := p.1.isLt
  have h2 : p'.1.val < 2 := p'.1.isLt
  exact Prod.ext (Fin.ext (by omega)) (Fin.ext (by omega))

/-- A tile's index block and result cells, as sets of cells of the whole arrays. -/
abbrev xSetOf (L : grid0.Coords) : Finset S32x26x512.Idx := (xBlk L).view.set
abbrev oSetOf (L : grid0.Coords) : Finset S16384.Idx := (oBlk L).view.set

/-- A cell of the transposed index array is in a tile's block exactly when its leading coordinate is the tile's number. -/
theorem mem_xSet (L : grid0.Coords) (i : S32x26x512.Idx) : i ∈ xSetOf L ↔ (i 0).val = widN L := by
  constructor
  · intro hi
    obtain ⟨y, -, rfl⟩ := Finset.mem_map.mp hi
    obtain ⟨f, j, rfl⟩ : ∃ (f : Fin 26) (j : Fin 512), y = ix2 f j := ⟨y 0, y 1, eq_ix2 y⟩
    show (((xBlk L).view.emb (ix2 f j : S26x512.Idx)) 0).val = widN L
    rw [xBlk_emb]
    rfl
  · intro h
    obtain ⟨w, f, j, rfl⟩ : ∃ (w : Fin 32) (f : Fin 26) (j : Fin 512), i = ix3 w f j := ⟨i 0, i 1, i 2, eq_ix3 i⟩
    have e : (ix3 w f j : S32x26x512.Idx) = (xBlk L).view.emb (ix2 f j : S26x512.Idx) := by
      rw [xBlk_emb]; exact congrArg (fun t => (ix3 t f j : S32x26x512.Idx)) (Fin.ext h)
    rw [e]; exact View.emb_mem_set _ _

/-- A cell of the result array is a tile's exactly when its position divided by 512 is the tile's number. -/
theorem mem_oSet (L : grid0.Coords) (i : S16384.Idx) : i ∈ oSetOf L ↔ (i 0).val / 512 = widN L := by
  constructor
  · intro hi
    obtain ⟨y, -, rfl⟩ := Finset.mem_map.mp hi
    show (((oBlk L).view.emb y) 0).val / 512 = widN L
    rw [oBlk_emb]
    have hy : (y 0).val < 512 := (y 0).isLt
    show (512 * widN L + (y 0).val) / 512 = widN L
    omega
  · intro h
    obtain ⟨b, rfl⟩ : ∃ b : Fin 16384, i = ix1 b := ⟨i 0, eq_ix1 i⟩
    have hlt : b.val % 512 < 512 := Nat.mod_lt _ (by decide)
    have e : (ix1 b : S16384.Idx) = (oBlk L).view.emb (ix1 (⟨b.val % 512, hlt⟩ : Fin 512) : S512.Idx) := by
      rw [oBlk_emb]
      exact congrArg ix1 (Fin.ext (by show b.val = 512 * widN L + b.val % 512; have h' : b.val / 512 = widN L := h; omega))
    rw [e]; exact View.emb_mem_set _ _

theorem xSets_disjoint : ∀ p ∈ (Finset.univ : Finset (TI (F := F))), ∀ p' ∈ (Finset.univ : Finset (TI (F := F))), p ≠ p' →
    Disjoint (xSetOf (Lp p)) (xSetOf (Lp p')) := fun p _ p' _ hne =>
  Finset.disjoint_left.mpr fun i h1 h2 => hne (Lp_inj (((mem_xSet _ i).mp h1).symm.trans ((mem_xSet _ i).mp h2)))
theorem oSets_disjoint : ∀ p ∈ (Finset.univ : Finset (TI (F := F))), ∀ p' ∈ (Finset.univ : Finset (TI (F := F))), p ≠ p' →
    Disjoint (oSetOf (Lp p)) (oSetOf (Lp p')) := fun p _ p' _ hne =>
  Finset.disjoint_left.mpr fun i h1 h2 => hne (Lp_inj (((mem_oSet _ i).mp h1).symm.trans ((mem_oSet _ i).mp h2)))

/-- The tile whose number is `w`. -/
def ofWid (w : Nat) (hw : w < 32) : TI (F := F) := (⟨w % 2, Nat.mod_lt _ (by decide)⟩, ⟨w / 2, by show w / 2 < 16; omega⟩)
theorem widN_ofWid (w : Nat) (hw : w < 32) : widN (Lp (ofWid (F := F) w hw)) = w := by
  show 2 * (w / 2) + w % 2 = w; omega

theorem xSets_cover : (Finset.univ : Finset (TI (F := F))).biUnion (fun p => xSetOf (Lp p)) = Finset.univ := by
  ext i
  simp only [Finset.mem_biUnion, Finset.mem_univ, true_and, iff_true]
  have h : (i 0).val < 32 := (i 0).isLt
  exact ⟨ofWid (i 0).val h, (mem_xSet _ i).mpr (widN_ofWid _ h).symm⟩
theorem oSets_cover : (Finset.univ : Finset (TI (F := F))).biUnion (fun p => oSetOf (Lp p)) = Finset.univ := by
  ext i
  simp only [Finset.mem_biUnion, Finset.mem_univ, true_and, iff_true]
  have h : (i 0).val / 512 < 32 := by have h : (i 0).val < 16384 := (i 0).isLt; omega
  exact ⟨ofWid ((i 0).val / 512) h, (mem_oSet _ i).mpr (widN_ofWid _ h).symm⟩

theorem xt_blocks (d : Dev nD) (f : Buf (Elt F) (xtLoc d)) :
    (xtLoc d ↦{fullShare} f : sProp 𝕄) = bigSep Finset.univ fun p : TI (F := F) => xtLoc d ↦[xSetOf (Lp p)]{fullShare} f := by
  rw [← pointsTo_biUnion Finset.univ (ℓ := xtLoc d) (fun p : TI (F := F) => xSetOf (Lp p)) xSets_disjoint, xSets_cover]; try rfl
theorem out_blocks (d : Dev nD) (f : Buf (Elt F) (outLoc d)) :
    (outLoc d ↦{fullShare} f : sProp 𝕄) = bigSep Finset.univ fun p : TI (F := F) => outLoc d ↦[oSetOf (Lp p)]{fullShare} f := by
  rw [← pointsTo_biUnion Finset.univ (ℓ := outLoc d) (fun p : TI (F := F) => oSetOf (Lp p)) oSets_disjoint, oSets_cover]; try rfl

/-- Tiles and worker numbers correspond one to one. -/
def widEquiv : TI (F := F) ≃ Fin 32 where
  toFun p := widF (Lp p)
  invFun w := ofWid w.val w.isLt
  left_inv p := Lp_inj (widN_ofWid _ _)
  right_inv w := Fin.ext (widN_ofWid _ _)

theorem toks_tiles {ℓ : Loc nD τ sig} (f : Buf (Elt F) ℓ) :
    (ℓ ↦{fullShare} f : sProp 𝕄) ⊢ bigSep Finset.univ fun p : TI (F := F) => ℓ ↦{shareTok fullShare 32 (widF (Lp p))} f := by
  refine (pointsTo_toks (ℓ := ℓ) (S := Finset.univ) (f := f) fullShare 32).1.trans ?_
  rw [bigSep_univ_equiv (widEquiv (F := F)) (fun w : Fin 32 => (ℓ ↦{shareTok fullShare 32 w} f : sProp 𝕄))]
  iintro ⟨-, H⟩
  iexact H

variable (m : (ℓ : Loc nD τ sig) → Buf (Elt F) ℓ) (ρ : Dev nD → PrngReg)
variable [FloatOps F]

/-! ## What the call takes and gives back, from and to whole arrays -/

theorem st0_eq (d : Dev nD) :
    (bigSep Finset.univ fun c : Fin ((K (F := F)).nCore 0) => (P m).st 0 d c) = bigSep Finset.univ fun p : TI (F := F) => goP m d (Lp p) :=
  (bigSep_univ_prod (fun p : TI (F := F) => goP m d (Lp p))).symm
theorem dn0_eq (d : Dev nD) :
    (bigSep Finset.univ fun c : Fin ((K (F := F)).nCore 0) => (P m).dn 0 d c) = bigSep Finset.univ fun p : TI (F := F) => tdP m d (Lp p) :=
  (bigSep_univ_prod (fun p : TI (F := F) => tdP m d (Lp p))).symm

/-- The four arrays the kernel works on, whole, deal out as the 32 tiles' shares and blocks. -/
theorem deal (d : Dev nD) :
    iprop((tabLoc d ↦{fullShare} tabC m d) ∗ (freeLoc d ↦{fullShare} freeC m d) ∗ (xtLoc d ↦{fullShare} xtC m d) ∗ (outLoc d ↦{fullShare} m (outLoc d)))
      ⊢ (bigSep Finset.univ fun p : TI (F := F) => goP m d (Lp p) : sProp 𝕄) := by
  unfold goP
  rw [bigSep_sep', bigSep_sep', bigSep_sep', ← xt_blocks, ← out_blocks]
  iintro ⟨Ht, Hf, Hx, Ho⟩
  isplitl [Ht]; · iapply (toks_tiles (F := F) (tabC m d)); iexact Ht
  isplitl [Hf]; · iapply (toks_tiles (F := F) (freeC m d)); iexact Hf
  isplitl [Hx]; · iexact Hx
  iexact Ho

/-- The tiles' cells, each holding the specification, are the result array whole, holding it. -/
theorem collect (d : Dev nD) :
    (bigSep Finset.univ fun p : TI (F := F) => tdP m d (Lp p) : sProp 𝕄) = outLoc d ↦{fullShare} outS m d := by
  unfold tdP; exact (out_blocks d (outS m d)).symm

/-! ## @main on the TensorCore -/

abbrev S8 : Finset (DevRef τ sig) :=
  {r' main_arg0, r' main_arg1, r' main_arg2, r' main_v0, r' main_v1, r' main_v2, r' main_v3, r' main_v4}

omit [FloatOps F] in
theorem held_S8 (d : Dev nD) (W : Valuation τ sig (Elt F)) :
    (held (T d) S8 W : sProp 𝕄)
      = iprop((a0Loc d ↦{fullShare} W (r' main_arg0)) ∗ (a1Loc d ↦{fullShare} W (r' main_arg1)) ∗ (a2Loc d ↦{fullShare} W (r' main_arg2))
          ∗ (v0Loc d ↦{fullShare} W (r' main_v0)) ∗ (xtLoc d ↦{fullShare} W (r' main_v1)) ∗ (tabLoc d ↦{fullShare} W (r' main_v2))
          ∗ (freeLoc d ↦{fullShare} W (r' main_v3)) ∗ (outLoc d ↦{fullShare} W (r' main_v4))) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ (v0Loc d ↦{fullShare} W main_v0) ∗ (xtLoc d ↦{fullShare} W main_v1) ∗ (tabLoc d ↦{fullShare} W main_v2)
          ∗ (freeLoc d ↦{fullShare} W main_v3) ∗ (outLoc d ↦{fullShare} W main_v4)) := by
  unfold unscopedBufs
  rw [show (Finset.univ.filter fun b : Ref sig .tc => ¬ b.isScoped)
      = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8]; rfl

/-- The host operations write neither an argument array nor the result array. -/
theorem V4_a0 (d : Dev nD) : after (hostOps (F := F)) (V0 m d) (r' main_arg0) = m (a0Loc d) := by
  show after [op0 (F := F), op1, op2, op3] (V0 m d) (r' main_arg0) = _
  after_results; rfl
theorem V4_a1 (d : Dev nD) : after (hostOps (F := F)) (V0 m d) (r' main_arg1) = m (a1Loc d) := by
  show after [op0 (F := F), op1, op2, op3] (V0 m d) (r' main_arg1) = _
  after_results; rfl
theorem V4_a2 (d : Dev nD) : after (hostOps (F := F)) (V0 m d) (r' main_arg2) = m (a2Loc d) := by
  show after [op0 (F := F), op1, op2, op3] (V0 m d) (r' main_arg2) = _
  after_results; rfl
theorem V4_out (d : Dev nD) : after (hostOps (F := F)) (V0 m d) (r' main_v4) = m (outLoc d) := by
  show after [op0 (F := F), op1, op2, op3] (V0 m d) (r' main_v4) = _
  after_results; rfl

theorem hSub : ∀ op ∈ (hostOps (F := F)), op.bufs ⊆ S8 := by
  intro op hop
  simp only [List.mem_cons, List.not_mem_nil, or_false] at hop
  rcases hop with rfl | rfl | rfl | rfl
  · show ({r' main_arg0, r' main_v0} : Finset (DevRef τ sig)) ⊆ S8; decide
  · show ({r' main_v0, r' main_v1} : Finset (DevRef τ sig)) ⊆ S8; decide
  · show ({r' main_arg1, r' main_v2} : Finset (DevRef τ sig)) ⊆ S8; decide
  · show ({r' main_arg2, r' main_v3} : Finset (DevRef τ sig)) ⊆ S8; decide
theorem hFresh : ∀ op ∈ (hostOps (F := F)), op.fresh = ∅ := by
  intro op hop
  simp only [List.mem_cons, List.not_mem_nil, or_false] at hop
  rcases hop with rfl | rfl | rfl | rfl <;> rfl

theorem main_eq (d : Dev nD) :
    main (F := F) d = (StableHlo.seq (hostOps (F := F)) >>= fun _ => do (sc (F := F)).run d 0; pure ⟨⟩) := rfl

/-- What @main leaves the claim: the three arguments at their launch contents, the result array at the specification. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (outLoc d ↦{fullShare} outS m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d S8 _ (hostOps (F := F)) hSub hFresh (V0 m d)) $$ [Hb Hheld]
  · isplitl [Hb]; · iexact Hb
    iexact Hheld
  iintro ⟨Hb, Hheld⟩
  ihave Hh := (Entails.of_eq (held_S8 (F := F) d _)) $$ Hheld
  rw [V4_a0 m d, V4_a1 m d, V4_a2 m d, V4_out m d]
  icases Hh with ⟨H0, H1, H2, Hv0, Hxt, Htab, Hfree, Hout⟩
  rw [wp_bind]
  iapply ((K (F := F)).wp_run (D (F := F)) 𝒱 (EH := EH) (P := P m) κ d 0) $$ [Hst Hxt Htab Hfree Hout H0 H1 H2]
  isplitr; · iexact Hctx
  isplitl [Hst]; · iexact Hst
  isplitl [Hxt Htab Hfree Hout]
  · rw [st0_eq]
    iapply (deal m d)
    isplitl [Htab]; · iexact Htab
    isplitl [Hfree]; · iexact Hfree
    isplitl [Hxt]; · iexact Hxt
    iexact Hout
  iintro ⟨Hst, Hdn⟩
  ihave Hout := (Entails.of_eq ((dn0_eq m d).trans (collect m d))) $$ Hdn
  rw [wp_pure]; imodintro
  isplitl [Hst]; · iexact Hst
  isplitl [H0]; · iexact H0
  isplitl [H1]; · iexact H1
  isplitl [H2]; · iexact H2
  iexact Hout

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (outLoc d) = outS m d

theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := outLoc d) (I := Finset.univ) (q := fullShare) (f := outS m d)) $$ [HSI Ho]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-! ## The program's run -/

def QC : PUnit × MemSt nD τ sig (Elt F) → Prop := fun r => ∀ c : Dev nD,
  r.2.mem (outLoc c) = outS m c ∧ r.2.mem (a0Loc c) = m (a0Loc c) ∧ r.2.mem (a1Loc c) = m (a1Loc c) ∧ r.2.mem (a2Loc c) = m (a2Loc c)

/-- From a memory whose index words are all below 32: every weakly fair execution of the device's threads ends, nothing
    faulting, the arguments unchanged and the result array at the specification. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2.2, (h c).1, (h c).2.1, (h c).2.2.1⟩)

end Cert.Proof.KB

end
-- ==== Proof.KBHost.lean ====
/-
  The arrays @main prepares for the kernel, read at an index: cell (w, f, j) of the 32 transposed index blocks is
  X[512·w + j, f]; entry 32·f + v of the flat table is E[f, v, 0]; every lane of the 16-lane vector is the free term.
-/
import proofs.«206722_g31198642438219_cont_8to1_b_1255_3_alg».proof.Proof.KBMain
import Idealize.ShloMosaic.Lib.Pipeline.Value

noncomputable section

namespace Cert.Proof.KB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtW" => (Memref.whole Cert.Kernel.main_v1_scv : Memref Cert.Kernel.sig Kind.scVector Space.hbm Cert.Kernel.S32x26x512 EltTy.i32)
local notation "tabW" => (Memref.whole Cert.Kernel.main_v2_scv : Memref Cert.Kernel.sig Kind.scVector Space.hbm Cert.Kernel.S832 EltTy.f32)
local notation "freeW" => (Memref.whole Cert.Kernel.main_v3_scv : Memref Cert.Kernel.sig Kind.scVector Space.hbm Cert.Kernel.S16 EltTy.f32)
local notation "outW" => (Memref.whole Cert.Kernel.main_v4_scv : Memref Cert.Kernel.sig Kind.scVector Space.hbm Cert.Kernel.S16384 EltTy.f32)
local notation "sT" => (Memref.whole Cert.Kernel.cc0_scratch0 : Memref Cert.Kernel.sig Kind.scVector Space.vmem Cert.Kernel.S832 EltTy.f32)
local notation "sX" => (Memref.whole Cert.Kernel.cc0_scratch1 : Memref Cert.Kernel.sig Kind.scVector Space.vmem Cert.Kernel.S26x512 EltTy.i32)
local notation "sO" => (Memref.whole Cert.Kernel.cc0_scratch2 : Memref Cert.Kernel.sig Kind.scVector Space.vmem Cert.Kernel.S512 EltTy.f32)
local notation "sF" => (Memref.whole Cert.Kernel.cc0_scratch3 : Memref Cert.Kernel.sig Kind.scVector Space.vmem Cert.Kernel.S16 EltTy.f32)

open Idealize.ShloMosaic.StableHlo (after)
open Idealize.ShloMosaic.ValueIdx

variable (m : (ℓ : Loc nD τ sig) → Buf (Elt F) ℓ)
variable [FloatOps F]

theorem V4_xt (d : Dev nD) :
    after (hostOps (F := F)) (V0 m d) (r' main_v1) = transpose S32x26x512 [0, 2, 1] (shapeCast S32x512x26 (m (a0Loc d)) shapeCasts_S16384x26_S32x512x26) transposes_S32x512x26_S32x26x512_0_2_1 := by
  show after [op0 (F := F), op1, op2, op3] (V0 m d) (r' main_v1) = _
  after_results; rfl
theorem V4_tab (d : Dev nD) :
    after (hostOps (F := F)) (V0 m d) (r' main_v2) = shapeCast S832 (m (a1Loc d)) shapeCasts_S26x32x1_S832 := by
  show after [op0 (F := F), op1, op2, op3] (V0 m d) (r' main_v2) = _
  after_results; rfl
theorem V4_free (d : Dev nD) :
    after (hostOps (F := F)) (V0 m d) (r' main_v3) = broadcastInDim S16 ![0] bcast_S1_S16_0 (m (a2Loc d)) := by
  show after [op0 (F := F), op1, op2, op3] (V0 m d) (r' main_v3) = _
  after_results; rfl

omit [FloatOps F] in
theorem row_lt (w : Fin 32) (j : Fin 512) : 512 * w.val + j.val < 16384 := by
  have h1 := w.isLt; have h2 := j.isLt; omega

omit [FloatOps F] in
/-- Cell (w, f, j) of the transposed blocks. -/
theorem xt_apply {α : Type} (X : S16384x26.Idx → α) (w : Fin 32) (f : Fin 26) (j : Fin 512) :
    transpose S32x26x512 [0, 2, 1] (shapeCast S32x512x26 X shapeCasts_S16384x26_S32x512x26) transposes_S32x512x26_S32x26x512_0_2_1 (ix3 w f j)
      = X (ix2 (⟨512 * w.val + j.val, row_lt w j⟩ : Fin 16384) f) := by
  rw [transpose_apply [0, 2, 1] _ transposes_S32x512x26_S32x26x512_0_2_1 (ix3 w f j) (ix3 w j f : S32x512x26.Idx)
    (fun b => match b with | ⟨0, _⟩ => rfl | ⟨1, _⟩ => rfl | ⟨2, _⟩ => rfl)]
  exact shapeCast_apply X shapeCasts_S16384x26_S32x512x26 (ix3 w j f) _
    (by rw [Shape.rowMajor_val_two, Shape.rowMajor_val_three]
        show (512 * w.val + j.val) * 26 + f.val = (w.val * 512 + j.val) * 26 + f.val
        omega)

omit [FloatOps F] in
theorem ent_lt (f : Fin 26) (v : Fin 32) : 32 * f.val + v.val < 832 := by
  have h1 := f.isLt; have h2 := v.isLt; omega

omit [FloatOps F] in
/-- Entry 32·f + v of the flat table. -/
theorem tab_apply {α : Type} (E : S26x32x1.Idx → α) (f : Fin 26) (v : Fin 32) :
    shapeCast S832 E shapeCasts_S26x32x1_S832 (ix1 (⟨32 * f.val + v.val, ent_lt f v⟩ : Fin 832)) = E (ix3 f v (0 : Fin 1)) :=
  shapeCast_apply E shapeCasts_S26x32x1_S832 _ (ix3 f v (0 : Fin 1))
    (by rw [Shape.rowMajor_val_three, Shape.rowMajor_val_one]
        show (f.val * 32 + v.val) * 1 + 0 = 32 * f.val + v.val
        omega)

omit [FloatOps F] in
/-- Every lane of the repeated free term. -/
theorem free_apply {α : Type} (fr : S1.Idx → α) (x : S16.Idx) :
    broadcastInDim S16 ![0] bcast_S1_S16_0 fr x = fr (ix1 (0 : Fin 1)) :=
  broadcastInDim_apply _ bcast_S1_S16_0 fr x (ix1 (0 : Fin 1)) (fun a => match a with
    | ⟨0, _⟩ => by show 0 = if (1 : Nat) = 1 then 0 else (x 0).val; rw [if_pos rfl])

/-- Every staged index word is a word of X. -/
theorem preOK_of_small (h : ∀ (d : Dev nD) (i : S16384x26.Idx), ((m (a0Loc d) : IVec S16384x26 32) i).toNat < 32) : PreOK m := by
  intro d j
  show ((after (hostOps (F := F)) (V0 m d) (r' main_v1) : IVec S32x26x512 32) j).toNat < 32
  obtain ⟨w, f, jj, rfl⟩ : ∃ (w : Fin 32) (f : Fin 26) (jj : Fin 512), j = ix3 w f jj := ⟨j 0, j 1, j 2, eq_ix3 j⟩
  rw [V4_xt, xt_apply]
  exact h d _

end Cert.Proof.KB

end
-- ==== Proof.lean ====
/-
  The certificate's claim. The kernel computes, for every batch position b, the free term with the 26 per-field
  embedding entries E[f, X[b, f], 0] added on one after the other; the reference computes the free term plus their sum.
  On the extended reals addition is associative and commutative (also at the infinities), so the two are one function;
  no finiteness is used. The frames: every index word is between 0 and 31 (the precondition), so every gather of a tile
  reads inside the 26·32-entry table and every thread of the launch runs to its end; the three argument arrays never
  leave the TensorCore. The same run, read at the word level, is the printed kernel's frame; the idealization rewrote
  nothing, so it preserves nothing but the text.
-/
import proofs.«206722_g31198642438219_cont_8to1_b_1255_3_alg».proof.Defs
import proofs.«206722_g31198642438219_cont_8to1_b_1255_3_alg».proof.Proof.Gen.Kernel
import proofs.«206722_g31198642438219_cont_8to1_b_1255_3_alg».proof.Proof.Gen.Kernel.Skeleton
import proofs.«206722_g31198642438219_cont_8to1_b_1255_3_alg».proof.Proof.Gen.KernelIdeal
import proofs.«206722_g31198642438219_cont_8to1_b_1255_3_alg».proof.Proof.Gen.KernelIdeal.Skeleton
import proofs.«206722_g31198642438219_cont_8to1_b_1255_3_alg».proof.Proof.Gen.ReferenceIdeal
import proofs.«206722_g31198642438219_cont_8to1_b_1255_3_alg».proof.Proof.Gen.ReferenceIdeal.Run
import proofs.«206722_g31198642438219_cont_8to1_b_1255_3_alg».proof.Proof.Gen.ReferenceIdeal.Read
import proofs.«206722_g31198642438219_cont_8to1_b_1255_3_alg».proof.Proof.Gen.Pre_input_domain
import proofs.«206722_g31198642438219_cont_8to1_b_1255_3_alg».proof.Proof.RefSide
import proofs.«206722_g31198642438219_cont_8to1_b_1255_3_alg».proof.Proof.RefValue
import proofs.«206722_g31198642438219_cont_8to1_b_1255_3_alg».proof.Proof.PreDecode
import proofs.«206722_g31198642438219_cont_8to1_b_1255_3_alg».proof.Proof.KIBridge
import proofs.«206722_g31198642438219_cont_8to1_b_1255_3_alg».proof.Proof.KBHost
import Idealize.ShloMosaic.Adequacy
import Idealize.ShloMosaic.Init

noncomputable section

namespace Cert.Proof

open Idealize.ShloMosaic Idealize.SL.Sem

/-- The printed kernel, at the word level: it runs to its end and leaves its arguments as they were. -/
theorem frame_k : Cert.frame_Kernel := fun m ρ hpre =>
  (θ_run Cert.Kernel.defs _ _).mono (fun _ h c => ⟨(h c).2.1, (h c).2.2.1, (h c).2.2.2⟩)
    (KB.run_main (F := Bits) m ρ (KB.preOK_of_small m fun d => PreDecode.idx_small _ _ _ (hpre d)))

/-- The idealized kernel: the same. -/
theorem frame_ki : Cert.frame_KernelIdeal := fun m ρ hpre =>
  (θ_run Cert.KernelIdeal.defs _ _).mono (fun _ h c => ⟨(h c).2.1, (h c).2.2.1, (h c).2.2.2⟩)
    (KI.run_main (F := Ideal) m ρ (KI.preOK_of_small m fun d => PreDecode.idx_small _ _ _ (hpre d)))

/-- The ideal pass rewrote no operation. -/
theorem preserves : Cert.preserves_Kernel_KernelIdeal := trivial

/-- From memories agreeing on the arguments both programs end with the result array at the same function of them. -/
theorem algebraic : Cert.algebraic_KernelIdeal_ReferenceIdeal := by
  intro m ρ m' ρ' hpre hagree
  have hX : ∀ (d : Dev Cert.KernelIdeal.nD) (i : Cert.KernelIdeal.S16384x26.Idx),
      ((m (KI.a0Loc d) : IVec Cert.KernelIdeal.S16384x26 32) i).toNat < 32 := fun d => PreDecode.idx_small _ _ _ (hpre d)
  refine ⟨fun c => KI.outS (F := Ideal) m c, ?_, ?_⟩
  · exact (θ_run Cert.KernelIdeal.defs _ _).mono (fun _ h c => ⟨(h c).1, (h c).2.1, (h c).2.2.1, (h c).2.2.2⟩)
      (KI.run_main (F := Ideal) m ρ (KI.preOK_of_small m hX))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, (hagree c).1, (hagree c).2.1, (hagree c).2.2,
      RefValue.ref_eq_G _ _ _ (hX c)]
    exact (KI.outS_eq_G m c (hX c)).symm

theorem claim : Cert.Claim :=
  ⟨Cert.Kernel.Gen.facts, Cert.KernelIdeal.Gen.facts, Cert.ReferenceIdeal.Gen.facts, Cert.Pre_input_domain.Gen.facts,
    frame_k, frame_ki, RefSide.frame_ri, preserves, algebraic⟩

end Cert.Proof

end
